-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64 .f32) (main_arg6 : FVec F S64x40 .f32) (main_arg7 : FVec F S40 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) (main_arg6 : FVec F S64x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 62
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x128, .f32⟩
  | .hbm, ⟨40, _⟩ => ⟨S_, .f32⟩
  | .hbm, ⟨41, _⟩ => ⟨S100000x128, .f32⟩
  | .hbm, ⟨42, _⟩ => ⟨S1700000x1, .i32⟩
  | .hbm, ⟨43, _⟩ => ⟨S100000x128, .f32⟩
  | .hbm, ⟨44, _⟩ => ⟨S1x128, .f32⟩
  | .hbm, ⟨45, _⟩ => ⟨S100000x64, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S1x40, .f32⟩
  | .hbm, ⟨61, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S64x40, .f32⟩
  | .local _ .vmem, ⟨21, _⟩ => ⟨S1x40, .f32⟩
  | .local _ .vmem, ⟨22, _⟩ => ⟨S5000x40, .f32⟩
  | .local _ .vmem, ⟨23, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S40_S1x40 : S40.ShapeCasts S1x40
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x40.size a ≤ S64x40.size a
  hwx2_3 : ∀ i : grid2.Coords, EltTy.bits .f32 = 32 ∨ (Rect.block (s := S64x40) S64x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S100000x40.size a
  hwx2_5 : ∀ i : grid2.Coords, EltTy.bits .f32 = 32 ∨ (Rect.block (s := S100000x40) S5000x40.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1x40 : Shape := ⟨2, ![1, 40]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x128, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000, .f32⟩
  | .hbm, ⟨90, _⟩ => ⟨S1700000, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x64, .f32⟩
  | .hbm, ⟨100, _⟩ => ⟨S1700000x1, .f32⟩
  | .hbm, ⟨101, _⟩ => ⟨S1700000x64, .f32⟩
  | .hbm, ⟨102, _⟩ => ⟨S1700000x64, .f32⟩
  | .hbm, ⟨103, _⟩ => ⟨S_, .f32⟩
  | .hbm, ⟨104, _⟩ => ⟨S100000x64, .f32⟩
  | .hbm, ⟨105, _⟩ => ⟨S1700000x1, .i32⟩
  | .hbm, ⟨106, _⟩ => ⟨S100000x64, .f32⟩
  | .hbm, ⟨107, _⟩ => ⟨S1x64, .f32⟩
  | .hbm, ⟨108, _⟩ => ⟨S100000x64, .f32⟩
  | .hbm, ⟨109, _⟩ => ⟨S100000x64, .f32⟩
  | .hbm, ⟨110, _⟩ => ⟨S_, .f32⟩
  | .hbm, ⟨111, _⟩ => ⟨S100000x64, .f32⟩
  | .hbm, ⟨112, _⟩ => ⟨S100000x64, .f32⟩
  | .hbm, ⟨113, _⟩ => ⟨S100000x40, .f32⟩
  | .hbm, ⟨114, _⟩ => ⟨S1x40, .f32⟩
  | .hbm, ⟨115, _⟩ => ⟨S100000x40, .f32⟩
  | .hbm, ⟨116, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_cst : Ref sig .tc := ⟨.hbm, 110, rfl⟩
abbrev main_call2_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KernelRun.lean ====
/-
  The run of the idealized kernel program with its RESULT named. The program is three pipelined regions among stretches
  of host operations; at its end every unscoped buffer holds the contents of the last boundary of the fold through the
  program (each stretch applied to the previous contents, each region's arrays at what its write-backs leave). Read at
  the result buffer this gives the result array; read at an argument it gives the launch contents.
-/
import proofs.«147734_j3118146257548_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the launch theorem are found by unifying its conclusion with this one
set_option backward.isDefEq.respectTransparency.types false in
/-- Every weakly fair execution of the program terminates without a fault; the result buffer then holds the last
    boundary's contents there, and every argument array its launch contents. -/
theorem run_result : θ_run defs (onTc (τ := τ) (main (F := F))) ⟨m, fun _ => 0, ρ⟩ (fun r => ∀ c : Dev nD,
      r.2.mem ((c.tc : Thread nD τ).loc main_v41) = W8 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v41 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunValue

end
-- ==== Proof.LibScatterGather.lean ====
/-
  THE HOST'S ACCUMULATING SCATTER AND ITS ROW GATHER, READ AT ONE INDEX, for every size of the arrays.

  Two index patterns, each for a matrix of rows and for a flat array:

  * SCATTER-ADD OF ROWS. An operand `x : [N, C]`, a column of start words `idx : [M, 1]` and updates `upd : [M, C]`;
    update row `e` is added onto operand row `idx[e, 0]`, the word read as a SIGNED integer and NOT clamped: a start
    outside `[0, N)` drops the row. At the extended reals the result at `(v, f)` is therefore
        x (v, f) + Σ_{e : idx[e,0] = v} upd (e, f),
    the sum over exactly those `e` whose start word, read signed, is `v` (`scatterAdd_rows_apply`). The flat form, an
    operand `[N]` with updates `[M]`, is the same statement without the column coordinate (`scatterAdd_flat_apply`).
  * GATHER OF ROWS. An operand `x : [N, C]` and the same column of start words; result row `e` is operand row
    `idx[e, 0]`, the word read signed and CLAMPED into `[0, N − 1]` (`gather_rows_apply`); the flat form reads one
    element (`gather_flat_apply`).

  The proofs evaluate the dimension numbers' coordinate maps — which operand axis reads which update or result axis —
  once, for symbolic sizes: only the ranks, which are literals, decide them. For the scatter the set of update indices
  landing on `(v, f)` is then `{(e, f) | idx[e,0] = v}`, and the sum over it is re-indexed along `e ↦ (e, f)`.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## Scatter-add of rows: operand `[N, C]`, start words `[M, 1]`, updates `[M, C]` -/

/-- The dimension numbers of a row scatter: update axis 1 is the window axis and goes to operand axis 1; operand axis 0
    is inserted and receives the start index, whose single component is read along axis 1 of the start words. Their
    conditions `wf` are decided on literal sizes. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section Rows
variable {N M C w : Nat} (wf : ScatterDims.WF ⟨2, ![N, C]⟩ ⟨2, ![M, 1]⟩ ⟨2, ![M, C]⟩ [1] [0] [0] 1)

/-- On operand axis 0 the window of update `(e, g)` starts at the start word of row `e`, read signed. -/
theorem rows_start0 (idx : IVec ⟨2, ![M, 1]⟩ w) (e : Fin M) (g : Fin C) :
    (rowScatterDims N M C wf).start (ix2 e g) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e g) ⟨List.idxOf (0 : Fin 2) (rowScatterDims N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the start index does not name, every window starts at `0`. -/
theorem rows_start1 (idx : IVec ⟨2, ![M, 1]⟩ w) (j : (⟨2, ![M, C]⟩ : Shape).Idx) :
    (rowScatterDims N M C wf).start j idx 1 = 0 := rfl

/-- Operand axis 0 is inserted: the window coordinate there is `0`. -/
theorem rows_window0 (j : (⟨2, ![M, C]⟩ : Shape).Idx) : (rowScatterDims N M C wf).window j 0 = 0 := rfl

/-- On operand axis 1 the window coordinate is the update's column. -/
theorem rows_window1 (j : (⟨2, ![M, C]⟩ : Shape).Idx) : (rowScatterDims N M C wf).window j 1 = (j 1).val := rfl

/-- WHERE AN UPDATE LANDS: update `(e, g)` lands on `(v, f)` exactly when the start word of row `e`, read signed, is `v`
    and `g = f`; a start word outside `[0, N)` lands nowhere. -/
theorem rows_resultIdx?_eq_some_iff (idx : IVec ⟨2, ![M, 1]⟩ w) (e : Fin M) (g : Fin C) (v : Fin N) (f : Fin C) :
    (rowScatterDims N M C wf).resultIdx? (ix2 e g) idx = some (ix2 v f)
      ↔ (idx (ix2 e (0 : Fin 1))).toInt = (v.val : ℤ) ∧ g = f := by
  have hs0 := rows_start0 wf idx e g
  have hs1 := rows_start1 wf idx (ix2 e g)
  have hw0 := rows_window0 wf (ix2 e g)
  have hw1 := rows_window1 wf (ix2 e g)
  have hg : ((ix2 e g : (⟨2, ![M, C]⟩ : Shape).Idx) 1).val = g.val := rfl
  have hvN : v.val < N := v.isLt
  have hgC : g.val < C := g.isLt
  have hsz0 : (⟨2, ![N, C]⟩ : Shape).size 0 = N := rfl
  have hsz1 : (⟨2, ![N, C]⟩ : Shape).size 1 = C := rfl
  unfold ScatterDims.resultIdx?
  split
  · rename_i h
    rw [Option.some.injEq]
    constructor
    · intro hfun
      have h0 := congrArg Fin.val (congrFun hfun 0)
      have h1 := congrArg Fin.val (congrFun hfun 1)
      have hv0 : ((ix2 v f : (⟨2, ![N, C]⟩ : Shape).Idx) 0).val = v.val := rfl
      have hf1 : ((ix2 v f : (⟨2, ![N, C]⟩ : Shape).Idx) 1).val = f.val := rfl
      simp only [hs0, hs1, hw0, hw1, hg, hv0, hf1] at h0 h1
      have hh := (h 0).1
      simp only [hs0, hw0] at hh
      refine ⟨by omega, Fin.ext (by omega)⟩
    · rintro ⟨ht, rfl⟩
      funext a
      refine Fin.ext ?_
      match a with
      | ⟨0, _⟩ =>
        show ((rowScatterDims N M C wf).start (ix2 e g) idx 0 + ((rowScatterDims N M C wf).window (ix2 e g) 0 : ℕ)).toNat = v.val
        rw [hs0, hw0, ht]; simp
      | ⟨1, _⟩ =>
        show ((rowScatterDims N M C wf).start (ix2 e g) idx 1 + ((rowScatterDims N M C wf).window (ix2 e g) 1 : ℕ)).toNat = g.val
        rw [hs1, hw1, hg]; simp
  · rename_i h
    constructor
    · intro hc; exact absurd hc (by simp)
    · rintro ⟨ht, rfl⟩
      exfalso; apply h
      intro a
      match a with
      | ⟨0, _⟩ =>
        show 0 ≤ (rowScatterDims N M C wf).start (ix2 e g) idx 0 + ((rowScatterDims N M C wf).window (ix2 e g) 0 : ℕ) ∧
          (rowScatterDims N M C wf).start (ix2 e g) idx 0 + ((rowScatterDims N M C wf).window (ix2 e g) 0 : ℕ) < ((⟨2, ![N, C]⟩ : Shape).size 0 : ℕ)
        rw [hs0, hw0, ht, hsz0]; omega
      | ⟨1, _⟩ =>
        show 0 ≤ (rowScatterDims N M C wf).start (ix2 e g) idx 1 + ((rowScatterDims N M C wf).window (ix2 e g) 1 : ℕ) ∧
          (rowScatterDims N M C wf).start (ix2 e g) idx 1 + ((rowScatterDims N M C wf).window (ix2 e g) 1 : ℕ) < ((⟨2, ![N, C]⟩ : Shape).size 1 : ℕ)
        rw [hs1, hw1, hg, hsz1]; omega

/-- THE ROW SCATTER-ADD READ AT `(v, f)`: the operand there plus the sum of `upd (e, f)` over the rows `e` whose start
    word, read signed, is `v`. -/
theorem scatterAdd_rows_apply {φ : FTy} (x : FVec Ideal ⟨2, ![N, C]⟩ φ) (idx : IVec ⟨2, ![M, 1]⟩ w)
    (upd : FVec Ideal ⟨2, ![M, C]⟩ φ) (v : Fin N) (f : Fin C) :
    Host.scatterAdd (rowScatterDims N M C wf) x idx upd (ix2 v f)
      = x (ix2 v f) + ∑ e ∈ Finset.univ.filter (fun e : Fin M => (idx (ix2 e (0 : Fin 1))).toInt = (v.val : ℤ)),
          upd (ix2 e f) := by
  show x (ix2 v f) + ∑ j ∈ Finset.univ.filter (fun j => (rowScatterDims N M C wf).resultIdx? j idx = some (ix2 v f)), upd j = _
  congr 1
  refine Finset.sum_nbij' (fun j => j 0) (fun e => ix2 e f) ?_ ?_ ?_ ?_ ?_
  · intro j hj
    obtain ⟨e, g, rfl⟩ : ∃ e g, j = ix2 e g := ⟨j 0, j 1, eq_ix2 j⟩
    rw [Finset.mem_filter] at hj
    show e ∈ _
    exact Finset.mem_filter.2 ⟨Finset.mem_univ _, ((rows_resultIdx?_eq_some_iff wf idx e g v f).1 hj.2).1⟩
  · intro e he
    rw [Finset.mem_filter] at he ⊢
    exact ⟨Finset.mem_univ _, (rows_resultIdx?_eq_some_iff wf idx e f v f).2 ⟨he.2, rfl⟩⟩
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl
  · intro e _
    rfl
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl

end Rows

/-! ## Scatter-add into a flat array: operand `[N]`, start words `[M, 1]`, updates `[M]` -/

/-- The dimension numbers of a flat scatter: no window axis; operand axis 0 is inserted and receives the start index,
    whose single component is read along axis 1 of the start words. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Flat
variable {N M w : Nat} (wf : ScatterDims.WF ⟨1, ![N]⟩ ⟨2, ![M, 1]⟩ ⟨1, ![M]⟩ [] [0] [0] 1)

/-- The window of update `e` starts at the start word of row `e`, read signed. -/
theorem flat_start0 (idx : IVec ⟨2, ![M, 1]⟩ w) (e : Fin M) :
    (flatScatterDims N M wf).start (ix1 e) idx 0 = (idx (ix2 e (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: the window coordinate is `0`. -/
theorem flat_window0 (j : (⟨1, ![M]⟩ : Shape).Idx) : (flatScatterDims N M wf).window j 0 = 0 := rfl

/-- WHERE AN UPDATE LANDS: update `e` lands on `v` exactly when the start word of row `e`, read signed, is `v`. -/
theorem flat_resultIdx?_eq_some_iff (idx : IVec ⟨2, ![M, 1]⟩ w) (e : Fin M) (v : Fin N) :
    (flatScatterDims N M wf).resultIdx? (ix1 e) idx = some (ix1 v)
      ↔ (idx (ix2 e (0 : Fin 1))).toInt = (v.val : ℤ) := by
  have hs0 := flat_start0 wf idx e
  have hw0 := flat_window0 wf (ix1 e)
  have hvN : v.val < N := v.isLt
  have hsz0 : (⟨1, ![N]⟩ : Shape).size 0 = N := rfl
  unfold ScatterDims.resultIdx?
  split
  · rename_i h
    rw [Option.some.injEq]
    constructor
    · intro hfun
      have h0 := congrArg Fin.val (congrFun hfun 0)
      have hv0 : ((ix1 v : (⟨1, ![N]⟩ : Shape).Idx) 0).val = v.val := rfl
      simp only [hs0, hw0, hv0] at h0
      have hh := (h 0).1
      simp only [hs0, hw0] at hh
      omega
    · intro ht
      funext a
      refine Fin.ext ?_
      match a with
      | ⟨0, _⟩ =>
        show ((flatScatterDims N M wf).start (ix1 e) idx 0 + ((flatScatterDims N M wf).window (ix1 e) 0 : ℕ)).toNat = v.val
        rw [hs0, hw0, ht]; simp
  · rename_i h
    constructor
    · intro hc; exact absurd hc (by simp)
    · intro ht
      exfalso; apply h
      intro a
      match a with
      | ⟨0, _⟩ =>
        show 0 ≤ (flatScatterDims N M wf).start (ix1 e) idx 0 + ((flatScatterDims N M wf).window (ix1 e) 0 : ℕ) ∧
          (flatScatterDims N M wf).start (ix1 e) idx 0 + ((flatScatterDims N M wf).window (ix1 e) 0 : ℕ) < ((⟨1, ![N]⟩ : Shape).size 0 : ℕ)
        rw [hs0, hw0, ht, hsz0]; omega

/-- THE FLAT SCATTER-ADD READ AT `v`: the operand there plus the sum of `upd e` over the `e` whose start word, read
    signed, is `v`. -/
theorem scatterAdd_flat_apply {φ : FTy} (x : FVec Ideal ⟨1, ![N]⟩ φ) (idx : IVec ⟨2, ![M, 1]⟩ w)
    (upd : FVec Ideal ⟨1, ![M]⟩ φ) (v : Fin N) :
    Host.scatterAdd (flatScatterDims N M wf) x idx upd (ix1 v)
      = x (ix1 v) + ∑ e ∈ Finset.univ.filter (fun e : Fin M => (idx (ix2 e (0 : Fin 1))).toInt = (v.val : ℤ)),
          upd (ix1 e) := by
  show x (ix1 v) + ∑ j ∈ Finset.univ.filter (fun j => (flatScatterDims N M wf).resultIdx? j idx = some (ix1 v)), upd j = _
  congr 1
  refine Finset.sum_nbij' (fun j => j 0) (fun e => ix1 e) ?_ ?_ ?_ ?_ ?_
  · intro j hj
    obtain ⟨e, rfl⟩ : ∃ e, j = ix1 e := ⟨j 0, eq_ix1 j⟩
    rw [Finset.mem_filter] at hj
    show e ∈ _
    exact Finset.mem_filter.2 ⟨Finset.mem_univ _, (flat_resultIdx?_eq_some_iff wf idx e v).1 hj.2⟩
  · intro e he
    rw [Finset.mem_filter] at he ⊢
    exact ⟨Finset.mem_univ _, (flat_resultIdx?_eq_some_iff wf idx e v).2 he.2⟩
  · intro j _
    exact (eq_ix1 j).symm
  · intro e _
    rfl
  · intro j _
    exact congrArg upd (eq_ix1 j)

end Flat

/-! ## Gather of rows: operand `[N, C]`, start words `[M, 1]`, result `[M, C]` -/

/-- The dimension numbers of a row gather: result axis 1 is the offset axis and reads operand axis 1 over its whole
    width `C`; operand axis 0 is collapsed (a slice of one row) and receives the start index, whose single component is
    read along axis 1 of the start words. Their conditions `wf` are decided on literal sizes. -/
abbrev rowGatherDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at column `f` of the row named by the start word of row `e`, read
    signed and clamped into `[0, N − 1]`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (rowGatherDims N M C wf) x idx (ix2 e f)
      = x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N M C wf).start (ix2 e f) idx 0 + (rowGatherDims N M C wf).batchCoord (ix2 e f) 0
      + (rowGatherDims N M C wf).offCoord (ix2 e f) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e f) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e f) idx 1 + (rowGatherDims N M C wf).batchCoord (ix2 e f) 1
      + (rowGatherDims N M C wf).offCoord (ix2 e f) 1 = f.val
    rw [GatherDims.batchCoord_eq_zero _ _ _ List.not_mem_nil]
    have hst : (rowGatherDims N M C wf).start (ix2 e f) idx 1 = 0 := rfl
    have hoff : (rowGatherDims N M C wf).offCoord (ix2 e f) 1 = f.val := rfl
    rw [hst, hoff]; simp

/-! ## Gather from a flat array: operand `[N]`, start words `[M, 1]`, result `[M]` -/

/-- The dimension numbers of a flat gather: no offset axis; the one operand axis is collapsed and receives the start
    index, whose single component is read along axis 1 of the start words. -/
abbrev flatGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start word of row `e`, read signed and clamped into `[0, N − 1]`. -/
theorem gather_flat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A record written out at literal sizes is the generic one -/

/-- At literal sizes the dimension numbers written out field by field, their conditions decided, are the generic record:
    the two agree field for field, and the conditions are a proposition. -/
example :
    ({ updateWindowDims := [1], insertedWindowDims := [0], scatterDimsToOperandDims := [0], indexVectorDim := 1,
       wf := by decide } : ScatterDims ⟨2, ![50000, 64]⟩ ⟨2, ![850000, 1]⟩ ⟨2, ![850000, 64]⟩)
      = rowScatterDims 50000 850000 64 (by decide) := rfl

/-- Likewise for a gather's. -/
example :
    ({ offsetDims := [1], collapsedSliceDims := [0], operandBatchingDims := [], startIndicesBatchingDims := [],
       startIndexMap := [0], indexVectorDim := 1, sliceSizes := ![1, 64],
       wf := by decide } : GatherDims ⟨2, ![50000, 64]⟩ ⟨2, ![800000, 1]⟩ ⟨2, ![800000, 64]⟩)
      = rowGatherDims 50000 800000 64 (by decide) := rfl

end Cert.Lib.ScatterGather

end
-- ==== Proof.GraphTerms.lean ====
/-
  The graph part of a two-layer graph convolution over 100000 nodes and 1700000 edges (the given edges followed by one
  self loop per node), as terms over the host's operations at the extended reals — the common vocabulary of the two
  programs compared by this certificate.

  From the vector `dv` of target words: the degree of a node is the number of edges whose target word, read signed, is
  that node (an accumulating scatter of ones into zeros); its scale is 1/sqrt(degree) where the degree is positive and
  0 elsewhere (`scaleVec`, and `scaleCol` as a column). A vector of words is NORMALISED for a gather by adding the node
  count to a negative word (`normIdx`); the scatter reads the target words as they are. Then the two ways of
  aggregating rows along the edges: `aggSent` gathers rows already scaled at their source and sums them at the
  target; `aggWeighted` gathers plain rows, multiplies each by the product `edgeNorm` of its two end scales, and sums.
-/
import Idealize.ShloMosaic.PureOps.Ideal
import Idealize.ShloMosaic.Lib.ValueIdx
import proofs.«147734_j3118146257548_2_alg».proof.Proof.LibScatterGather

noncomputable section

namespace Cert.Gcn

open Idealize.ShloMosaic Idealize.ShloMosaic.ValueIdx Cert.Lib.ScatterGather

/-- The shapes: a scalar, a vector over the edges and the same as a column, a vector over the nodes and as a column. -/
abbrev S0 : Shape := ⟨0, ![]⟩
abbrev SE : Shape := ⟨1, ![1700000]⟩
abbrev SEc : Shape := ⟨2, ![1700000, 1]⟩
abbrev SN : Shape := ⟨1, ![100000]⟩
abbrev SNc : Shape := ⟨2, ![100000, 1]⟩

theorem splatE : S0.BroadcastsInDim SE (![] : Fin 0 → Fin SE.rank) := by decide
theorem splatN : S0.BroadcastsInDim SN (![] : Fin 0 → Fin SN.rank) := by decide
theorem colE : SE.BroadcastsInDim SEc (![0] : Fin 1 → Fin SEc.rank) := by decide
theorem colN : SN.ShapeCasts SNc := by decide

/-- The given edge array: two rows of 1600000 words, sources above targets. -/
abbrev SEdges : Shape := ⟨2, ![2, 1600000]⟩
abbrev SRow : Shape := ⟨2, ![1, 1600000]⟩
abbrev SGiven : Shape := ⟨1, ![1600000]⟩

theorem sliceTop : SEdges.Slices ![0, 0] SRow := by decide
theorem sliceBot : SEdges.Slices ![1, 0] SRow := by decide
theorem flatRow : SRow.ShapeCasts SGiven := by decide
theorem joined : Shape.Concatenates [SGiven, SN] SE 0 := by decide

/-- The source words of all edges: row 0 of the given array, then one self loop per node (the node numbers). -/
def srcOf (e : IVec SEdges 32) : IVec SE 32 :=
  concatenate SE 0 [⟨SGiven, shapeCast _ (extractStridedSlice SRow ![0, 0] e sliceTop) flatRow⟩, ⟨SN, iotaInDim SN 32 0⟩] joined

/-- The target words of all edges: row 1 of the given array, then the node numbers. -/
def dstOf (e : IVec SEdges 32) : IVec SE 32 :=
  concatenate SE 0 [⟨SGiven, shapeCast _ (extractStridedSlice SRow ![1, 0] e sliceBot) flatRow⟩, ⟨SN, iotaInDim SN 32 0⟩] joined

/-- A vector of words prepared for a gather: a negative word has the node count added. -/
def normIdx (v : IVec SE 32) : IVec SE 32 :=
  select (cmpi .slt v (broadcastInDim SE ![] splatE (constantI S0 32 0#32)))
    (addi v (broadcastInDim SE ![] splatE (constantI S0 32 100000#32))) v

/-- A vector over the edges as a column of start words. -/
def col (v : IVec SE 32) : IVec SEc 32 := broadcastInDim SEc ![0] colE v

/-- The degree of each node: ones summed at the target words. -/
def degree (dv : IVec SE 32) : FVec Ideal SN .f32 :=
  Host.scatterAdd (flatScatterDims 100000 1700000 (by decide))
    (broadcastInDim SN ![] splatN (constant (F := Ideal) S0 .f32 0x00000000#32)) (col dv)
    (broadcastInDim SE ![] splatE (constant (F := Ideal) S0 .f32 0x3F800000#32))

/-- The scale of each node: the reciprocal square root of a positive degree, 0 elsewhere. -/
def scaleVec (dv : IVec SE 32) : FVec Ideal SN .f32 :=
  select (cmpf (F := Ideal) .ogt (degree dv) (broadcastInDim SN ![] splatN (constant (F := Ideal) S0 .f32 0x00000000#32)))
    (Host.rsqrt (F := Ideal) (degree dv))
    (broadcastInDim SN ![] splatN (id (constant (F := Ideal) S0 .f32 0x00000000#32)))

/-- The scales as a column. -/
def scaleCol (dv : IVec SE 32) : FVec Ideal SNc .f32 := shapeCast SNc (scaleVec dv) colN

/-- Per edge, the product of the scales of its two ends, each read through its normalised word. -/
def edgeNorm (sv dv : IVec SE 32) : FVec Ideal SE .f32 :=
  mulf (Host.gather (flatGatherDims 100000 1700000 (by decide)) (scaleVec dv) (col (normIdx sv)))
    (Host.gather (flatGatherDims 100000 1700000 (by decide)) (scaleVec dv) (col (normIdx dv)))

section
variable {C : Nat}
variable (hz : S0.BroadcastsInDim ⟨2, ![100000, C]⟩ (![] : Fin 0 → Fin 2))
variable (hb : SEc.BroadcastsInDim ⟨2, ![1700000, C]⟩ (![0, 1] : Fin 2 → Fin 2))
variable (wfS : ScatterDims.WF ⟨2, ![100000, C]⟩ ⟨2, ![1700000, 1]⟩ ⟨2, ![1700000, C]⟩ [1] [0] [0] 1)
variable (wfG : GatherDims.WF ⟨2, ![100000, C]⟩ ⟨2, ![1700000, 1]⟩ ⟨2, ![1700000, C]⟩ [1] [0] [] [0] [] 1 ![1, C])

/-- The zero array the sums start from. -/
def zeros : FVec Ideal ⟨2, ![100000, C]⟩ .f32 :=
  broadcastInDim ⟨2, ![100000, C]⟩ ![] hz (constant (F := Ideal) S0 .f32 0x00000000#32)

/-- Rows gathered along the edges and summed at the target words. -/
def aggSent (H : FVec Ideal ⟨2, ![100000, C]⟩ .f32) (sv dv : IVec SE 32) : FVec Ideal ⟨2, ![100000, C]⟩ .f32 :=
  Host.scatterAdd (rowScatterDims 100000 1700000 C wfS) (zeros hz) (col dv)
    (Host.gather (rowGatherDims 100000 1700000 C wfG) H (col (normIdx sv)))

/-- The per-edge products repeated over the `C` columns. -/
def edgeNormRows (sv dv : IVec SE 32) : FVec Ideal ⟨2, ![1700000, C]⟩ .f32 :=
  broadcastInDim ⟨2, ![1700000, C]⟩ ![0, 1] hb (broadcastInDim SEc ![0] colE (edgeNorm sv dv))

/-- Rows gathered along the edges, each times its edge's product of scales, summed at the target words. -/
def aggWeighted (Y : FVec Ideal ⟨2, ![100000, C]⟩ .f32) (sv dv : IVec SE 32) : FVec Ideal ⟨2, ![100000, C]⟩ .f32 :=
  Host.scatterAdd (rowScatterDims 100000 1700000 C wfS) (zeros hz) (col dv)
    (mulf (Host.gather (rowGatherDims 100000 1700000 C wfG) Y (col (normIdx sv))) (edgeNormRows hb sv dv))

end

end Cert.Gcn

end
-- ==== Proof.KernelHost.lean ====
/-
  The host operations of the idealized kernel program, one stretch at a time, over ANY contents `W` of the buffers when
  the stretch starts: what each buffer a later step reads holds afterwards.

  Before the first region, in three stretches: the source and target words of the edges, the degree test and the
  reciprocal square roots; then the choice between them (the node scales); then the scales as a column. Between regions 0
  and 1, and between regions 1 and 2: the aggregate (rows of the previous region's output gathered along the edges and
  summed at the targets), the next bias as a row. Every other buffer read later is untouched.
-/
import proofs.«147734_j3118146257548_2_alg».proof.Proof.Gen.KernelIdeal.Launch
import proofs.«147734_j3118146257548_2_alg».proof.Proof.GraphTerms
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (W : Valuation τ sig (Elt Ideal))

/-! ## Before the first region: the edge words, the degree test and the reciprocal square roots -/

theorem s0_src : StableHlo.after (hostOps0 (F := Ideal)) W (Proc.devRef .tc main_v3)
    = Cert.Gcn.srcOf (W (Proc.devRef .tc main_arg1)) := by
  dsimp only [hostOps0]; after_results_simp <;> rfl
theorem s0_dst : StableHlo.after (hostOps0 (F := Ideal)) W (Proc.devRef .tc main_v6)
    = Cert.Gcn.dstOf (W (Proc.devRef .tc main_arg1)) := by
  dsimp only [hostOps0]; after_results_simp <;> rfl
theorem s0_pos : StableHlo.after (hostOps0 (F := Ideal)) W (Proc.devRef .tc main_v12)
    = cmpf (F := Ideal) .ogt (Cert.Gcn.degree (Cert.Gcn.dstOf (W (Proc.devRef .tc main_arg1)))) (broadcastInDim Cert.Gcn.SN ![] Cert.Gcn.splatN (constant (F := Ideal) Cert.Gcn.S0 .f32 0x00000000#32)) := by
  dsimp only [hostOps0]; after_results_simp <;> rfl
theorem s0_rsqrt : StableHlo.after (hostOps0 (F := Ideal)) W (Proc.devRef .tc main_v13)
    = Host.rsqrt (F := Ideal) (Cert.Gcn.degree (Cert.Gcn.dstOf (W (Proc.devRef .tc main_arg1)))) := by
  dsimp only [hostOps0]; after_results_simp <;> rfl
theorem s0_zero : StableHlo.after (hostOps0 (F := Ideal)) W (Proc.devRef .tc main_cst_2)
    = constant (F := Ideal) Cert.Gcn.S0 .f32 0x00000000#32 := by
  dsimp only [hostOps0]; after_results_simp <;> rfl
theorem s0_arg0 : StableHlo.after (hostOps0 (F := Ideal)) W (Proc.devRef .tc main_arg0) = W (Proc.devRef .tc main_arg0) := by
  dsimp only [hostOps0]; after_results_simp <;> rfl
theorem s0_arg1 : StableHlo.after (hostOps0 (F := Ideal)) W (Proc.devRef .tc main_arg1) = W (Proc.devRef .tc main_arg1) := by
  dsimp only [hostOps0]; after_results_simp <;> rfl
theorem s0_arg2 : StableHlo.after (hostOps0 (F := Ideal)) W (Proc.devRef .tc main_arg2) = W (Proc.devRef .tc main_arg2) := by
  dsimp only [hostOps0]; after_results_simp <;> rfl
theorem s0_arg3 : StableHlo.after (hostOps0 (F := Ideal)) W (Proc.devRef .tc main_arg3) = W (Proc.devRef .tc main_arg3) := by
  dsimp only [hostOps0]; after_results_simp <;> rfl
theorem s0_arg4 : StableHlo.after (hostOps0 (F := Ideal)) W (Proc.devRef .tc main_arg4) = W (Proc.devRef .tc main_arg4) := by
  dsimp only [hostOps0]; after_results_simp <;> rfl
theorem s0_arg5 : StableHlo.after (hostOps0 (F := Ideal)) W (Proc.devRef .tc main_arg5) = W (Proc.devRef .tc main_arg5) := by
  dsimp only [hostOps0]; after_results_simp <;> rfl
theorem s0_arg6 : StableHlo.after (hostOps0 (F := Ideal)) W (Proc.devRef .tc main_arg6) = W (Proc.devRef .tc main_arg6) := by
  dsimp only [hostOps0]; after_results_simp <;> rfl
theorem s0_arg7 : StableHlo.after (hostOps0 (F := Ideal)) W (Proc.devRef .tc main_arg7) = W (Proc.devRef .tc main_arg7) := by
  dsimp only [hostOps0]; after_results_simp <;> rfl

/-! ## The node scales -/

theorem s1_scale : StableHlo.after (hostOps0_1 (F := Ideal)) W (Proc.devRef .tc main_v14)
    = select (W (Proc.devRef .tc main_v12)) (W (Proc.devRef .tc main_v13)) (broadcastInDim Cert.Gcn.SN ![] Cert.Gcn.splatN (id (W (Proc.devRef .tc main_cst_2)))) := by
  dsimp only [hostOps0_1]; after_results_simp <;> rfl
theorem s1_v3 : StableHlo.after (hostOps0_1 (F := Ideal)) W (Proc.devRef .tc main_v3) = W (Proc.devRef .tc main_v3) := by
  dsimp only [hostOps0_1]; after_results_simp <;> rfl
theorem s1_v6 : StableHlo.after (hostOps0_1 (F := Ideal)) W (Proc.devRef .tc main_v6) = W (Proc.devRef .tc main_v6) := by
  dsimp only [hostOps0_1]; after_results_simp <;> rfl
theorem s1_arg0 : StableHlo.after (hostOps0_1 (F := Ideal)) W (Proc.devRef .tc main_arg0) = W (Proc.devRef .tc main_arg0) := by
  dsimp only [hostOps0_1]; after_results_simp <;> rfl
theorem s1_arg1 : StableHlo.after (hostOps0_1 (F := Ideal)) W (Proc.devRef .tc main_arg1) = W (Proc.devRef .tc main_arg1) := by
  dsimp only [hostOps0_1]; after_results_simp <;> rfl
theorem s1_arg2 : StableHlo.after (hostOps0_1 (F := Ideal)) W (Proc.devRef .tc main_arg2) = W (Proc.devRef .tc main_arg2) := by
  dsimp only [hostOps0_1]; after_results_simp <;> rfl
theorem s1_arg3 : StableHlo.after (hostOps0_1 (F := Ideal)) W (Proc.devRef .tc main_arg3) = W (Proc.devRef .tc main_arg3) := by
  dsimp only [hostOps0_1]; after_results_simp <;> rfl
theorem s1_arg4 : StableHlo.after (hostOps0_1 (F := Ideal)) W (Proc.devRef .tc main_arg4) = W (Proc.devRef .tc main_arg4) := by
  dsimp only [hostOps0_1]; after_results_simp <;> rfl
theorem s1_arg5 : StableHlo.after (hostOps0_1 (F := Ideal)) W (Proc.devRef .tc main_arg5) = W (Proc.devRef .tc main_arg5) := by
  dsimp only [hostOps0_1]; after_results_simp <;> rfl
theorem s1_arg6 : StableHlo.after (hostOps0_1 (F := Ideal)) W (Proc.devRef .tc main_arg6) = W (Proc.devRef .tc main_arg6) := by
  dsimp only [hostOps0_1]; after_results_simp <;> rfl
theorem s1_arg7 : StableHlo.after (hostOps0_1 (F := Ideal)) W (Proc.devRef .tc main_arg7) = W (Proc.devRef .tc main_arg7) := by
  dsimp only [hostOps0_1]; after_results_simp <;> rfl

/-! ## The scales as a column -/

theorem s2_col : StableHlo.after (hostOps0_2 (F := Ideal)) W (Proc.devRef .tc main_v15)
    = shapeCast Cert.Gcn.SNc (W (Proc.devRef .tc main_v14)) Cert.Gcn.colN := by
  dsimp only [hostOps0_2]; after_results_simp <;> rfl
theorem s2_v3 : StableHlo.after (hostOps0_2 (F := Ideal)) W (Proc.devRef .tc main_v3) = W (Proc.devRef .tc main_v3) := by
  dsimp only [hostOps0_2]; after_results_simp <;> rfl
theorem s2_v6 : StableHlo.after (hostOps0_2 (F := Ideal)) W (Proc.devRef .tc main_v6) = W (Proc.devRef .tc main_v6) := by
  dsimp only [hostOps0_2]; after_results_simp <;> rfl
theorem s2_arg0 : StableHlo.after (hostOps0_2 (F := Ideal)) W (Proc.devRef .tc main_arg0) = W (Proc.devRef .tc main_arg0) := by
  dsimp only [hostOps0_2]; after_results_simp <;> rfl
theorem s2_arg1 : StableHlo.after (hostOps0_2 (F := Ideal)) W (Proc.devRef .tc main_arg1) = W (Proc.devRef .tc main_arg1) := by
  dsimp only [hostOps0_2]; after_results_simp <;> rfl
theorem s2_arg2 : StableHlo.after (hostOps0_2 (F := Ideal)) W (Proc.devRef .tc main_arg2) = W (Proc.devRef .tc main_arg2) := by
  dsimp only [hostOps0_2]; after_results_simp <;> rfl
theorem s2_arg3 : StableHlo.after (hostOps0_2 (F := Ideal)) W (Proc.devRef .tc main_arg3) = W (Proc.devRef .tc main_arg3) := by
  dsimp only [hostOps0_2]; after_results_simp <;> rfl
theorem s2_arg4 : StableHlo.after (hostOps0_2 (F := Ideal)) W (Proc.devRef .tc main_arg4) = W (Proc.devRef .tc main_arg4) := by
  dsimp only [hostOps0_2]; after_results_simp <;> rfl
theorem s2_arg5 : StableHlo.after (hostOps0_2 (F := Ideal)) W (Proc.devRef .tc main_arg5) = W (Proc.devRef .tc main_arg5) := by
  dsimp only [hostOps0_2]; after_results_simp <;> rfl
theorem s2_arg6 : StableHlo.after (hostOps0_2 (F := Ideal)) W (Proc.devRef .tc main_arg6) = W (Proc.devRef .tc main_arg6) := by
  dsimp only [hostOps0_2]; after_results_simp <;> rfl
theorem s2_arg7 : StableHlo.after (hostOps0_2 (F := Ideal)) W (Proc.devRef .tc main_arg7) = W (Proc.devRef .tc main_arg7) := by
  dsimp only [hostOps0_2]; after_results_simp <;> rfl

/-! ## Between regions 0 and 1 -/

theorem mid1_agg : StableHlo.after (hostOps1 (F := Ideal)) W (Proc.devRef .tc main_v26)
    = Cert.Gcn.aggSent (C := 128) (by decide) (by decide) (by decide) (W (Proc.devRef .tc main_v16)) (W (Proc.devRef .tc main_v3)) (W (Proc.devRef .tc main_v6)) := by
  dsimp only [hostOps1]; after_results_simp <;> rfl
theorem mid1_bias : StableHlo.after (hostOps1 (F := Ideal)) W (Proc.devRef .tc main_v27)
    = shapeCast S1x128 (W (Proc.devRef .tc main_arg3)) shapeCasts_S128_S1x128 := by
  dsimp only [hostOps1]; after_results_simp <;> rfl
theorem mid1_v15 : StableHlo.after (hostOps1 (F := Ideal)) W (Proc.devRef .tc main_v15) = W (Proc.devRef .tc main_v15) := by
  dsimp only [hostOps1]; after_results_simp <;> rfl
theorem mid1_v3 : StableHlo.after (hostOps1 (F := Ideal)) W (Proc.devRef .tc main_v3) = W (Proc.devRef .tc main_v3) := by
  dsimp only [hostOps1]; after_results_simp <;> rfl
theorem mid1_v6 : StableHlo.after (hostOps1 (F := Ideal)) W (Proc.devRef .tc main_v6) = W (Proc.devRef .tc main_v6) := by
  dsimp only [hostOps1]; after_results_simp <;> rfl
theorem mid1_arg4 : StableHlo.after (hostOps1 (F := Ideal)) W (Proc.devRef .tc main_arg4) = W (Proc.devRef .tc main_arg4) := by
  dsimp only [hostOps1]; after_results_simp <;> rfl
theorem mid1_arg5 : StableHlo.after (hostOps1 (F := Ideal)) W (Proc.devRef .tc main_arg5) = W (Proc.devRef .tc main_arg5) := by
  dsimp only [hostOps1]; after_results_simp <;> rfl
theorem mid1_arg6 : StableHlo.after (hostOps1 (F := Ideal)) W (Proc.devRef .tc main_arg6) = W (Proc.devRef .tc main_arg6) := by
  dsimp only [hostOps1]; after_results_simp <;> rfl
theorem mid1_arg7 : StableHlo.after (hostOps1 (F := Ideal)) W (Proc.devRef .tc main_arg7) = W (Proc.devRef .tc main_arg7) := by
  dsimp only [hostOps1]; after_results_simp <;> rfl

/-! ## Between regions 1 and 2 -/

theorem mid2_agg : StableHlo.after (hostOps2 (F := Ideal)) W (Proc.devRef .tc main_v38)
    = Cert.Gcn.aggSent (C := 64) (by decide) (by decide) (by decide) (W (Proc.devRef .tc main_v28)) (W (Proc.devRef .tc main_v3)) (W (Proc.devRef .tc main_v6)) := by
  dsimp only [hostOps2]; after_results_simp <;> rfl
theorem mid2_bias : StableHlo.after (hostOps2 (F := Ideal)) W (Proc.devRef .tc main_v39)
    = shapeCast S1x64 (W (Proc.devRef .tc main_arg5)) shapeCasts_S64_S1x64 := by
  dsimp only [hostOps2]; after_results_simp <;> rfl
theorem mid2_head : StableHlo.after (hostOps2 (F := Ideal)) W (Proc.devRef .tc main_v40)
    = shapeCast S1x40 (W (Proc.devRef .tc main_arg7)) shapeCasts_S40_S1x40 := by
  dsimp only [hostOps2]; after_results_simp <;> rfl
theorem mid2_v15 : StableHlo.after (hostOps2 (F := Ideal)) W (Proc.devRef .tc main_v15) = W (Proc.devRef .tc main_v15) := by
  dsimp only [hostOps2]; after_results_simp <;> rfl
theorem mid2_arg6 : StableHlo.after (hostOps2 (F := Ideal)) W (Proc.devRef .tc main_arg6) = W (Proc.devRef .tc main_arg6) := by
  dsimp only [hostOps2]; after_results_simp <;> rfl

end Cert.KernelIdeal.HostValue

end
-- ==== Proof.LayerSpec.lean ====
/-
  The three dense stages of a two-layer graph convolution with a linear head, as functions of whole arrays over the
  extended reals. Writing d for the per-node scale (a column [n, 1]), x·w for a matrix product, b for a bias row [1, c]
  and z for the clip level of a rectifier:

    scaled x w d        (p, q) = d p · Σ_k x (p, k) · w (k, q)                                    (project, then scale)
    rescaled a d b w    (p, q) = d p · Σ_k max (d p · a (p, k) + b k, z) · w (k, q)               (scale, shift, clip, project, scale)
    headed a d b w b'   (p, q) = Σ_k max (d p · a (p, k) + b k, z) · w (k, q) + b' q              (scale, shift, clip, project, shift)

  Each is given at a pair of coordinates first (the ...At forms) and then as an array. Nothing here depends on a program.
-/
import Idealize.ShloMosaic.PureOps.Ideal
import Idealize.ShloMosaic.Lib.ValueIdx

noncomputable section

open scoped BigOperators

namespace Cert.Gcn

open Idealize.ShloMosaic Idealize.ShloMosaic.ValueIdx

/-- A matrix of extended reals with `a` rows and `b` columns. -/
abbrev Mat (a b : Nat) : Type := (⟨2, ![a, b]⟩ : Shape).Idx → EReal

/-- The clip level of the rectifiers: the zero word of the 32-bit format, left unevaluated. -/
abbrev clip : EReal := Ideal.ofBits .f32 0x00000000#32

/-- Entry `(p, q)` of the product of an `n × k` by a `k × c` matrix. -/
def dotAt {n k c : Nat} (x : Mat n k) (w : Mat k c) (p : Fin n) (q : Fin c) : EReal :=
  ∑ i : Fin k, x (ix2 p i) * w (ix2 i q)

/-- Entry `(p, k)` of a layer's activation: the aggregate scaled by the node's scale, shifted by the bias, clipped below. -/
def actAt {n k : Nat} (a : Mat n k) (d : Mat n 1) (b : Mat 1 k) (p : Fin n) (i : Fin k) : EReal :=
  max (d (ix2 p 0) * a (ix2 p i) + b (ix2 0 i)) clip

/-- Project, then scale the row by its node's scale. -/
def scaledAt {n k c : Nat} (x : Mat n k) (w : Mat k c) (d : Mat n 1) (p : Fin n) (q : Fin c) : EReal :=
  d (ix2 p 0) * dotAt x w p q

/-- Activate, project, then scale the row by its node's scale. -/
def rescaledAt {n k c : Nat} (a : Mat n k) (d : Mat n 1) (b : Mat 1 k) (w : Mat k c) (p : Fin n) (q : Fin c) : EReal :=
  d (ix2 p 0) * ∑ i : Fin k, actAt a d b p i * w (ix2 i q)

/-- Activate, project, then add the head's bias. -/
def headedAt {n k c : Nat} (a : Mat n k) (d : Mat n 1) (b : Mat 1 k) (w : Mat k c) (b' : Mat 1 c) (p : Fin n) (q : Fin c) :
    EReal :=
  (∑ i : Fin k, actAt a d b p i * w (ix2 i q)) + b' (ix2 0 q)

/-- The three stages as arrays: an index is read through its two coordinates. -/
def scaled {n k c : Nat} (x : Mat n k) (w : Mat k c) (d : Mat n 1) : Mat n c := fun j => scaledAt x w d (j 0) (j 1)
def rescaled {n k c : Nat} (a : Mat n k) (d : Mat n 1) (b : Mat 1 k) (w : Mat k c) : Mat n c :=
  fun j => rescaledAt a d b w (j 0) (j 1)
def headed {n k c : Nat} (a : Mat n k) (d : Mat n 1) (b : Mat 1 k) (w : Mat k c) (b' : Mat 1 c) : Mat n c :=
  fun j => headedAt a d b w b' (j 0) (j 1)

theorem scaled_apply {n k c : Nat} (x : Mat n k) (w : Mat k c) (d : Mat n 1) (p : Fin n) (q : Fin c) :
    scaled x w d (ix2 p q) = scaledAt x w d p q := rfl
theorem rescaled_apply {n k c : Nat} (a : Mat n k) (d : Mat n 1) (b : Mat 1 k) (w : Mat k c) (p : Fin n) (q : Fin c) :
    rescaled a d b w (ix2 p q) = rescaledAt a d b w p q := rfl
theorem headed_apply {n k c : Nat} (a : Mat n k) (d : Mat n 1) (b : Mat 1 k) (w : Mat k c) (b' : Mat 1 c) (p : Fin n)
    (q : Fin c) : headed a d b w b' (ix2 p q) = headedAt a d b w b' p q := rfl

end Cert.Gcn

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.LibDenseRow.lean ====
/-
  A dense layer as a kernel body writes it, read at an entry, at the extended reals.

  `jnp.dot(x, W) + b` inside a kernel is a matrix product accumulated into a zero array, plus the bias vector `[N]`
  viewed as the one row `[1, N]` and repeated over the `M` rows. At `(r, e)` the product is the sum over
  `k : Fin K` of `x (r, k) · W (k, e)` and the repeated bias is `b e`, whatever the sizes.
-/
import Idealize.ShloMosaic.PureOps.Ideal.Laws
import Idealize.ShloMosaic.Lib.ValueIdx
import Idealize.ShloMosaic.Lib.Pipeline.Value
import proofs.«147734_j3118146257548_2_alg».proof.Proof.LibDotSum

noncomputable section

namespace Cert.LibDenseRow

open Idealize.ShloMosaic Idealize.ShloMosaic.ValueIdx

/-- A vector `[N]` viewed as the row `[1, N]` and repeated over `M` rows reads, at `(r, e)`, its entry `e`. -/
theorem rowBias_apply {M N : Nat} {α : Type} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (r : Fin M) (e : Fin N) :
    broadcastTo ⟨2, ![M, N]⟩ (shapeCast ⟨2, ![1, N]⟩ b h1) h2 (ix2 r e) = b (ix1 e) := by
  refine (broadcastTo_apply _ h2 (ix2 r e) (ix2 (0 : Fin 1) e) fun a => ?_).trans
    (shapeCast_apply b h1 (ix2 (0 : Fin 1) e) (ix1 e) ?_)
  · match a with
    | ⟨0, _⟩ => rfl
    | ⟨1, _⟩ =>
      show e.val = if N = 1 then 0 else e.val
      split
      · have := e.isLt; omega
      · rfl
  · rw [Shape.rowMajor_val_one, Shape.rowMajor_val_two]
    show e.val = 0 * N + e.val
    omega

/-- The product of an `M × K` by a `K × N` array accumulated into the zero array, plus the bias `[N]` repeated over the
    rows, at `(r, e)`: the sum over `k` of `x (r, k) · W (k, e)`, plus `b e`. The six hypotheses on the record of
    dimension numbers compute on a given record. -/
theorem dense_apply {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (h1 : (⟨1, ![N]⟩ : Shape).ShapeCasts ⟨2, ![1, N]⟩) (h2 : (⟨2, ![1, N]⟩ : Shape).Broadcasts ⟨2, ![M, N]⟩)
    (x : FVec Ideal ⟨2, ![M, K]⟩ .f32) (W : FVec Ideal ⟨2, ![K, N]⟩ .f32) (b : FVec Ideal ⟨1, ![N]⟩ .f32)
    (r : Fin M) (e : Fin N) :
    addf (matmul D none x W (constant (F := Ideal) ⟨2, ![M, N]⟩ .f32 0x00000000#32))
        (broadcastTo ⟨2, ![M, N]⟩ (shapeCast ⟨2, ![1, N]⟩ b h1) h2) (ix2 r e)
      = ∑ k : Fin K, x (ix2 r k) * W (ix2 k e) + b (ix1 e) := by
  show matmul D none x W (constant (F := Ideal) ⟨2, ![M, N]⟩ .f32 0x00000000#32) (ix2 r e)
      + broadcastTo ⟨2, ![M, N]⟩ (shapeCast ⟨2, ![1, N]⟩ b h1) h2 (ix2 r e) = _
  rw [rowBias_apply b h1 h2 r e]
  refine congrArg (· + b (ix1 e)) ?_
  exact (Ideal.matmul_constant_zero_apply D none x W (ix2 r e)).trans
    (Cert.LibDotSum.sum_dot D hr hs hl0 hl1 hr0 hr1 x W r e)

end Cert.LibDenseRow

end
-- ==== Proof.LibOuterSum.lean ====
/-
  The two "keepdims" broadcasts of a pairwise table: for a matrix v of shape [A, B],
    v[:, :, None] broadcast to [A, B, C]  — entry (a, b, c) is v (a, b) — and
    v[:, None, :] broadcast to [A, C, B]  — entry (a, c, b) is v (a, b).
  A kernel writes each as a `vector.shape_cast` inserting the unit axis followed by a `vector.broadcast`; their sum is
  the outer sum s(a, i) + t(a, j) that a pairwise squared distance starts from. Generic in the extents.
  Also the column forms a `keepdims=True` reduction leaves behind: a vector [a] as a column [a, 1], a column [a, 1] as a
  row [1, a], and a column [a, 1] broadcast along its unit axis to [a, b].
-/
import Idealize.ShloMosaic.Lib.Pipeline.Value
import Idealize.ShloMosaic.Lib.ValueIdx

noncomputable section

namespace Cert.LibOuterSum

open Idealize.ShloMosaic Idealize.ShloMosaic.ValueIdx

variable {α : Type}

/-- `v[:, :, None]` broadcast along a new trailing axis. -/
theorem bcast_trailing_apply {A B C : Nat} (v : (⟨2, ![A, B]⟩ : Shape).Idx → α)
    (hc : (⟨2, ![A, B]⟩ : Shape).ShapeCasts ⟨3, ![A, B, 1]⟩)
    (hb : (⟨3, ![A, B, 1]⟩ : Shape).Broadcasts ⟨3, ![A, B, C]⟩) (a : Fin A) (b : Fin B) (c : Fin C) :
    broadcastTo ⟨3, ![A, B, C]⟩ (shapeCast ⟨3, ![A, B, 1]⟩ v hc) hb (ix3 a b c) = v (ix2 a b) := by
  rw [broadcastTo_apply _ hb (ix3 a b c) (ix3 a b (⟨0, Nat.one_pos⟩ : Fin 1)) (fun d => by
    match d with
    | ⟨0, _⟩ =>
      show a.val = if A = 1 then 0 else a.val
      split_ifs with h1
      · have := a.isLt; omega
      · rfl
    | ⟨1, _⟩ =>
      show b.val = if B = 1 then 0 else b.val
      split_ifs with h1
      · have := b.isLt; omega
      · rfl
    | ⟨2, _⟩ =>
      show (0 : Nat) = if (1 : Nat) = 1 then 0 else c.val
      rfl)]
  exact shapeCast_apply v hc _ (ix2 a b) (by
    rw [Shape.rowMajor_val_two, Shape.rowMajor_val_three]
    show a.val * B + b.val = (a.val * B + b.val) * 1 + 0
    ring)

/-- `v[:, None, :]` broadcast along a new middle axis. -/
theorem bcast_middle_apply {A B C : Nat} (v : (⟨2, ![A, B]⟩ : Shape).Idx → α)
    (hc : (⟨2, ![A, B]⟩ : Shape).ShapeCasts ⟨3, ![A, 1, B]⟩)
    (hb : (⟨3, ![A, 1, B]⟩ : Shape).Broadcasts ⟨3, ![A, C, B]⟩) (a : Fin A) (c : Fin C) (b : Fin B) :
    broadcastTo ⟨3, ![A, C, B]⟩ (shapeCast ⟨3, ![A, 1, B]⟩ v hc) hb (ix3 a c b) = v (ix2 a b) := by
  rw [broadcastTo_apply _ hb (ix3 a c b) (ix3 a (⟨0, Nat.one_pos⟩ : Fin 1) b) (fun d => by
    match d with
    | ⟨0, _⟩ =>
      show a.val = if A = 1 then 0 else a.val
      split_ifs with h1
      · have := a.isLt; omega
      · rfl
    | ⟨1, _⟩ =>
      show (0 : Nat) = if (1 : Nat) = 1 then 0 else c.val
      rfl
    | ⟨2, _⟩ =>
      show b.val = if B = 1 then 0 else b.val
      split_ifs with h1
      · have := b.isLt; omega
      · rfl)]
  exact shapeCast_apply v hc _ (ix2 a b) (by
    rw [Shape.rowMajor_val_two, Shape.rowMajor_val_three]
    show a.val * B + b.val = (a.val * 1 + 0) * B + b.val
    ring)

/-- A vector `[a]` cast to a column `[a, 1]`: entry (i, u) is the vector's entry i. -/
theorem col_of_vec_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a row `[1, a]`: entry (u, i) is the column's entry (i, 0). -/
theorem row_of_col_apply {a : Nat} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (⟨0, Nat.one_pos⟩ : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast along its unit axis to `[a, b]`: entry (i, j) is the column's entry (i, 0). -/
theorem bcast_col_apply {a b : Nat} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (⟨0, Nat.one_pos⟩ : Fin 1)) :=
  broadcastTo_apply x h (ix2 i j) (ix2 i (⟨0, Nat.one_pos⟩ : Fin 1)) (fun d => by
    match d with
    | ⟨0, _⟩ =>
      show i.val = if a = 1 then 0 else i.val
      split_ifs with h1
      · have := i.isLt; omega
      · rfl
    | ⟨1, _⟩ =>
      show (0 : Nat) = if (1 : Nat) = 1 then 0 else j.val
      rfl)

end Cert.LibOuterSum

end
-- ==== Proof.LibRowReduce.lean ====
/-
  Reductions over one axis of rank-2 and rank-3 arrays of extended reals, read at an index as a sum (or a maximum) over
  that axis's coordinate, for arrays of any extents; and a per-row statistic (a row's maximum, a row's sum) laid out as a
  column and repeated along the row, read at an entry. These are the layout steps of a row-wise softmax.
-/
import Idealize.ShloMosaic.PureOps.Ideal.Laws
import Idealize.ShloMosaic.Lib.ValueIdx
import Idealize.ShloMosaic.Lib.Pipeline.Value
import proofs.«147734_j3118146257548_2_alg».proof.Proof.LibOuterSum

noncomputable section

namespace Cert.LibRowReduce

open Idealize.ShloMosaic Idealize.ShloMosaic.ValueIdx

/-- The f32 word `0xFF800000` is `-∞`. -/
theorem ofBits_neg_inf_f32 : Ideal.ofBits .f32 0xFF800000#32 = (⊥ : EReal) := by
  simp [Ideal.ofBits, Ideal.ieee]

/-- Summing a rank-3 array over its last axis: entry (a, b) is the sum over c of the entries (a, b, c). -/
theorem sum_last3 {A B C : Nat} (v : FVec Ideal ⟨3, ![A, B, C]⟩ .f32)
    (h : (⟨3, ![A, B, C]⟩ : Shape).Reduces [2] ⟨2, ![A, B]⟩) (hφ : FKind.Formats FTy.f32)
    (hacc : (0x00000000#32 : BitVec 32) = 0x00000000#32) (a : Fin A) (b : Fin B) :
    multiReduction .add [2] ⟨2, ![A, B]⟩ v 0x00000000#32 h hφ hacc (ix2 a b) = ∑ k : Fin C, v (ix3 a b k) := by
  refine (Ideal.multiReduction_add_single v 0x00000000#32 h hφ hacc (ix2 a b)).trans ?_
  refine Finset.sum_congr rfl fun k _ => congrArg v ?_
  funext c
  apply Fin.ext
  match c with
  | ⟨0, _⟩ => rfl
  | ⟨1, _⟩ => rfl
  | ⟨2, _⟩ => rfl

/-- Summing a rank-3 array over its middle axis: entry (a, c) is the sum over b of the entries (a, b, c). -/
theorem sum_mid3 {A B C : Nat} (v : FVec Ideal ⟨3, ![A, B, C]⟩ .f32)
    (h : (⟨3, ![A, B, C]⟩ : Shape).Reduces [1] ⟨2, ![A, C]⟩) (hφ : FKind.Formats FTy.f32)
    (hacc : (0x00000000#32 : BitVec 32) = 0x00000000#32) (a : Fin A) (c : Fin C) :
    multiReduction .add [1] ⟨2, ![A, C]⟩ v 0x00000000#32 h hφ hacc (ix2 a c) = ∑ k : Fin B, v (ix3 a k c) := by
  refine (Ideal.multiReduction_add_single v 0x00000000#32 h hφ hacc (ix2 a c)).trans ?_
  refine Finset.sum_congr rfl fun k _ => congrArg v ?_
  funext d
  apply Fin.ext
  match d with
  | ⟨0, _⟩ => rfl
  | ⟨1, _⟩ => rfl
  | ⟨2, _⟩ => rfl

/-- Summing a matrix along its rows: entry a is the sum over b of the entries (a, b). -/
theorem sum_row2 {A B : Nat} (v : FVec Ideal ⟨2, ![A, B]⟩ .f32)
    (h : (⟨2, ![A, B]⟩ : Shape).Reduces [1] ⟨1, ![A]⟩) (hφ : FKind.Formats FTy.f32)
    (hacc : (0x00000000#32 : BitVec 32) = 0x00000000#32) (a : Fin A) :
    multiReduction .add [1] ⟨1, ![A]⟩ v 0x00000000#32 h hφ hacc (ix1 a) = ∑ k : Fin B, v (ix2 a k) := by
  refine (Ideal.multiReduction_add_single v 0x00000000#32 h hφ hacc (ix1 a)).trans ?_
  refine Finset.sum_congr rfl fun k _ => congrArg v ?_
  funext d
  apply Fin.ext
  match d with
  | ⟨0, _⟩ => rfl
  | ⟨1, _⟩ => rfl

/-- The maximum along the rows of a matrix, from `-∞`: entry a is the greatest of `-∞` and the entries (a, b). -/
theorem max_row2 {A B : Nat} (v : FVec Ideal ⟨2, ![A, B]⟩ .f32)
    (h : (⟨2, ![A, B]⟩ : Shape).Reduces [1] ⟨1, ![A]⟩) (hφ : FKind.Formats FTy.f32)
    (hacc : (0xFF800000#32 : BitVec 32) = 0xFF800000#32) (a : Fin A) :
    multiReduction .maximumf [1] ⟨1, ![A]⟩ v 0xFF800000#32 h hφ hacc (ix1 a)
      = (Finset.univ : Finset (Fin B)).fold max (⊥ : EReal) (fun k => v (ix2 a k)) := by
  refine (Ideal.multiReduction_maximumf_single v 0xFF800000#32 h hφ hacc (ix1 a)).trans ?_
  show (Finset.univ : Finset (Fin B)).fold max (Ideal.ofBits .f32 0xFF800000#32) _ = _
  rw [ofBits_neg_inf_f32]
  refine congrArg (fun f => (Finset.univ : Finset (Fin B)).fold max (⊥ : EReal) f) ?_
  funext k
  refine congrArg v ?_
  funext d
  apply Fin.ext
  match d with
  | ⟨0, _⟩ => rfl
  | ⟨1, _⟩ => rfl

/-- A per-row statistic `[A]` laid out as a column `[A, 1]` and repeated along the row to `[A, B]`: entry (a, b) is the
    statistic of row a. -/
theorem stat_bcast_apply {α : Type} {A B : Nat} (x : (⟨1, ![A]⟩ : Shape).Idx → α)
    (hc : (⟨1, ![A]⟩ : Shape).ShapeCasts ⟨2, ![A, 1]⟩) (hb : (⟨2, ![A, 1]⟩ : Shape).Broadcasts ⟨2, ![A, B]⟩)
    (a : Fin A) (b : Fin B) :
    broadcastTo ⟨2, ![A, B]⟩ (shapeCast ⟨2, ![A, 1]⟩ x hc) hb (ix2 a b) = x (ix1 a) := by
  rw [Cert.LibOuterSum.bcast_col_apply, Cert.LibOuterSum.col_of_vec_apply]

end Cert.LibRowReduce

end
-- ==== Proof.LibRowOps.lean ====
/-
  The steps of a row-wise layer, each read at an entry, whatever the number of rows.

  A block of `R` rows by `K` features times a `K × N` weight matrix, accumulated into zero, is at `(p, q)` the sum
  over `k` of `x (p, k) · W (k, q)`, whatever number formats the operands were rounded to on the way (a change of format
  is the identity on extended reals). The gate and the inverse square root act entry by entry. A row statistic `[R, 1]`
  repeated along the row reads, at `(p, q)`, its entry `p`; the row sum of a matrix laid out as a column `[R, 1]` reads
  the sum of row `p`.
-/
import Idealize.ShloMosaic.PureOps.Ideal.Laws
import Idealize.ShloMosaic.Lib.ValueIdx
import Idealize.ShloMosaic.Lib.Pipeline.Value
import proofs.«147734_j3118146257548_2_alg».proof.Proof.LibDotSum
import proofs.«147734_j3118146257548_2_alg».proof.Proof.LibDenseRow
import proofs.«147734_j3118146257548_2_alg».proof.Proof.LibRowReduce
import proofs.«147734_j3118146257548_2_alg».proof.Proof.LibOuterSum

noncomputable section

namespace Cert.LibRowOps

open Idealize.ShloMosaic Idealize.ShloMosaic.ValueIdx

variable {s : Shape} {φ : FTy}

/-- The gate's sigmoid acts entry by entry. -/
theorem logistic_apply (a : FVec Ideal s φ) (i : s.Idx) : logistic a i = Ideal.logistic (a i) := rfl

/-- The inverse square root acts entry by entry. -/
theorem rsqrt_apply (a : FVec Ideal s φ) (i : s.Idx) : rsqrt a i = Ideal.rsqrt (a i) := rfl

/-- A product of `R × K` by `K × N` accumulated into zero, at `(p, q)`: the sum over `k` of `x (p, k) · W (k, q)`. -/
theorem mm_apply {R K N : Nat} {φ₁ φ₂ : FTy} (D : DotDims ⟨2, ![R, K]⟩ ⟨2, ![K, N]⟩ ⟨2, ![R, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (x : FVec Ideal ⟨2, ![R, K]⟩ φ₁) (W : FVec Ideal ⟨2, ![K, N]⟩ φ₂) (p : Fin R) (q : Fin N) :
    matmul D none x W (constant (F := Ideal) ⟨2, ![R, N]⟩ .f32 0x00000000#32) (ix2 p q)
      = ∑ k : Fin K, x (ix2 p k) * W (ix2 k q) :=
  (Ideal.matmul_constant_zero_apply D none x W (ix2 p q)).trans
    (Cert.LibDotSum.sum_dot D hr hs hl0 hl1 hr0 hr1 x W p q)

/-- The row sums of a matrix, laid out as a column, at `(p, u)`: the sum of row `p`. -/
theorem rowsum_col_apply {R B : Nat} (v : FVec Ideal ⟨2, ![R, B]⟩ .f32)
    (h : (⟨2, ![R, B]⟩ : Shape).Reduces [1] ⟨1, ![R]⟩) (hφ : FKind.Formats FTy.f32)
    (hacc : (0x00000000#32 : BitVec FTy.f32.bits) = FKind.add.neutral FTy.f32 hφ)
    (hc : (⟨1, ![R]⟩ : Shape).ShapeCasts ⟨2, ![R, 1]⟩) (p : Fin R) (u : Fin 1) :
    shapeCast ⟨2, ![R, 1]⟩ (multiReduction .add [1] ⟨1, ![R]⟩ v 0x00000000#32 h hφ hacc) hc (ix2 p u)
      = ∑ k : Fin B, v (ix2 p k) :=
  (Cert.LibOuterSum.col_of_vec_apply _ hc p u).trans (Cert.LibRowReduce.sum_row2 v h hφ hacc p)

end Cert.LibRowOps

end
-- ==== Proof.BlockValue0.lean ====
/-
  The first dense stage on one block of rows, read at an entry.

  On a block of 5000 rows the stage multiplies the block of node features by the whole weight matrix, accumulating
  into zero, and scales every row by its node's scale, a column repeated along the row. At the extended reals a
  change of number format is the identity and the accumulation into zero is the plain sum over the shared axis, so
  entry (p, q) of the result is  d p · Σ_k x (p, k) · w (k, q).
-/
import proofs.«147734_j3118146257548_2_alg».proof.Proof.Gen.KernelIdeal.Skeleton
import proofs.«147734_j3118146257548_2_alg».proof.Proof.LayerSpec
import proofs.«147734_j3118146257548_2_alg».proof.Proof.LibRowOps

noncomputable section

namespace Cert.KernelIdeal.RegionValue

open Cert.KernelIdeal Cert.KernelIdeal.Gen Idealize.ShloMosaic Idealize.ShloMosaic.ValueIdx

/-! ## The contraction of a 5000 × 128 block by the 128 × 128 weights: where each operand is read -/

theorem dotA_lhs0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem dotA_lhs1 (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k
theorem dotA_rhs0 (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k
theorem dotA_rhs1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## The block's result at an entry -/

/-- Entry (p, q) of the stage's result on a block: the row's scale times the product's entry. -/
theorem pay0_apply (x : Vec Ideal S5000x128 .f32) (w : Vec Ideal S128x128 .f32) (d : Vec Ideal S5000x1 .f32)
    (p : Fin 5000) (q : Fin 128) :
    k0_pay1 (F := Ideal) x w d (ix2 p q) = Cert.Gcn.scaledAt x w d p q := by
  unfold k0_pay1
  show broadcastTo S5000x128 (shapeCast S5000x1 d shapeCasts_S5000x1_S5000x1) broadcasts_S5000x1_S5000x128 (ix2 p q)
      * matmul dot_S5000x128_S128x128_S5000x128_1_0_0_1_n_n none (truncf .bf16 x bitsLt_bf16_f32) (truncf .bf16 w bitsLt_bf16_f32)
          (constant (F := Ideal) S5000x128 .f32 0x00000000#32) (ix2 p q) = _
  rw [shapeCast_self]
  refine congrArg₂ (· * ·) (Cert.LibOuterSum.bcast_col_apply d _ p q) ?_
  exact Cert.LibRowOps.mm_apply _ rfl rfl dotA_lhs0 dotA_lhs1 dotA_rhs0 dotA_rhs1 _ _ p q

end Cert.KernelIdeal.RegionValue

end
-- ==== Proof.ArrayValue0.lean ====
/-
  The first dense stage over the whole array: every grid point writes back its block of ONE function of the arrays the
  region finds, and the twenty blocks of 5000 rows cover the 100000 rows, so the output array ends holding that function.

  Point t reads rows 5000·t … 5000·t + 4999 of the node features and of the scale column, and the whole weight matrix;
  entry (p, q) of what it writes back is entry (5000·t + p, q) of  d r · Σ_k x (r, k) · w (k, q).
-/
import proofs.«147734_j3118146257548_2_alg».proof.Proof.Gen.KernelIdeal.Frame
import proofs.«147734_j3118146257548_2_alg».proof.Proof.BlockValue0
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem zeros2 : (![0, 0] : Fin 2 → Nat) = fun _ => 0 := funext fun a => by fin_cases a <;> rfl

/-! ## One block of rows as rows of the arrays -/

/-- A block's result at (p, q) is the whole-array function at (5000·n + p, q), when the block of features and the block
    of scales are rows 5000·n … of their arrays and the weights are the whole matrix. -/
theorem scaled_block (X : Cert.Gcn.Mat 100000 128) (W : Cert.Gcn.Mat 128 128) (D : Cert.Gcn.Mat 100000 1)
    (x : Vec Ideal S5000x128 .f32) (w : Vec Ideal S128x128 .f32) (d : Vec Ideal S5000x1 .f32)
    (y : S5000x128.Idx) (i : S100000x128.Idx) (n : Nat)
    (hi0 : (i 0).val = n * 5000 + (y 0).val) (hi1 : (i 1).val = (y 1).val)
    (hx : ∀ (u : S5000x128.Idx) (v : S100000x128.Idx), (v 0).val = n * 5000 + (u 0).val → (v 1).val = (u 1).val → x u = X v)
    (hw : w = W)
    (hd : ∀ (u : S5000x1.Idx) (v : S100000x1.Idx), (v 0).val = n * 5000 + (u 0).val → d u = D v) :
    k0_pay1 (F := Ideal) x w d y = Cert.Gcn.scaled X W D i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext hi1
  subst hw
  rw [pay0_apply, Cert.Gcn.scaled_apply]
  unfold Cert.Gcn.scaledAt Cert.Gcn.dotAt
  rw [hd (ix2 p 0) (ix2 r 0) hi0]
  refine congrArg _ (Finset.sum_congr rfl fun k _ => ?_)
  rw [hx (ix2 p k) (ix2 r k) hi0 rfl]

/-! ## The blocks the grid reads -/

/-- The printed index maps over the grid: the row block of the features, of the scales and of the output is the point's
    number, and the weights are read whole. -/
theorem rows0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The features' block at point t is rows 5000·t … of the features. -/
theorem iblk0_0_apply (c : Dev nD) (t : Fin cfg0.N) (u : S5000x128.Idx) (v : S100000x128.Idx)
    (h0 : (v 0).val = t.val * 5000 + (u 0).val) (h1 : (v 1).val = (u 1).val) :
    (iblk0 V c 0 t : Vec Ideal S5000x128 .f32) u = (V c main_arg0 : S100000x128.Idx → EReal) v := by
  obtain ⟨e0, e1, -⟩ := rows0 t
  unfold iblk0
  rw [View.read_apply]
  show V c main_arg0 _ = V c main_arg0 _
  congr 1
  funext a
  apply Fin.ext
  match a with
  | ⟨0, _⟩ => show win0_0.index t (0 : Fin 2) * 5000 + 1 * (u 0).val = (v 0).val; rw [e0, h0]; omega
  | ⟨1, _⟩ => show win0_0.index t (1 : Fin 2) * 128 + 1 * (u 1).val = (v 1).val; rw [e1, h1]; omega

/-- The weights' block at every point is the whole matrix. -/
theorem iblk0_1_eq (c : Dev nD) (t : Fin cfg0.N) :
    (iblk0 V c 1 t : Vec Ideal S128x128 .f32) = (V c main_arg2 : S128x128.Idx → EReal) := by
  obtain ⟨-, -, e0, e1, -⟩ := rows0 t
  funext u
  unfold iblk0
  rw [View.read_apply]
  show V c main_arg2 _ = V c main_arg2 _
  congr 1
  funext a
  apply Fin.ext
  match a with
  | ⟨0, _⟩ => show win0_1.index t (0 : Fin 2) * 128 + 1 * (u 0).val = (u 0).val; rw [e0]; omega
  | ⟨1, _⟩ => show win0_1.index t (1 : Fin 2) * 128 + 1 * (u 1).val = (u 1).val; rw [e1]; omega

/-- The scales' block at point t is rows 5000·t … of the scale column. -/
theorem iblk0_2_apply (c : Dev nD) (t : Fin cfg0.N) (u : S5000x1.Idx) (v : S100000x1.Idx)
    (h0 : (v 0).val = t.val * 5000 + (u 0).val) :
    (iblk0 V c 2 t : Vec Ideal S5000x1 .f32) u = (V c main_v15 : S100000x1.Idx → EReal) v := by
  obtain ⟨-, -, -, -, e0, e1, -⟩ := rows0 t
  unfold iblk0
  rw [View.read_apply]
  show V c main_v15 _ = V c main_v15 _
  congr 1
  funext a
  apply Fin.ext
  match a with
  | ⟨0, _⟩ => show win0_2.index t (0 : Fin 2) * 5000 + 1 * (u 0).val = (v 0).val; rw [e0, h0]; omega
  | ⟨1, _⟩ =>
    show win0_2.index t (1 : Fin 2) * 1 + 1 * (u 1).val = (v 1).val
    have hu : (u 1).val < 1 := (u 1).isLt
    have hv : (v 1).val < 1 := (v 1).isLt
    rw [e1]; omega

/-! ## What a point writes back, the cover, and the array after the region -/

/-- Point t writes back block t of the whole-array function. -/
theorem flushed0_eq (c : Dev nD) (t : Fin cfg0.N) :
    (dat0 (F := Ideal) V c).flushed 3 t = ((cfg0.win 3).blk t).view.read (Elt Ideal)
      (Cert.Gcn.scaled (V c main_arg0 : Cert.Gcn.Mat 100000 128) (V c main_arg2 : Cert.Gcn.Mat 128 128)
        (V c main_v15 : Cert.Gcn.Mat 100000 1)) := by
  show (cfg0.win 3).cut (grid0.coords t) ((dat0 V c).after 3 t) = _
  rw [after0_3]
  unfold out0_3
  rw [View.canon_unit_zero zeros2]
  simp only [View.ld_unit_zero (S := S5000x128) zeros2, View.ld_unit_zero (S := S128x128) zeros2,
    View.ld_unit_zero (S := S5000x1) zeros2]
  obtain ⟨-, -, -, -, -, -, e0, e1⟩ := rows0 t
  funext y
  rw [View.read_apply]
  show k0_pay1 (F := Ideal) (iblk0 V c 0 t) (iblk0 V c 1 t) (iblk0 V c 2 t) y
    = Cert.Gcn.scaled (V c main_arg0 : Cert.Gcn.Mat 100000 128) (V c main_arg2 : Cert.Gcn.Mat 128 128)
        (V c main_v15 : Cert.Gcn.Mat 100000 1) (((cfg0.win 3).blk t).view.emb y)
  refine scaled_block _ _ _ _ _ _ y _ t.val ?_ ?_ (fun u v h0 h1 => iblk0_0_apply V c t u v h0 h1) (iblk0_1_eq V c t)
    (fun u v h0 => iblk0_2_apply V c t u v h0)
  · show win0_3.index t (0 : Fin 2) * 5000 + 1 * (y 0).val = t.val * 5000 + (y 0).val
    rw [e0]; omega
  · show win0_3.index t (1 : Fin 2) * 128 + 1 * (y 1).val = (y 1).val
    rw [e1]; omega

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Row r lies in the block of point r / 5000. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, e0, e1⟩ := rows0 t
  have ht : t.val = (i 0).val / 5000 := rfl
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- After the region the output array is the stage's function of the arrays the region found. -/
theorem final0 (c : Dev nD) :
    (dat0 (F := Ideal) V c).arrAt 3 cfg0.N
      = Cert.Gcn.scaled (V c main_arg0 : Cert.Gcn.Mat 100000 128) (V c main_arg2 : Cert.Gcn.Mat 128 128)
          (V c main_v15 : Cert.Gcn.Mat 100000 1) :=
  (dat0 (F := Ideal) V c).arrAt_eq_of_cover 3 _ (fun t _ => flushed0_eq V c t) cover0

end Cert.KernelIdeal.RegionValue

end
-- ==== Proof.BlockValue1.lean ====
/-
  The second dense stage on one block of rows, read at an entry.

  On a block of 5000 rows the stage scales each row of the aggregate by its node's scale, adds the bias row, clips below
  at the zero word, multiplies by the whole weight matrix accumulating into zero, and scales each row again. At the
  extended reals a change of number format is the identity and the accumulation into zero is the plain sum over the
  shared axis, so entry (p, q) of the result is  d p · Σ_k max (d p · a (p, k) + b k, z) · w (k, q).

  The activation (scale, shift, clip) at an entry is stated once for any numbers of rows and columns.
-/
import proofs.«147734_j3118146257548_2_alg».proof.Proof.Gen.KernelIdeal.Skeleton
import proofs.«147734_j3118146257548_2_alg».proof.Proof.LayerSpec
import proofs.«147734_j3118146257548_2_alg».proof.Proof.LibRowOps
import Idealize.ShloMosaic.Lib.ValueLayout

noncomputable section

namespace Cert.KernelIdeal.RegionValue

open Cert.KernelIdeal Cert.KernelIdeal.Gen Idealize.ShloMosaic Idealize.ShloMosaic.ValueIdx

/-! ## The activation at an entry -/

/-- A scale column repeated along the rows times the aggregate, plus a bias row repeated over the rows, clipped below at
    the zero word: entry (p, k) is  max (d p · a (p, k) + b k, z). -/
theorem act_apply {R K : Nat} (d : FVec Ideal ⟨2, ![R, 1]⟩ .f32) (a : FVec Ideal ⟨2, ![R, K]⟩ .f32)
    (b : FVec Ideal ⟨2, ![1, K]⟩ .f32) (hd : (⟨2, ![R, 1]⟩ : Shape).Broadcasts ⟨2, ![R, K]⟩)
    (hb : (⟨2, ![1, K]⟩ : Shape).Broadcasts ⟨2, ![R, K]⟩) (p : Fin R) (k : Fin K) :
    maximumf (addf (mulf (broadcastTo ⟨2, ![R, K]⟩ d hd) a) (broadcastTo ⟨2, ![R, K]⟩ b hb))
        (broadcast ⟨2, ![R, K]⟩ (Scalar.ofBits (F := Ideal) .f32 0x00000000#32)) (ix2 p k)
      = Cert.Gcn.actAt a d b p k := by
  show max (broadcastTo ⟨2, ![R, K]⟩ d hd (ix2 p k) * a (ix2 p k) + broadcastTo ⟨2, ![R, K]⟩ b hb (ix2 p k)) _ = _
  rw [Cert.LibOuterSum.bcast_col_apply, broadcastTo_1b_ab_apply]
  rfl

/-! ## The contraction of a 5000 × 128 block by the 128 × 64 weights: where each operand is read -/

theorem dotB_lhs0 (j : S5000x64.Idx) (k : dot_S5000x128_S128x64_S5000x64_1_0_0_1_n_n.contr.Idx) :
    (dot_S5000x128_S128x64_S5000x64_1_0_0_1_n_n.lhsIdx j k 0).val = (j 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem dotB_lhs1 (j : S5000x64.Idx) (k : dot_S5000x128_S128x64_S5000x64_1_0_0_1_n_n.contr.Idx) :
    (dot_S5000x128_S128x64_S5000x64_1_0_0_1_n_n.lhsIdx j k 1).val = (k ⟨0, by decide⟩).val :=
  dot_S5000x128_S128x64_S5000x64_1_0_0_1_n_n.lhsIdx_val_of_single rfl j k
theorem dotB_rhs0 (j : S5000x64.Idx) (k : dot_S5000x128_S128x64_S5000x64_1_0_0_1_n_n.contr.Idx) :
    (dot_S5000x128_S128x64_S5000x64_1_0_0_1_n_n.rhsIdx j k 0).val = (k ⟨0, by decide⟩).val :=
  dot_S5000x128_S128x64_S5000x64_1_0_0_1_n_n.rhsIdx_val_of_single rfl j k
theorem dotB_rhs1 (j : S5000x64.Idx) (k : dot_S5000x128_S128x64_S5000x64_1_0_0_1_n_n.contr.Idx) :
    (dot_S5000x128_S128x64_S5000x64_1_0_0_1_n_n.rhsIdx j k 1).val = (j 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-! ## The block's result at an entry -/

/-- Entry (p, q) of the stage's result on a block: the row's scale times the product of the activation by the weights. -/
theorem pay1_apply (d : Vec Ideal S5000x1 .f32) (a : Vec Ideal S5000x128 .f32) (b : Vec Ideal S1x128 .f32)
    (w : Vec Ideal S128x64 .f32) (p : Fin 5000) (q : Fin 64) :
    k1_pay1 (F := Ideal) d a b w d (ix2 p q) = Cert.Gcn.rescaledAt a d b w p q := by
  unfold k1_pay1
  simp only [shapeCast_self]
  rw [mulf_apply]
  refine congrArg₂ (· * ·) (Cert.LibOuterSum.bcast_col_apply d _ p q) ?_
  refine (Cert.LibRowOps.mm_apply _ rfl rfl dotB_lhs0 dotB_lhs1 dotB_rhs0 dotB_rhs1 _ _ p q).trans ?_
  refine Finset.sum_congr rfl fun k _ => ?_
  refine congrArg (· * w (ix2 k q)) ?_
  exact act_apply d a b _ _ p k

end Cert.KernelIdeal.RegionValue

end
-- ==== Proof.ArrayValue1.lean ====
/-
  The second dense stage over the whole array: every grid point writes back its block of ONE function of the arrays the
  region finds, and the twenty blocks of 5000 rows cover the 100000 rows, so the output array ends holding that function.

  Point t reads rows 5000·t … 5000·t + 4999 of the aggregate and of the scale column, and the whole bias row and weight
  matrix; entry (p, q) of what it writes back is entry (5000·t + p, q) of
  d r · Σ_k max (d r · a (r, k) + b k, z) · w (k, q).
-/
import proofs.«147734_j3118146257548_2_alg».proof.Proof.Gen.KernelIdeal.Frame
import proofs.«147734_j3118146257548_2_alg».proof.Proof.BlockValue1
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem zeros2_1 : (![0, 0] : Fin 2 → Nat) = fun _ => 0 := funext fun a => by fin_cases a <;> rfl

/-! ## One block of rows as rows of the arrays -/

/-- A block's result at (p, q) is the whole-array function at (5000·n + p, q), when the block of the aggregate and the
    block of scales are rows 5000·n … of their arrays and the bias row and the weights are whole. -/
theorem rescaled_block (A : Cert.Gcn.Mat 100000 128) (D : Cert.Gcn.Mat 100000 1) (B : Cert.Gcn.Mat 1 128)
    (W : Cert.Gcn.Mat 128 64)
    (a : Vec Ideal S5000x128 .f32) (d : Vec Ideal S5000x1 .f32) (b : Vec Ideal S1x128 .f32) (w : Vec Ideal S128x64 .f32)
    (y : S5000x64.Idx) (i : S100000x64.Idx) (n : Nat)
    (hi0 : (i 0).val = n * 5000 + (y 0).val) (hi1 : (i 1).val = (y 1).val)
    (ha : ∀ (u : S5000x128.Idx) (v : S100000x128.Idx), (v 0).val = n * 5000 + (u 0).val → (v 1).val = (u 1).val → a u = A v)
    (hd : ∀ (u : S5000x1.Idx) (v : S100000x1.Idx), (v 0).val = n * 5000 + (u 0).val → d u = D v)
    (hb : b = B) (hw : w = W) :
    k1_pay1 (F := Ideal) d a b w d y = Cert.Gcn.rescaled A D B W i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  obtain rfl : q' = q := Fin.ext hi1
  subst hb hw
  rw [pay1_apply, Cert.Gcn.rescaled_apply]
  unfold Cert.Gcn.rescaledAt Cert.Gcn.actAt
  rw [hd (ix2 p 0) (ix2 r 0) hi0]
  refine congrArg _ (Finset.sum_congr rfl fun k _ => ?_)
  rw [ha (ix2 p k) (ix2 r k) hi0 rfl]

/-! ## The blocks the grid reads -/

/-- The printed index maps over the grid: the row block of the aggregate, of the scales and of the output is the point's
    number; the bias row and the weights are read whole. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)

/-- The aggregate's block at point t is rows 5000·t … of the aggregate. -/
theorem iblk1_0_apply (c : Dev nD) (t : Fin cfg1.N) (u : S5000x128.Idx) (v : S100000x128.Idx)
    (h0 : (v 0).val = t.val * 5000 + (u 0).val) (h1 : (v 1).val = (u 1).val) :
    (iblk1 V c 0 t : Vec Ideal S5000x128 .f32) u = (V c main_v26 : S100000x128.Idx → EReal) v := by
  obtain ⟨e0, e1⟩ := idx1_0 t
  unfold iblk1
  rw [View.read_apply]
  show V c main_v26 _ = V c main_v26 _
  congr 1
  funext a
  apply Fin.ext
  match a with
  | ⟨0, _⟩ => show win1_0.index t (0 : Fin 2) * 5000 + 1 * (u 0).val = (v 0).val; rw [e0, h0]; omega
  | ⟨1, _⟩ => show win1_0.index t (1 : Fin 2) * 128 + 1 * (u 1).val = (v 1).val; rw [e1, h1]; omega

/-- The scales' block at point t is rows 5000·t … of the scale column. -/
theorem iblk1_1_apply (c : Dev nD) (t : Fin cfg1.N) (u : S5000x1.Idx) (v : S100000x1.Idx)
    (h0 : (v 0).val = t.val * 5000 + (u 0).val) :
    (iblk1 V c 1 t : Vec Ideal S5000x1 .f32) u = (V c main_v15 : S100000x1.Idx → EReal) v := by
  obtain ⟨e0, e1⟩ := idx1_1 t
  unfold iblk1
  rw [View.read_apply]
  show V c main_v15 _ = V c main_v15 _
  congr 1
  funext a
  apply Fin.ext
  match a with
  | ⟨0, _⟩ => show win1_1.index t (0 : Fin 2) * 5000 + 1 * (u 0).val = (v 0).val; rw [e0, h0]; omega
  | ⟨1, _⟩ =>
    show win1_1.index t (1 : Fin 2) * 1 + 1 * (u 1).val = (v 1).val
    have hu : (u 1).val < 1 := (u 1).isLt
    have hv : (v 1).val < 1 := (v 1).isLt
    rw [e1]; omega

/-- The bias row's block at every point is the whole row. -/
theorem iblk1_2_eq (c : Dev nD) (t : Fin cfg1.N) :
    (iblk1 V c 2 t : Vec Ideal S1x128 .f32) = (V c main_v27 : S1x128.Idx → EReal) := by
  obtain ⟨e0, e1⟩ := idx1_2 t
  funext u
  unfold iblk1
  rw [View.read_apply]
  show V c main_v27 _ = V c main_v27 _
  congr 1
  funext a
  apply Fin.ext
  match a with
  | ⟨0, _⟩ => show win1_2.index t (0 : Fin 2) * 1 + 1 * (u 0).val = (u 0).val; rw [e0]; omega
  | ⟨1, _⟩ => show win1_2.index t (1 : Fin 2) * 128 + 1 * (u 1).val = (u 1).val; rw [e1]; omega

/-- The weights' block at every point is the whole matrix. -/
theorem iblk1_3_eq (c : Dev nD) (t : Fin cfg1.N) :
    (iblk1 V c 3 t : Vec Ideal S128x64 .f32) = (V c main_arg4 : S128x64.Idx → EReal) := by
  obtain ⟨e0, e1⟩ := idx1_3 t
  funext u
  unfold iblk1
  rw [View.read_apply]
  show V c main_arg4 _ = V c main_arg4 _
  congr 1
  funext a
  apply Fin.ext
  match a with
  | ⟨0, _⟩ => show win1_3.index t (0 : Fin 2) * 128 + 1 * (u 0).val = (u 0).val; rw [e0]; omega
  | ⟨1, _⟩ => show win1_3.index t (1 : Fin 2) * 64 + 1 * (u 1).val = (u 1).val; rw [e1]; omega

/-! ## What a point writes back, the cover, and the array after the region -/

/-- Point t writes back block t of the whole-array function. -/
theorem flushed1_eq (c : Dev nD) (t : Fin cfg1.N) :
    (dat1 (F := Ideal) V c).flushed 4 t = ((cfg1.win 4).blk t).view.read (Elt Ideal)
      (Cert.Gcn.rescaled (V c main_v26 : Cert.Gcn.Mat 100000 128) (V c main_v15 : Cert.Gcn.Mat 100000 1)
        (V c main_v27 : Cert.Gcn.Mat 1 128) (V c main_arg4 : Cert.Gcn.Mat 128 64)) := by
  show (cfg1.win 4).cut (grid1.coords t) ((dat1 V c).after 4 t) = _
  rw [after1_4]
  unfold out1_4
  rw [View.canon_unit_zero zeros2_1]
  simp only [View.ld_unit_zero (S := S5000x128) zeros2_1, View.ld_unit_zero (S := S5000x1) zeros2_1,
    View.ld_unit_zero (S := S1x128) zeros2_1, View.ld_unit_zero (S := S128x64) zeros2_1]
  obtain ⟨e0, e1⟩ := idx1_4 t
  funext y
  rw [View.read_apply]
  show k1_pay1 (F := Ideal) (iblk1 V c 1 t) (iblk1 V c 0 t) (iblk1 V c 2 t) (iblk1 V c 3 t) (iblk1 V c 1 t) y
    = Cert.Gcn.rescaled (V c main_v26 : Cert.Gcn.Mat 100000 128) (V c main_v15 : Cert.Gcn.Mat 100000 1)
        (V c main_v27 : Cert.Gcn.Mat 1 128) (V c main_arg4 : Cert.Gcn.Mat 128 64) (((cfg1.win 4).blk t).view.emb y)
  refine rescaled_block _ _ _ _ _ _ _ _ y _ t.val ?_ ?_ (fun u v h0 h1 => iblk1_0_apply V c t u v h0 h1)
    (fun u v h0 => iblk1_1_apply V c t u v h0) (iblk1_2_eq V c t) (iblk1_3_eq V c t)
  · show win1_4.index t (0 : Fin 2) * 5000 + 1 * (y 0).val = t.val * 5000 + (y 0).val
    rw [e0]; omega
  · show win1_4.index t (1 : Fin 2) * 64 + 1 * (y 1).val = (y 1).val
    rw [e1]; omega

/-- An index of the output array is in point t's block iff each coordinate is in the block's range on its axis. -/
theorem mem_blk1 (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v28).slice (win1_4.rect t)).set ↔ _
  rw [View.set_slice_whole, Rect.mem_set_unit]
  exact Iff.rfl

/-- Row r lies in the block of point r / 5000. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨e0, e1⟩ := idx1_4 t
  have ht : t.val = (i 0).val / 5000 := rfl
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 64 ≤ (i 1).val ∧ (i 1).val < win1_4.index t (1 : Fin 2) * 64 + 64
    rw [e1]; omega

/-- After the region the output array is the stage's function of the arrays the region found. -/
theorem final1 (c : Dev nD) :
    (dat1 (F := Ideal) V c).arrAt 4 cfg1.N
      = Cert.Gcn.rescaled (V c main_v26 : Cert.Gcn.Mat 100000 128) (V c main_v15 : Cert.Gcn.Mat 100000 1)
          (V c main_v27 : Cert.Gcn.Mat 1 128) (V c main_arg4 : Cert.Gcn.Mat 128 64) :=
  (dat1 (F := Ideal) V c).arrAt_eq_of_cover 4 _ (fun t _ => flushed1_eq V c t) cover1

end Cert.KernelIdeal.RegionValue

end
-- ==== Proof.BlockValue2.lean ====
/-
  The head stage on one block of rows, read at an entry.

  On a block of 5000 rows the stage scales each row of the aggregate by its node's scale, adds the bias row, clips below
  at the zero word, multiplies by the whole weight matrix accumulating into zero, and adds the head's bias row. Entry
  (p, q) of the result is  Σ_k max (d p · a (p, k) + b k, z) · w (k, q) + b' q.
-/
import proofs.«147734_j3118146257548_2_alg».proof.Proof.Gen.KernelIdeal.Skeleton
import proofs.«147734_j3118146257548_2_alg».proof.Proof.LayerSpec
import proofs.«147734_j3118146257548_2_alg».proof.Proof.LibRowOps
import proofs.«147734_j3118146257548_2_alg».proof.Proof.BlockValue1
import Idealize.ShloMosaic.Lib.ValueLayout

noncomputable section

namespace Cert.KernelIdeal.RegionValue

open Cert.KernelIdeal Cert.KernelIdeal.Gen Idealize.ShloMosaic Idealize.ShloMosaic.ValueIdx

/-! ## The contraction of a 5000 × 64 block by the 64 × 40 weights: where each operand is read -/

theorem dotC_lhs0 (j : S5000x40.Idx) (k : dot_S5000x64_S64x40_S5000x40_1_0_0_1_n_n.contr.Idx) :
    (dot_S5000x64_S64x40_S5000x40_1_0_0_1_n_n.lhsIdx j k 0).val = (j 0).val := by
  unfold DotDims.lhsIdx
  rw [dif_neg (show ¬(0 : Fin S5000x64.rank) ∈ dot_S5000x64_S64x40_S5000x40_1_0_0_1_n_n.lhsBatch by decide),
    dif_pos (show (0 : Fin S5000x64.rank) ∈ dot_S5000x64_S64x40_S5000x40_1_0_0_1_n_n.lhsNonContracting by decide)]
  rfl
theorem dotC_lhs1 (j : S5000x40.Idx) (k : dot_S5000x64_S64x40_S5000x40_1_0_0_1_n_n.contr.Idx) :
    (dot_S5000x64_S64x40_S5000x40_1_0_0_1_n_n.lhsIdx j k 1).val = (k ⟨0, by decide⟩).val :=
  dot_S5000x64_S64x40_S5000x40_1_0_0_1_n_n.lhsIdx_val_of_single rfl j k
theorem dotC_rhs0 (j : S5000x40.Idx) (k : dot_S5000x64_S64x40_S5000x40_1_0_0_1_n_n.contr.Idx) :
    (dot_S5000x64_S64x40_S5000x40_1_0_0_1_n_n.rhsIdx j k 0).val = (k ⟨0, by decide⟩).val :=
  dot_S5000x64_S64x40_S5000x40_1_0_0_1_n_n.rhsIdx_val_of_single rfl j k
theorem dotC_rhs1 (j : S5000x40.Idx) (k : dot_S5000x64_S64x40_S5000x40_1_0_0_1_n_n.contr.Idx) :
    (dot_S5000x64_S64x40_S5000x40_1_0_0_1_n_n.rhsIdx j k 1).val = (j 1).val := by
  unfold DotDims.rhsIdx
  rw [dif_neg (show ¬(1 : Fin S64x40.rank) ∈ dot_S5000x64_S64x40_S5000x40_1_0_0_1_n_n.rhsBatch by decide),
    dif_pos (show (1 : Fin S64x40.rank) ∈ dot_S5000x64_S64x40_S5000x40_1_0_0_1_n_n.rhsNonContracting by decide)]
  rfl

/-! ## The block's result at an entry -/

/-- Entry (p, q) of the stage's result on a block: the product of the activation by the weights, plus the head's bias. -/
theorem pay2_apply (d : Vec Ideal S5000x1 .f32) (a : Vec Ideal S5000x64 .f32) (b : Vec Ideal S1x64 .f32)
    (w : Vec Ideal S64x40 .f32) (b' : Vec Ideal S1x40 .f32) (p : Fin 5000) (q : Fin 40) :
    k2_pay1 (F := Ideal) d a b w b' (ix2 p q) = Cert.Gcn.headedAt a d b w b' p q := by
  unfold k2_pay1
  simp only [shapeCast_self]
  rw [addf_apply]
  refine congrArg₂ (· + ·) ?_ (broadcastTo_1b_ab_apply b' _ p q)
  refine (Cert.LibRowOps.mm_apply _ rfl rfl dotC_lhs0 dotC_lhs1 dotC_rhs0 dotC_rhs1 _ _ p q).trans ?_
  refine Finset.sum_congr rfl fun k _ => ?_
  refine congrArg (· * w (ix2 k q)) ?_
  exact act_apply d a b _ _ p k

end Cert.KernelIdeal.RegionValue

end
-- ==== Proof.ArrayValue2.lean ====
/-
  The head stage over the whole array: every grid point writes back its block of ONE function of the arrays the region
  finds, and the twenty blocks of 5000 rows cover the 100000 rows, so the output array ends holding that function.

  Point t reads rows 5000·t … 5000·t + 4999 of the aggregate and of the scale column, and the whole bias row, weight
  matrix and head bias row; entry (p, q) of what it writes back is entry (5000·t + p, q) of
  Σ_k max (d r · a (r, k) + b k, z) · w (k, q) + b' q.
-/
import proofs.«147734_j3118146257548_2_alg».proof.Proof.Gen.KernelIdeal.Frame
import proofs.«147734_j3118146257548_2_alg».proof.Proof.BlockValue2
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem zeros2_2 : (![0, 0] : Fin 2 → Nat) = fun _ => 0 := funext fun a => by fin_cases a <;> rfl

/-! ## One block of rows as rows of the arrays -/

/-- A block's result at (p, q) is the whole-array function at (5000·n + p, q), when the block of the aggregate and the
    block of scales are rows 5000·n … of their arrays and the two bias rows and the weights are whole. -/
theorem headed_block (A : Cert.Gcn.Mat 100000 64) (D : Cert.Gcn.Mat 100000 1) (B : Cert.Gcn.Mat 1 64)
    (W : Cert.Gcn.Mat 64 40) (B' : Cert.Gcn.Mat 1 40)
    (a : Vec Ideal S5000x64 .f32) (d : Vec Ideal S5000x1 .f32) (b : Vec Ideal S1x64 .f32) (w : Vec Ideal S64x40 .f32)
    (b' : Vec Ideal S1x40 .f32)
    (y : S5000x40.Idx) (i : S100000x40.Idx) (n : Nat)
    (hi0 : (i 0).val = n * 5000 + (y 0).val) (hi1 : (i 1).val = (y 1).val)
    (ha : ∀ (u : S5000x64.Idx) (v : S100000x64.Idx), (v 0).val = n * 5000 + (u 0).val → (v 1).val = (u 1).val → a u = A v)
    (hd : ∀ (u : S5000x1.Idx) (v : S100000x1.Idx), (v 0).val = n * 5000 + (u 0).val → d u = D v)
    (hb : b = B) (hw : w = W) (hb' : b' = B') :
    k2_pay1 (F := Ideal) d a b w b' y = Cert.Gcn.headed A D B W B' i := by
  obtain ⟨p, q, rfl⟩ : ∃ (p : Fin 5000) (q : Fin 40), y = ix2 p q := ⟨y 0, y 1, eq_ix2 y⟩
  obtain ⟨r, q', rfl⟩ : ∃ (r : Fin 100000) (q' : Fin 40), i = ix2 r q' := ⟨i 0, i 1, eq_ix2 i⟩
  obtain rfl : q' = q := Fin.ext hi1
  subst hb hw hb'
  rw [pay2_apply, Cert.Gcn.headed_apply]
  unfold Cert.Gcn.headedAt Cert.Gcn.actAt
  rw [hd (ix2 p 0) (ix2 r 0) hi0]
  refine congrArg₂ (· + ·) (Finset.sum_congr rfl fun k _ => ?_) rfl
  rw [ha (ix2 p k) (ix2 r k) hi0 rfl]

/-! ## The blocks the grid reads -/

/-- The printed index maps over the grid: the row block of the aggregate, of the scales and of the output is the point's
    number; the two bias rows and the weights are read whole. -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = t.val ∧ win2_5.index t (1 : Fin 2) = 0 :=
  (by decide +kernel : ∀ t : Fin grid2.N, _)

/-- The aggregate's block at point t is rows 5000·t … of the aggregate. -/
theorem iblk2_0_apply (c : Dev nD) (t : Fin cfg2.N) (u : S5000x64.Idx) (v : S100000x64.Idx)
    (h0 : (v 0).val = t.val * 5000 + (u 0).val) (h1 : (v 1).val = (u 1).val) :
    (iblk2 V c 0 t : Vec Ideal S5000x64 .f32) u = (V c main_v38 : S100000x64.Idx → EReal) v := by
  obtain ⟨e0, e1⟩ := idx2_0 t
  unfold iblk2
  rw [View.read_apply]
  show V c main_v38 _ = V c main_v38 _
  congr 1
  funext a
  apply Fin.ext
  match a with
  | ⟨0, _⟩ => show win2_0.index t (0 : Fin 2) * 5000 + 1 * (u 0).val = (v 0).val; rw [e0, h0]; omega
  | ⟨1, _⟩ => show win2_0.index t (1 : Fin 2) * 64 + 1 * (u 1).val = (v 1).val; rw [e1, h1]; omega

/-- The scales' block at point t is rows 5000·t … of the scale column. -/
theorem iblk2_1_apply (c : Dev nD) (t : Fin cfg2.N) (u : S5000x1.Idx) (v : S100000x1.Idx)
    (h0 : (v 0).val = t.val * 5000 + (u 0).val) :
    (iblk2 V c 1 t : Vec Ideal S5000x1 .f32) u = (V c main_v15 : S100000x1.Idx → EReal) v := by
  obtain ⟨e0, e1⟩ := idx2_1 t
  unfold iblk2
  rw [View.read_apply]
  show V c main_v15 _ = V c main_v15 _
  congr 1
  funext a
  apply Fin.ext
  match a with
  | ⟨0, _⟩ => show win2_1.index t (0 : Fin 2) * 5000 + 1 * (u 0).val = (v 0).val; rw [e0, h0]; omega
  | ⟨1, _⟩ =>
    show win2_1.index t (1 : Fin 2) * 1 + 1 * (u 1).val = (v 1).val
    have hu : (u 1).val < 1 := (u 1).isLt
    have hv : (v 1).val < 1 := (v 1).isLt
    rw [e1]; omega

/-- The bias row's block at every point is the whole row. -/
theorem iblk2_2_eq (c : Dev nD) (t : Fin cfg2.N) :
    (iblk2 V c 2 t : Vec Ideal S1x64 .f32) = (V c main_v39 : S1x64.Idx → EReal) := by
  obtain ⟨e0, e1⟩ := idx2_2 t
  funext u
  unfold iblk2
  rw [View.read_apply]
  show V c main_v39 _ = V c main_v39 _
  congr 1
  funext a
  apply Fin.ext
  match a with
  | ⟨0, _⟩ => show win2_2.index t (0 : Fin 2) * 1 + 1 * (u 0).val = (u 0).val; rw [e0]; omega
  | ⟨1, _⟩ => show win2_2.index t (1 : Fin 2) * 64 + 1 * (u 1).val = (u 1).val; rw [e1]; omega

/-- The weights' block at every point is the whole matrix. -/
theorem iblk2_3_eq (c : Dev nD) (t : Fin cfg2.N) :
    (iblk2 V c 3 t : Vec Ideal S64x40 .f32) = (V c main_arg6 : S64x40.Idx → EReal) := by
  obtain ⟨e0, e1⟩ := idx2_3 t
  funext u
  unfold iblk2
  rw [View.read_apply]
  show V c main_arg6 _ = V c main_arg6 _
  congr 1
  funext a
  apply Fin.ext
  match a with
  | ⟨0, _⟩ => show win2_3.index t (0 : Fin 2) * 64 + 1 * (u 0).val = (u 0).val; rw [e0]; omega
  | ⟨1, _⟩ => show win2_3.index t (1 : Fin 2) * 40 + 1 * (u 1).val = (u 1).val; rw [e1]; omega

/-- The head bias row's block at every point is the whole row. -/
theorem iblk2_4_eq (c : Dev nD) (t : Fin cfg2.N) :
    (iblk2 V c 4 t : Vec Ideal S1x40 .f32) = (V c main_v40 : S1x40.Idx → EReal) := by
  obtain ⟨e0, e1⟩ := idx2_4 t
  funext u
  unfold iblk2
  rw [View.read_apply]
  show V c main_v40 _ = V c main_v40 _
  congr 1
  funext a
  apply Fin.ext
  match a with
  | ⟨0, _⟩ => show win2_4.index t (0 : Fin 2) * 1 + 1 * (u 0).val = (u 0).val; rw [e0]; omega
  | ⟨1, _⟩ => show win2_4.index t (1 : Fin 2) * 40 + 1 * (u 1).val = (u 1).val; rw [e1]; omega

/-! ## What a point writes back, the cover, and the array after the region -/

/-- Point t writes back block t of the whole-array function. -/
theorem flushed2_eq (c : Dev nD) (t : Fin cfg2.N) :
    (dat2 (F := Ideal) V c).flushed 5 t = ((cfg2.win 5).blk t).view.read (Elt Ideal)
      (Cert.Gcn.headed (V c main_v38 : Cert.Gcn.Mat 100000 64) (V c main_v15 : Cert.Gcn.Mat 100000 1)
        (V c main_v39 : Cert.Gcn.Mat 1 64) (V c main_arg6 : Cert.Gcn.Mat 64 40) (V c main_v40 : Cert.Gcn.Mat 1 40)) := by
  show (cfg2.win 5).cut (grid2.coords t) ((dat2 V c).after 5 t) = _
  rw [after2_5]
  unfold out2_5
  rw [View.canon_unit_zero zeros2_2]
  simp only [View.ld_unit_zero (S := S5000x64) zeros2_2, View.ld_unit_zero (S := S5000x1) zeros2_2,
    View.ld_unit_zero (S := S1x64) zeros2_2, View.ld_unit_zero (S := S64x40) zeros2_2,
    View.ld_unit_zero (S := S1x40) zeros2_2]
  obtain ⟨e0, e1⟩ := idx2_5 t
  funext y
  rw [View.read_apply]
  show k2_pay1 (F := Ideal) (iblk2 V c 1 t) (iblk2 V c 0 t) (iblk2 V c 2 t) (iblk2 V c 3 t) (iblk2 V c 4 t) y
    = Cert.Gcn.headed (V c main_v38 : Cert.Gcn.Mat 100000 64) (V c main_v15 : Cert.Gcn.Mat 100000 1)
        (V c main_v39 : Cert.Gcn.Mat 1 64) (V c main_arg6 : Cert.Gcn.Mat 64 40) (V c main_v40 : Cert.Gcn.Mat 1 40)
        (((cfg2.win 5).blk t).view.emb y)
  refine headed_block _ _ _ _ _ _ _ _ _ _ y _ t.val ?_ ?_ (fun u v h0 h1 => iblk2_0_apply V c t u v h0 h1)
    (fun u v h0 => iblk2_1_apply V c t u v h0) (iblk2_2_eq V c t) (iblk2_3_eq V c t) (iblk2_4_eq V c t)
  · show win2_5.index t (0 : Fin 2) * 5000 + 1 * (y 0).val = t.val * 5000 + (y 0).val
    rw [e0]; omega
  · show win2_5.index t (1 : Fin 2) * 40 + 1 * (y 1).val = (y 1).val
    rw [e1]; omega

/-- An index of the output array is in point t's block iff each coordinate is in the block's range on its axis. -/
theorem mem_blk2 (t : Fin cfg2.N) (i : S100000x40.Idx) :
    i ∈ ((cfg2.win 5).blk t).view.set ↔ ∀ a : Fin 2, win2_5.index t a * S5000x40.size a ≤ (i a).val
      ∧ (i a).val < win2_5.index t a * S5000x40.size a + S5000x40.size a := by
  show i ∈ ((View.whole main_v41).slice (win2_5.rect t)).set ↔ _
  rw [View.set_slice_whole, Rect.mem_set_unit]
  exact Iff.rfl

/-- Row r lies in the block of point r / 5000. -/
theorem cover2 (i : S100000x40.Idx) : ∃ t : Fin cfg2.N, (cfg2.win 5).flush t = true ∧ i ∈ ((cfg2.win 5).blk t).view.set := by
  have hi0 : (i 0).val < 100000 := (i 0).isLt
  have hi1 : (i 1).val < 40 := (i 1).isLt
  have hN : cfg2.N = 20 := N_2
  let t : Fin cfg2.N := ⟨(i 0).val / 5000, by rw [hN]; omega⟩
  obtain ⟨e0, e1⟩ := idx2_5 t
  have ht : t.val = (i 0).val / 5000 := rfl
  refine ⟨t, flush2_5 t, ?_⟩
  rw [mem_blk2]
  intro a
  match a with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 40 ≤ (i 1).val ∧ (i 1).val < win2_5.index t (1 : Fin 2) * 40 + 40
    rw [e1]; omega

/-- After the region the output array is the stage's function of the arrays the region found. -/
theorem final2 (c : Dev nD) :
    (dat2 (F := Ideal) V c).arrAt 5 cfg2.N
      = Cert.Gcn.headed (V c main_v38 : Cert.Gcn.Mat 100000 64) (V c main_v15 : Cert.Gcn.Mat 100000 1)
          (V c main_v39 : Cert.Gcn.Mat 1 64) (V c main_arg6 : Cert.Gcn.Mat 64 40) (V c main_v40 : Cert.Gcn.Mat 1 40) :=
  (dat2 (F := Ideal) V c).arrAt_eq_of_cover 5 _ (fun t _ => flushed2_eq V c t) cover2

end Cert.KernelIdeal.RegionValue

end
-- ==== Proof.ModelTerms.lean ====
/-
  The two programs' results as terms of the eight arguments.

  `kernelOut`: project and pre-scale the features, aggregate the scaled rows along the edges, then (twice) scale the
  aggregate at the target, add the bias, clip below and project — the second time into the head with its own bias.
  `refOut`: per layer project, aggregate the rows weighted by the per-edge product of the two end scales, add the
  bias (a vector repeated over the rows), clip below; then the head. The dimension records of the reference's three
  matrix products are parameters.
-/
import proofs.«147734_j3118146257548_2_alg».proof.Proof.GraphTerms
import proofs.«147734_j3118146257548_2_alg».proof.Proof.LayerSpec

noncomputable section

namespace Cert.Gcn

open Idealize.ShloMosaic Idealize.ShloMosaic.ValueIdx Cert.Lib.ScatterGather

theorem rowOf128 : (⟨1, ![128]⟩ : Shape).ShapeCasts ⟨2, ![1, 128]⟩ := by decide
theorem rowOf64 : (⟨1, ![64]⟩ : Shape).ShapeCasts ⟨2, ![1, 64]⟩ := by decide
theorem rowOf40 : (⟨1, ![40]⟩ : Shape).ShapeCasts ⟨2, ![1, 40]⟩ := by decide

/-- The kernel program's result. -/
def kernelOut (x0 : FVec Ideal ⟨2, ![100000, 128]⟩ .f32) (e : IVec SEdges 32) (w1 : FVec Ideal ⟨2, ![128, 128]⟩ .f32)
    (b1 : FVec Ideal ⟨1, ![128]⟩ .f32) (w2 : FVec Ideal ⟨2, ![128, 64]⟩ .f32) (b2 : FVec Ideal ⟨1, ![64]⟩ .f32)
    (wfc : FVec Ideal ⟨2, ![64, 40]⟩ .f32) (bfc : FVec Ideal ⟨1, ![40]⟩ .f32) : Mat 100000 40 :=
  headed
    (aggSent (C := 64) (by decide) (by decide) (by decide)
      (rescaled
        (aggSent (C := 128) (by decide) (by decide) (by decide) (scaled x0 w1 (scaleCol (dstOf e))) (srcOf e) (dstOf e))
        (scaleCol (dstOf e)) (shapeCast ⟨2, ![1, 128]⟩ b1 rowOf128) w2)
      (srcOf e) (dstOf e))
    (scaleCol (dstOf e)) (shapeCast ⟨2, ![1, 64]⟩ b2 rowOf64) wfc (shapeCast ⟨2, ![1, 40]⟩ bfc rowOf40)

section
variable {K C : Nat}
variable (D : DotDims ⟨2, ![100000, K]⟩ ⟨2, ![K, C]⟩ ⟨2, ![100000, C]⟩)
variable (hz : S0.BroadcastsInDim ⟨2, ![100000, C]⟩ (![] : Fin 0 → Fin 2))
variable (hb : SEc.BroadcastsInDim ⟨2, ![1700000, C]⟩ (![0, 1] : Fin 2 → Fin 2))
variable (wfS : ScatterDims.WF ⟨2, ![100000, C]⟩ ⟨2, ![1700000, 1]⟩ ⟨2, ![1700000, C]⟩ [1] [0] [0] 1)
variable (wfG : GatherDims.WF ⟨2, ![100000, C]⟩ ⟨2, ![1700000, 1]⟩ ⟨2, ![1700000, C]⟩ [1] [0] [] [0] [] 1 ![1, C])
variable (h1 : (⟨1, ![C]⟩ : Shape).BroadcastsInDim ⟨2, ![1, C]⟩ (![1] : Fin 1 → Fin 2))
variable (h2 : (⟨2, ![1, C]⟩ : Shape).BroadcastsInDim ⟨2, ![100000, C]⟩ (![0, 1] : Fin 2 → Fin 2))

/-- A bias vector repeated over the rows. -/
def biasRows (b : FVec Ideal ⟨1, ![C]⟩ .f32) : FVec Ideal ⟨2, ![100000, C]⟩ .f32 :=
  broadcastInDim ⟨2, ![100000, C]⟩ ![0, 1] h2 (broadcastInDim ⟨2, ![1, C]⟩ ![1] h1 b)

/-- One layer of the reference: project, aggregate with the per-edge weights, add the bias, clip below. -/
def refLayer (a : FVec Ideal ⟨2, ![100000, K]⟩ .f32) (w : FVec Ideal ⟨2, ![K, C]⟩ .f32) (b : FVec Ideal ⟨1, ![C]⟩ .f32)
    (sv dv : IVec SE 32) : FVec Ideal ⟨2, ![100000, C]⟩ .f32 :=
  maximumf (addf (aggWeighted hz hb wfS wfG (Host.dotGeneral D none a w) sv dv) (biasRows h1 h2 b)) (zeros hz)

end

/-- The reference program's result, for given dimension records of its three products. -/
def refOut (D1 : DotDims ⟨2, ![100000, 128]⟩ ⟨2, ![128, 128]⟩ ⟨2, ![100000, 128]⟩)
    (D2 : DotDims ⟨2, ![100000, 128]⟩ ⟨2, ![128, 64]⟩ ⟨2, ![100000, 64]⟩)
    (D3 : DotDims ⟨2, ![100000, 64]⟩ ⟨2, ![64, 40]⟩ ⟨2, ![100000, 40]⟩)
    (x0 : FVec Ideal ⟨2, ![100000, 128]⟩ .f32) (e : IVec SEdges 32) (w1 : FVec Ideal ⟨2, ![128, 128]⟩ .f32)
    (b1 : FVec Ideal ⟨1, ![128]⟩ .f32) (w2 : FVec Ideal ⟨2, ![128, 64]⟩ .f32) (b2 : FVec Ideal ⟨1, ![64]⟩ .f32)
    (wfc : FVec Ideal ⟨2, ![64, 40]⟩ .f32) (bfc : FVec Ideal ⟨1, ![40]⟩ .f32) : FVec Ideal ⟨2, ![100000, 40]⟩ .f32 :=
  addf
    (Host.dotGeneral D3 none
      (refLayer D2 (by decide) (by decide) (by decide) (by decide) (by decide) (by decide)
        (refLayer D1 (by decide) (by decide) (by decide) (by decide) (by decide) (by decide) x0 w1 b1 (srcOf e) (dstOf e))
        w2 b2 (srcOf e) (dstOf e))
      wfc)
    (biasRows (C := 40) (by decide) (by decide) bfc)

end Cert.Gcn

end
-- ==== Proof.KernelValue.lean ====
/-
  The result array of the idealized kernel program as a term of its arguments.

  The program's buffers are followed boundary by boundary: after the three stretches of host operations before region 0
  (the edge words, the node scales, the scales as a column), after region 0 (its output: the projected features scaled per node), after the host
  operations between regions 0 and 1 (the first aggregate and the first bias as a row), after region 1, after the host
  operations between regions 1 and 2, and after region 2, whose output is the result. At a region's exit its output
  array is the region's whole-array function of its input arrays; an input array and every other buffer are as entered.
-/
import proofs.«147734_j3118146257548_2_alg».proof.Proof.Gen.KernelIdeal.Frame
import proofs.«147734_j3118146257548_2_alg».proof.Proof.KernelHost
import proofs.«147734_j3118146257548_2_alg».proof.Proof.ArrayValue0
import proofs.«147734_j3118146257548_2_alg».proof.Proof.ArrayValue1
import proofs.«147734_j3118146257548_2_alg».proof.Proof.ArrayValue2
import proofs.«147734_j3118146257548_2_alg».proof.Proof.ModelTerms

set_option maxRecDepth 16384

noncomputable section

namespace Cert.KernelIdeal.RunValue

open Cert.KernelIdeal Cert.KernelIdeal.Gen Cert.KernelIdeal.HostValue Cert.KernelIdeal.RegionValue
open Idealize.ShloMosaic Idealize.ShloMosaic.TcCoe Idealize.SL.Sem

theorem scaled_congr {n k c : Nat} {x x' : Cert.Gcn.Mat n k} {w w' : Cert.Gcn.Mat k c} {d d' : Cert.Gcn.Mat n 1}
    (hx : x = x') (hw : w = w') (hd : d = d') : Cert.Gcn.scaled x w d = Cert.Gcn.scaled x' w' d' := by
  subst hx hw hd; rfl
theorem rescaled_congr {n k c : Nat} {a a' : Cert.Gcn.Mat n k} {d d' : Cert.Gcn.Mat n 1} {b b' : Cert.Gcn.Mat 1 k}
    {w w' : Cert.Gcn.Mat k c} (ha : a = a') (hd : d = d') (hb : b = b') (hw : w = w') :
    Cert.Gcn.rescaled a d b w = Cert.Gcn.rescaled a' d' b' w' := by
  subst ha hd hb hw; rfl
theorem headed_congr {n k c : Nat} {a a' : Cert.Gcn.Mat n k} {d d' : Cert.Gcn.Mat n 1} {b b' : Cert.Gcn.Mat 1 k}
    {w w' : Cert.Gcn.Mat k c} {e e' : Cert.Gcn.Mat 1 c} (ha : a = a') (hd : d = d') (hb : b = b') (hw : w = w')
    (he : e = e') : Cert.Gcn.headed a d b w e = Cert.Gcn.headed a' d' b' w' e' := by
  subst ha hd hb hw he; rfl
theorem aggSent_congr {C : Nat} (hz wfS wfG) {H H' : FVec Ideal ⟨2, ![100000, C]⟩ .f32} {sv sv' dv dv' : IVec Cert.Gcn.SE 32}
    (hH : H = H') (hs : sv = sv') (hd : dv = dv') :
    Cert.Gcn.aggSent (C := C) hz wfS wfG H sv dv = Cert.Gcn.aggSent (C := C) hz wfS wfG H' sv' dv' := by
  subst hH hs hd; rfl

theorem sel_congr {p p' : IVec Cert.Gcn.SN 1} {a a' : FVec Ideal Cert.Gcn.SN .f32} {z z' : FVec Ideal Cert.Gcn.S0 .f32}
    (hp : p = p') (ha : a = a') (hz : z = z') :
    select p a (broadcastInDim Cert.Gcn.SN ![] Cert.Gcn.splatN (id z)) = select p' a' (broadcastInDim Cert.Gcn.SN ![] Cert.Gcn.splatN (id z')) := by
  subst hp ha hz; rfl

variable (m : (ℓ : Loc nD τ sig) → Buf (Elt Ideal) ℓ) (ρ : Dev nD → PrngReg) (c : Dev nD)

/-! ## Before region 0: the edge words and the node scales -/

theorem at1_v3 : W1 m ρ c (Proc.devRef .tc main_v3) = Cert.Gcn.srcOf (m ((c : Thread nD τ).loc main_arg1)) :=
  s0_src (W0 m ρ c)
theorem at1_v6 : W1 m ρ c (Proc.devRef .tc main_v6) = Cert.Gcn.dstOf (m ((c : Thread nD τ).loc main_arg1)) :=
  s0_dst (W0 m ρ c)
theorem at1_v12 : W1 m ρ c (Proc.devRef .tc main_v12) = cmpf (F := Ideal) .ogt (Cert.Gcn.degree (Cert.Gcn.dstOf (m ((c : Thread nD τ).loc main_arg1)))) (broadcastInDim Cert.Gcn.SN ![] Cert.Gcn.splatN (constant (F := Ideal) Cert.Gcn.S0 .f32 0x00000000#32)) :=
  s0_pos (W0 m ρ c)
theorem at1_v13 : W1 m ρ c (Proc.devRef .tc main_v13) = Host.rsqrt (F := Ideal) (Cert.Gcn.degree (Cert.Gcn.dstOf (m ((c : Thread nD τ).loc main_arg1)))) :=
  s0_rsqrt (W0 m ρ c)
theorem at1_cst_2 : W1 m ρ c (Proc.devRef .tc main_cst_2) = constant (F := Ideal) Cert.Gcn.S0 .f32 0x00000000#32 :=
  s0_zero (W0 m ρ c)
theorem at1_arg0 : W1 m ρ c (Proc.devRef .tc main_arg0) = m ((c : Thread nD τ).loc main_arg0) :=
  s0_arg0 (W0 m ρ c)
theorem at1_arg1 : W1 m ρ c (Proc.devRef .tc main_arg1) = m ((c : Thread nD τ).loc main_arg1) :=
  s0_arg1 (W0 m ρ c)
theorem at1_arg2 : W1 m ρ c (Proc.devRef .tc main_arg2) = m ((c : Thread nD τ).loc main_arg2) :=
  s0_arg2 (W0 m ρ c)
theorem at1_arg3 : W1 m ρ c (Proc.devRef .tc main_arg3) = m ((c : Thread nD τ).loc main_arg3) :=
  s0_arg3 (W0 m ρ c)
theorem at1_arg4 : W1 m ρ c (Proc.devRef .tc main_arg4) = m ((c : Thread nD τ).loc main_arg4) :=
  s0_arg4 (W0 m ρ c)
theorem at1_arg5 : W1 m ρ c (Proc.devRef .tc main_arg5) = m ((c : Thread nD τ).loc main_arg5) :=
  s0_arg5 (W0 m ρ c)
theorem at1_arg6 : W1 m ρ c (Proc.devRef .tc main_arg6) = m ((c : Thread nD τ).loc main_arg6) :=
  s0_arg6 (W0 m ρ c)
theorem at1_arg7 : W1 m ρ c (Proc.devRef .tc main_arg7) = m ((c : Thread nD τ).loc main_arg7) :=
  s0_arg7 (W0 m ρ c)

theorem at2_v14 : W2 m ρ c (Proc.devRef .tc main_v14) = Cert.Gcn.scaleVec (Cert.Gcn.dstOf (m ((c : Thread nD τ).loc main_arg1))) :=
  (s1_scale (W1 m ρ c)).trans (sel_congr (at1_v12 m ρ c) (at1_v13 m ρ c) (at1_cst_2 m ρ c))
theorem at2_v3 : W2 m ρ c (Proc.devRef .tc main_v3) = Cert.Gcn.srcOf (m ((c : Thread nD τ).loc main_arg1)) :=
  (s1_v3 (W1 m ρ c)).trans (at1_v3 m ρ c)
theorem at2_v6 : W2 m ρ c (Proc.devRef .tc main_v6) = Cert.Gcn.dstOf (m ((c : Thread nD τ).loc main_arg1)) :=
  (s1_v6 (W1 m ρ c)).trans (at1_v6 m ρ c)
theorem at2_arg0 : W2 m ρ c (Proc.devRef .tc main_arg0) = m ((c : Thread nD τ).loc main_arg0) :=
  (s1_arg0 (W1 m ρ c)).trans (at1_arg0 m ρ c)
theorem at2_arg1 : W2 m ρ c (Proc.devRef .tc main_arg1) = m ((c : Thread nD τ).loc main_arg1) :=
  (s1_arg1 (W1 m ρ c)).trans (at1_arg1 m ρ c)
theorem at2_arg2 : W2 m ρ c (Proc.devRef .tc main_arg2) = m ((c : Thread nD τ).loc main_arg2) :=
  (s1_arg2 (W1 m ρ c)).trans (at1_arg2 m ρ c)
theorem at2_arg3 : W2 m ρ c (Proc.devRef .tc main_arg3) = m ((c : Thread nD τ).loc main_arg3) :=
  (s1_arg3 (W1 m ρ c)).trans (at1_arg3 m ρ c)
theorem at2_arg4 : W2 m ρ c (Proc.devRef .tc main_arg4) = m ((c : Thread nD τ).loc main_arg4) :=
  (s1_arg4 (W1 m ρ c)).trans (at1_arg4 m ρ c)
theorem at2_arg5 : W2 m ρ c (Proc.devRef .tc main_arg5) = m ((c : Thread nD τ).loc main_arg5) :=
  (s1_arg5 (W1 m ρ c)).trans (at1_arg5 m ρ c)
theorem at2_arg6 : W2 m ρ c (Proc.devRef .tc main_arg6) = m ((c : Thread nD τ).loc main_arg6) :=
  (s1_arg6 (W1 m ρ c)).trans (at1_arg6 m ρ c)
theorem at2_arg7 : W2 m ρ c (Proc.devRef .tc main_arg7) = m ((c : Thread nD τ).loc main_arg7) :=
  (s1_arg7 (W1 m ρ c)).trans (at1_arg7 m ρ c)

theorem at3_v15 : W3 m ρ c (Proc.devRef .tc main_v15) = Cert.Gcn.scaleCol (Cert.Gcn.dstOf (m ((c : Thread nD τ).loc main_arg1))) :=
  (s2_col (W2 m ρ c)).trans (congrArg (fun z => shapeCast Cert.Gcn.SNc z Cert.Gcn.colN) (at2_v14 m ρ c))
theorem at3_v3 : W3 m ρ c (Proc.devRef .tc main_v3) = Cert.Gcn.srcOf (m ((c : Thread nD τ).loc main_arg1)) :=
  (s2_v3 (W2 m ρ c)).trans (at2_v3 m ρ c)
theorem at3_v6 : W3 m ρ c (Proc.devRef .tc main_v6) = Cert.Gcn.dstOf (m ((c : Thread nD τ).loc main_arg1)) :=
  (s2_v6 (W2 m ρ c)).trans (at2_v6 m ρ c)
theorem at3_arg0 : W3 m ρ c (Proc.devRef .tc main_arg0) = m ((c : Thread nD τ).loc main_arg0) :=
  (s2_arg0 (W2 m ρ c)).trans (at2_arg0 m ρ c)
theorem at3_arg1 : W3 m ρ c (Proc.devRef .tc main_arg1) = m ((c : Thread nD τ).loc main_arg1) :=
  (s2_arg1 (W2 m ρ c)).trans (at2_arg1 m ρ c)
theorem at3_arg2 : W3 m ρ c (Proc.devRef .tc main_arg2) = m ((c : Thread nD τ).loc main_arg2) :=
  (s2_arg2 (W2 m ρ c)).trans (at2_arg2 m ρ c)
theorem at3_arg3 : W3 m ρ c (Proc.devRef .tc main_arg3) = m ((c : Thread nD τ).loc main_arg3) :=
  (s2_arg3 (W2 m ρ c)).trans (at2_arg3 m ρ c)
theorem at3_arg4 : W3 m ρ c (Proc.devRef .tc main_arg4) = m ((c : Thread nD τ).loc main_arg4) :=
  (s2_arg4 (W2 m ρ c)).trans (at2_arg4 m ρ c)
theorem at3_arg5 : W3 m ρ c (Proc.devRef .tc main_arg5) = m ((c : Thread nD τ).loc main_arg5) :=
  (s2_arg5 (W2 m ρ c)).trans (at2_arg5 m ρ c)
theorem at3_arg6 : W3 m ρ c (Proc.devRef .tc main_arg6) = m ((c : Thread nD τ).loc main_arg6) :=
  (s2_arg6 (W2 m ρ c)).trans (at2_arg6 m ρ c)
theorem at3_arg7 : W3 m ρ c (Proc.devRef .tc main_arg7) = m ((c : Thread nD τ).loc main_arg7) :=
  (s2_arg7 (W2 m ρ c)).trans (at2_arg7 m ρ c)

/-! ## Leaving region 0 -/

theorem at4_v16 : W4 m ρ c (Proc.devRef .tc main_v16) = Cert.Gcn.scaled (m ((c : Thread nD τ).loc main_arg0)) (m ((c : Thread nD τ).loc main_arg2)) (Cert.Gcn.scaleCol (Cert.Gcn.dstOf (m ((c : Thread nD τ).loc main_arg1)))) :=
  (W4_arr m ρ c 3).trans ((final0 (V3 m ρ) c).trans (scaled_congr (at3_arg0 m ρ c) (at3_arg2 m ρ c) (at3_v15 m ρ c)))
theorem at4_v15 : W4 m ρ c (Proc.devRef .tc main_v15) = Cert.Gcn.scaleCol (Cert.Gcn.dstOf (m ((c : Thread nD τ).loc main_arg1))) :=
  (W4_arr m ρ c 2).trans (((dat0 (V3 m ρ) c).arrAt_in 2 rfl _).trans ((A_eq0 (V3 m ρ) c 2).trans (at3_v15 m ρ c)))
theorem at4_v3 : W4 m ρ c (Proc.devRef .tc main_v3) = Cert.Gcn.srcOf (m ((c : Thread nD τ).loc main_arg1)) :=
  (W4_of_ne m ρ c main_v3 (by decide)).trans (at3_v3 m ρ c)
theorem at4_v6 : W4 m ρ c (Proc.devRef .tc main_v6) = Cert.Gcn.dstOf (m ((c : Thread nD τ).loc main_arg1)) :=
  (W4_of_ne m ρ c main_v6 (by decide)).trans (at3_v6 m ρ c)
theorem at4_arg3 : W4 m ρ c (Proc.devRef .tc main_arg3) = m ((c : Thread nD τ).loc main_arg3) :=
  (W4_of_ne m ρ c main_arg3 (by decide)).trans (at3_arg3 m ρ c)
theorem at4_arg4 : W4 m ρ c (Proc.devRef .tc main_arg4) = m ((c : Thread nD τ).loc main_arg4) :=
  (W4_of_ne m ρ c main_arg4 (by decide)).trans (at3_arg4 m ρ c)
theorem at4_arg5 : W4 m ρ c (Proc.devRef .tc main_arg5) = m ((c : Thread nD τ).loc main_arg5) :=
  (W4_of_ne m ρ c main_arg5 (by decide)).trans (at3_arg5 m ρ c)
theorem at4_arg6 : W4 m ρ c (Proc.devRef .tc main_arg6) = m ((c : Thread nD τ).loc main_arg6) :=
  (W4_of_ne m ρ c main_arg6 (by decide)).trans (at3_arg6 m ρ c)
theorem at4_arg7 : W4 m ρ c (Proc.devRef .tc main_arg7) = m ((c : Thread nD τ).loc main_arg7) :=
  (W4_of_ne m ρ c main_arg7 (by decide)).trans (at3_arg7 m ρ c)

/-! ## Entering region 1 -/

theorem at5_v26 : W5 m ρ c (Proc.devRef .tc main_v26) = Cert.Gcn.aggSent (C := 128) (by decide) (by decide) (by decide) (Cert.Gcn.scaled (m ((c : Thread nD τ).loc main_arg0)) (m ((c : Thread nD τ).loc main_arg2)) (Cert.Gcn.scaleCol (Cert.Gcn.dstOf (m ((c : Thread nD τ).loc main_arg1))))) (Cert.Gcn.srcOf (m ((c : Thread nD τ).loc main_arg1))) (Cert.Gcn.dstOf (m ((c : Thread nD τ).loc main_arg1))) :=
  (mid1_agg (W4 m ρ c)).trans (aggSent_congr _ _ _ (at4_v16 m ρ c) (at4_v3 m ρ c) (at4_v6 m ρ c))
theorem at5_v27 : W5 m ρ c (Proc.devRef .tc main_v27) = shapeCast S1x128 (m ((c : Thread nD τ).loc main_arg3)) shapeCasts_S128_S1x128 :=
  (mid1_bias (W4 m ρ c)).trans (congrArg (fun x => shapeCast S1x128 x shapeCasts_S128_S1x128) (at4_arg3 m ρ c))
theorem at5_v15 : W5 m ρ c (Proc.devRef .tc main_v15) = Cert.Gcn.scaleCol (Cert.Gcn.dstOf (m ((c : Thread nD τ).loc main_arg1))) :=
  (mid1_v15 (W4 m ρ c)).trans (at4_v15 m ρ c)
theorem at5_v3 : W5 m ρ c (Proc.devRef .tc main_v3) = Cert.Gcn.srcOf (m ((c : Thread nD τ).loc main_arg1)) :=
  (mid1_v3 (W4 m ρ c)).trans (at4_v3 m ρ c)
theorem at5_v6 : W5 m ρ c (Proc.devRef .tc main_v6) = Cert.Gcn.dstOf (m ((c : Thread nD τ).loc main_arg1)) :=
  (mid1_v6 (W4 m ρ c)).trans (at4_v6 m ρ c)
theorem at5_arg4 : W5 m ρ c (Proc.devRef .tc main_arg4) = m ((c : Thread nD τ).loc main_arg4) :=
  (mid1_arg4 (W4 m ρ c)).trans (at4_arg4 m ρ c)
theorem at5_arg5 : W5 m ρ c (Proc.devRef .tc main_arg5) = m ((c : Thread nD τ).loc main_arg5) :=
  (mid1_arg5 (W4 m ρ c)).trans (at4_arg5 m ρ c)
theorem at5_arg6 : W5 m ρ c (Proc.devRef .tc main_arg6) = m ((c : Thread nD τ).loc main_arg6) :=
  (mid1_arg6 (W4 m ρ c)).trans (at4_arg6 m ρ c)
theorem at5_arg7 : W5 m ρ c (Proc.devRef .tc main_arg7) = m ((c : Thread nD τ).loc main_arg7) :=
  (mid1_arg7 (W4 m ρ c)).trans (at4_arg7 m ρ c)

/-! ## Leaving region 1 -/

theorem at6_v28 : W6 m ρ c (Proc.devRef .tc main_v28) = Cert.Gcn.rescaled (Cert.Gcn.aggSent (C := 128) (by decide) (by decide) (by decide) (Cert.Gcn.scaled (m ((c : Thread nD τ).loc main_arg0)) (m ((c : Thread nD τ).loc main_arg2)) (Cert.Gcn.scaleCol (Cert.Gcn.dstOf (m ((c : Thread nD τ).loc main_arg1))))) (Cert.Gcn.srcOf (m ((c : Thread nD τ).loc main_arg1))) (Cert.Gcn.dstOf (m ((c : Thread nD τ).loc main_arg1)))) (Cert.Gcn.scaleCol (Cert.Gcn.dstOf (m ((c : Thread nD τ).loc main_arg1)))) (shapeCast S1x128 (m ((c : Thread nD τ).loc main_arg3)) shapeCasts_S128_S1x128) (m ((c : Thread nD τ).loc main_arg4)) :=
  (W6_arr m ρ c 4).trans ((final1 (V5 m ρ) c).trans (rescaled_congr (at5_v26 m ρ c) (at5_v15 m ρ c) (at5_v27 m ρ c) (at5_arg4 m ρ c)))
theorem at6_v15 : W6 m ρ c (Proc.devRef .tc main_v15) = Cert.Gcn.scaleCol (Cert.Gcn.dstOf (m ((c : Thread nD τ).loc main_arg1))) :=
  (W6_arr m ρ c 1).trans (((dat1 (V5 m ρ) c).arrAt_in 1 rfl _).trans ((A_eq1 (V5 m ρ) c 1).trans (at5_v15 m ρ c)))
theorem at6_v3 : W6 m ρ c (Proc.devRef .tc main_v3) = Cert.Gcn.srcOf (m ((c : Thread nD τ).loc main_arg1)) :=
  (W6_of_ne m ρ c main_v3 (by decide)).trans (at5_v3 m ρ c)
theorem at6_v6 : W6 m ρ c (Proc.devRef .tc main_v6) = Cert.Gcn.dstOf (m ((c : Thread nD τ).loc main_arg1)) :=
  (W6_of_ne m ρ c main_v6 (by decide)).trans (at5_v6 m ρ c)
theorem at6_arg5 : W6 m ρ c (Proc.devRef .tc main_arg5) = m ((c : Thread nD τ).loc main_arg5) :=
  (W6_of_ne m ρ c main_arg5 (by decide)).trans (at5_arg5 m ρ c)
theorem at6_arg6 : W6 m ρ c (Proc.devRef .tc main_arg6) = m ((c : Thread nD τ).loc main_arg6) :=
  (W6_of_ne m ρ c main_arg6 (by decide)).trans (at5_arg6 m ρ c)
theorem at6_arg7 : W6 m ρ c (Proc.devRef .tc main_arg7) = m ((c : Thread nD τ).loc main_arg7) :=
  (W6_of_ne m ρ c main_arg7 (by decide)).trans (at5_arg7 m ρ c)

/-! ## Entering region 2 -/

theorem at7_v38 : W7 m ρ c (Proc.devRef .tc main_v38) = Cert.Gcn.aggSent (C := 64) (by decide) (by decide) (by decide) (Cert.Gcn.rescaled (Cert.Gcn.aggSent (C := 128) (by decide) (by decide) (by decide) (Cert.Gcn.scaled (m ((c : Thread nD τ).loc main_arg0)) (m ((c : Thread nD τ).loc main_arg2)) (Cert.Gcn.scaleCol (Cert.Gcn.dstOf (m ((c : Thread nD τ).loc main_arg1))))) (Cert.Gcn.srcOf (m ((c : Thread nD τ).loc main_arg1))) (Cert.Gcn.dstOf (m ((c : Thread nD τ).loc main_arg1)))) (Cert.Gcn.scaleCol (Cert.Gcn.dstOf (m ((c : Thread nD τ).loc main_arg1)))) (shapeCast S1x128 (m ((c : Thread nD τ).loc main_arg3)) shapeCasts_S128_S1x128) (m ((c : Thread nD τ).loc main_arg4))) (Cert.Gcn.srcOf (m ((c : Thread nD τ).loc main_arg1))) (Cert.Gcn.dstOf (m ((c : Thread nD τ).loc main_arg1))) :=
  (mid2_agg (W6 m ρ c)).trans (aggSent_congr _ _ _ (at6_v28 m ρ c) (at6_v3 m ρ c) (at6_v6 m ρ c))
theorem at7_v39 : W7 m ρ c (Proc.devRef .tc main_v39) = shapeCast S1x64 (m ((c : Thread nD τ).loc main_arg5)) shapeCasts_S64_S1x64 :=
  (mid2_bias (W6 m ρ c)).trans (congrArg (fun x => shapeCast S1x64 x shapeCasts_S64_S1x64) (at6_arg5 m ρ c))
theorem at7_v40 : W7 m ρ c (Proc.devRef .tc main_v40) = shapeCast S1x40 (m ((c : Thread nD τ).loc main_arg7)) shapeCasts_S40_S1x40 :=
  (mid2_head (W6 m ρ c)).trans (congrArg (fun x => shapeCast S1x40 x shapeCasts_S40_S1x40) (at6_arg7 m ρ c))
theorem at7_v15 : W7 m ρ c (Proc.devRef .tc main_v15) = Cert.Gcn.scaleCol (Cert.Gcn.dstOf (m ((c : Thread nD τ).loc main_arg1))) :=
  (mid2_v15 (W6 m ρ c)).trans (at6_v15 m ρ c)
theorem at7_arg6 : W7 m ρ c (Proc.devRef .tc main_arg6) = m ((c : Thread nD τ).loc main_arg6) :=
  (mid2_arg6 (W6 m ρ c)).trans (at6_arg6 m ρ c)

/-! ## Leaving region 2: the result -/

theorem at8_v41 : W8 m ρ c (Proc.devRef .tc main_v41) = Cert.Gcn.headed (Cert.Gcn.aggSent (C := 64) (by decide) (by decide) (by decide) (Cert.Gcn.rescaled (Cert.Gcn.aggSent (C := 128) (by decide) (by decide) (by decide) (Cert.Gcn.scaled (m ((c : Thread nD τ).loc main_arg0)) (m ((c : Thread nD τ).loc main_arg2)) (Cert.Gcn.scaleCol (Cert.Gcn.dstOf (m ((c : Thread nD τ).loc main_arg1))))) (Cert.Gcn.srcOf (m ((c : Thread nD τ).loc main_arg1))) (Cert.Gcn.dstOf (m ((c : Thread nD τ).loc main_arg1)))) (Cert.Gcn.scaleCol (Cert.Gcn.dstOf (m ((c : Thread nD τ).loc main_arg1)))) (shapeCast S1x128 (m ((c : Thread nD τ).loc main_arg3)) shapeCasts_S128_S1x128) (m ((c : Thread nD τ).loc main_arg4))) (Cert.Gcn.srcOf (m ((c : Thread nD τ).loc main_arg1))) (Cert.Gcn.dstOf (m ((c : Thread nD τ).loc main_arg1)))) (Cert.Gcn.scaleCol (Cert.Gcn.dstOf (m ((c : Thread nD τ).loc main_arg1)))) (shapeCast S1x64 (m ((c : Thread nD τ).loc main_arg5)) shapeCasts_S64_S1x64) (m ((c : Thread nD τ).loc main_arg6)) (shapeCast S1x40 (m ((c : Thread nD τ).loc main_arg7)) shapeCasts_S40_S1x40) :=
  (W8_arr m ρ c 5).trans ((final2 (V7 m ρ) c).trans (headed_congr (at7_v38 m ρ c) (at7_v15 m ρ c) (at7_v39 m ρ c) (at7_arg6 m ρ c) (at7_v40 m ρ c)))

/-- The last boundary's contents at the result buffer are the kernel's result term of the launch contents. -/
theorem result_eq : W8 m ρ c (Proc.devRef .tc main_v41)
    = Cert.Gcn.kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  at8_v41 m ρ c

end Cert.KernelIdeal.RunValue

end
-- ==== Proof.RefValue.lean ====
/-
  The reference program's result term is `refOut` of its arguments, for the program's own three dimension records:
  both are the same composition of host operations — the projection, the weighted aggregation, the bias and the clip,
  twice, then the head — and differ only in how the text names its parts.
-/
import proofs.«147734_j3118146257548_2_alg».proof.Proof.RefRun
import proofs.«147734_j3118146257548_2_alg».proof.Proof.ModelTerms

set_option maxRecDepth 16384

noncomputable section

namespace Cert.ReferenceIdeal.RefValue

open Cert.ReferenceIdeal Cert.ReferenceIdeal.Gen
open Idealize.ShloMosaic Idealize.ShloMosaic.TcCoe Idealize.SL.Sem

theorem result_eq (m : (ℓ : Loc nD τ sig) → Buf (Elt Ideal) ℓ) (c : Dev nD) :
    Cert.ReferenceIdeal.ValueP.res_main_v84 m c
      = Cert.Gcn.refOut dot_S100000x128_S128x128_S100000x128_1_0_0_1_n_n dot_S100000x128_S128x64_S100000x64_1_0_0_1_n_n
          dot_S100000x64_S64x40_S100000x40_1_0_0_1_n_n
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v84 Cert.Gcn.refOut Cert.Gcn.refLayer Cert.Gcn.aggWeighted Cert.Gcn.edgeNormRows
    Cert.Gcn.edgeNorm Cert.Gcn.biasRows Cert.Gcn.zeros Cert.Gcn.scaleVec Cert.Gcn.degree Cert.Gcn.col Cert.Gcn.normIdx
    Cert.Gcn.srcOf Cert.Gcn.dstOf
  rfl

end Cert.ReferenceIdeal.RefValue

end
-- ==== Proof.LibFiniteInputs.lean ====
/-
  From the printed precondition "every float input is finite" to "every entry is a real number", at the extended
  reals, for arrays of any shape.

  The precondition prints, per input `x`, as `jnp.all(|x| < +inf)`: the element-wise comparison of `|x|` against the
  f32 infinity word, reduced by `and` over every axis from the constant 1; several inputs are joined by `and`. At the
  extended reals `|a| = max a (-a)` and the infinity word is `⊤`, so the comparison holds at an entry exactly when
  the entry is neither `⊤` nor `⊥`: a real number. The lemmas here are stated over the printed term's shape, generic
  in the array's shape and reduced axes, so that a certificate's own precondition is an instance by unfolding.
-/
import Idealize.ShloMosaic.PureOps.Ideal
import Idealize.ShloMosaic.PureOps.Ideal.Laws
import Idealize.ShloMosaic.Lib.ReduceAll
import Idealize.ShloMosaic.Lib.ValueIdx

noncomputable section

namespace Cert.LibFiniteInputs

open Idealize.ShloMosaic

/-- The rank-0 shape has one index. -/
instance : Subsingleton (⟨0, ![]⟩ : Shape).Idx := ⟨fun a b => funext fun d => d.elim0⟩

/-- The f32 word `0x7F800000` is `+∞` at the extended reals. -/
theorem ofBits_inf_f32 : Ideal.ofBits .f32 0x7F800000#32 = (⊤ : EReal) := by
  simp [Ideal.ofBits, Ideal.ieee]

/-- An extended real whose absolute value `max a (-a)` is below `⊤` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- One entry: the printed comparison `|a| < +inf` coming out 1 says `a` is a real number. -/
theorem real_of_cmp_one (a : Ideal .f32)
    (h : FloatOps.cmpf .olt (FloatOps.absf a) (FloatOps.ofBits (F := Ideal) .f32 0x7F800000#32) = 1#1) :
    ∃ r : ℝ, (a : EReal) = (r : EReal) := by
  have h2 : BitVec.ofBool (decide (max (a : EReal) (-a) < Ideal.ofBits .f32 0x7F800000#32)) = 1#1 := h
  have h' : max (a : EReal) (-a) < Ideal.ofBits .f32 0x7F800000#32 := by
    by_contra hn
    rw [decide_eq_false hn] at h2
    exact absurd h2 (by decide)
  rw [ofBits_inf_f32] at h'
  exact real_of_abs_lt_top a h'

/-- One input: `jnp.all(|x| < +inf)` coming out 1 says every entry of `x` is a real number. -/
theorem all_real {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf x) (broadcastInDim s ![] hb (constant ⟨0, ![]⟩ .f32 0x7F800000#32)))
          (constantI ⟨0, ![]⟩ 1 1#1) hr hu ValueIdx.ix0 = 1#1) :
    ∀ i : s.Idx, ∃ r : ℝ, (x i : EReal) = (r : EReal) := by
  intro i
  have h1 := Host.reduce_andi_all _ _ hr hu ValueIdx.ix0 e i
  exact real_of_cmp_one (x i) h1

/-- Two inputs joined by `and`: both arrays hold real numbers throughout. -/
theorem both_real {s : Shape} {axes : List (Fin s.rank)} (x y : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : andi
          (Host.reduce IntOp.andi
            (cmpf .olt (Host.absf x) (broadcastInDim s ![] hb (constant ⟨0, ![]⟩ .f32 0x7F800000#32)))
            (constantI ⟨0, ![]⟩ 1 1#1) hr hu)
          (Host.reduce IntOp.andi
            (cmpf .olt (Host.absf y) (broadcastInDim s ![] hb (constant ⟨0, ![]⟩ .f32 0x7F800000#32)))
            (constantI ⟨0, ![]⟩ 1 1#1) hr hu) = fun _ => 1#1) :
    (∀ i : s.Idx, ∃ r : ℝ, (x i : EReal) = (r : EReal)) ∧ (∀ i : s.Idx, ∃ r : ℝ, (y i : EReal) = (r : EReal)) := by
  have h0 := congrFun e ValueIdx.ix0
  have h1 : IntOp.andi _ _ = 1#1 := h0
  obtain ⟨ex, ey⟩ := IntOp.andi_eq_one.mp h1
  exact ⟨all_real x hb hr hu ex, all_real y hb hr hu ey⟩

end Cert.LibFiniteInputs

end
-- ==== Proof.FiniteInputs.lean ====
/-
  Every float argument of the program is an array of real numbers.

  The stated precondition is the conjunction, over the seven float arguments `x`, of the test "`|x| < +∞` at every
  entry of `x`": seven rank-0 bits joined by `and`, nested to the left. The conjunction being 1 makes each bit 1, and one such bit being 1
  says that every entry of its array is neither `⊤` nor `⊥` at the extended reals, i.e. a real number. The theorem
  is stated over seven arbitrary arrays of the argument shapes (the integer argument is carried along, untested), so
  that it applies to any program run on arrays that satisfy the precondition.
-/
import proofs.«147734_j3118146257548_2_alg».proof.Pre_finite_inputs
import proofs.«147734_j3118146257548_2_alg».proof.Proof.Gen.Pre_finite_inputs
import proofs.«147734_j3118146257548_2_alg».proof.Proof.LibFiniteInputs

noncomputable section

namespace Cert.Gcn.Finite

open Idealize.ShloMosaic
open Cert.Pre_finite_inputs

/-- From the precondition at seven arrays: every entry of each of them is a real number. -/
theorem inputs_real (x0 : FVec Ideal S100000x128 .f32) (e : IVec S2x1600000 32) (w1 : FVec Ideal S128x128 .f32)
    (b1 : FVec Ideal S128 .f32) (w2 : FVec Ideal S128x64 .f32) (b2 : FVec Ideal S64 .f32)
    (wfc : FVec Ideal S64x40 .f32) (bfc : FVec Ideal S40 .f32)
    (h : Cert.Pre_finite_inputs.fn (F := Ideal) x0 e w1 b1 w2 b2 wfc bfc = fun _ => 1#1) :
    (∀ i, ∃ r : ℝ, x0 i = (r : EReal)) ∧ (∀ i, ∃ r : ℝ, w1 i = (r : EReal)) ∧ (∀ i, ∃ r : ℝ, b1 i = (r : EReal))
      ∧ (∀ i, ∃ r : ℝ, w2 i = (r : EReal)) ∧ (∀ i, ∃ r : ℝ, b2 i = (r : EReal))
      ∧ (∀ i, ∃ r : ℝ, wfc i = (r : EReal)) ∧ (∀ i, ∃ r : ℝ, bfc i = (r : EReal)) := by
  have h0 := congrFun h ValueIdx.ix0
  dsimp only [Cert.Pre_finite_inputs.fn, Cert.Pre_finite_inputs.fn_part1] at h0
  -- the seven bits, peeled off the left-nested conjunction from the outside in
  have a7 : IntOp.andi _ _ = 1#1 := h0
  obtain ⟨h7, e7⟩ := IntOp.andi_eq_one.mp a7
  have a6 : IntOp.andi _ _ = 1#1 := h7
  obtain ⟨h6, e6⟩ := IntOp.andi_eq_one.mp a6
  have a5 : IntOp.andi _ _ = 1#1 := h6
  obtain ⟨h5, e5⟩ := IntOp.andi_eq_one.mp a5
  have a4 : IntOp.andi _ _ = 1#1 := h5
  obtain ⟨h4, e4⟩ := IntOp.andi_eq_one.mp a4
  have a3 : IntOp.andi _ _ = 1#1 := h4
  obtain ⟨h3, e3⟩ := IntOp.andi_eq_one.mp a3
  have a2 : IntOp.andi _ _ = 1#1 := h3
  obtain ⟨e0, e2⟩ := IntOp.andi_eq_one.mp a2
  exact ⟨Cert.LibFiniteInputs.all_real x0 _ _ _ e0, Cert.LibFiniteInputs.all_real w1 _ _ _ e2,
    Cert.LibFiniteInputs.all_real b1 _ _ _ e3, Cert.LibFiniteInputs.all_real w2 _ _ _ e4,
    Cert.LibFiniteInputs.all_real b2 _ _ _ e5, Cert.LibFiniteInputs.all_real wfc _ _ _ e6,
    Cert.LibFiniteInputs.all_real bfc _ _ _ e7⟩

end Cert.Gcn.Finite

end
-- ==== Proof.LibERealSum.lean ====
/-
  Finite sums of extended reals that are all real numbers: the coercion from ℝ commutes with a finite sum, sums,
  products, differences and scalings of real-valued terms are real-valued, and over real-valued terms the laws that
  fail at the infinities (scaling a sum term by term, splitting a sum of differences) hold. A value proof whose two
  sides differ by such a law first shows its terms real (from finite inputs) and then cites these.
-/
import Idealize.ShloMosaic.PureOps.Ideal

noncomputable section

namespace Cert.LibERealSum

open Finset

/-- The coercion ℝ → EReal commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is a real number. -/
abbrev IsReal (a : EReal) : Prop := ∃ r : ℝ, a = (r : EReal)

theorem IsReal.coe (r : ℝ) : IsReal (r : EReal) := ⟨r, rfl⟩
theorem IsReal.zero : IsReal (0 : EReal) := ⟨0, rfl⟩
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.neg {a : EReal} (ha : IsReal a) : IsReal (-a) := by
  obtain ⟨x, rfl⟩ := ha; exact ⟨-x, (EReal.coe_neg x).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩

/-- A finite sum of real-valued terms is real-valued. -/
theorem IsReal.sum {ι : Type*} (s : Finset ι) (g : ι → EReal) (h : ∀ i ∈ s, IsReal (g i)) : IsReal (∑ i ∈ s, g i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- Real witnesses for a family of real-valued terms. -/
theorem exists_real_fun {ι : Type*} (s : Finset ι) (g : ι → EReal) (h : ∀ i ∈ s, IsReal (g i)) :
    ∃ f : ι → ℝ, ∀ i ∈ s, g i = (f i : EReal) := by
  have h' : ∀ i ∈ s, ∃ r : ℝ, g i = (r : EReal) := h
  choose! f hf using h'
  exact ⟨f, hf⟩

/-- Over real-valued terms, scaling a finite sum by a real scales it term by term. -/
theorem sum_mul_real {ι : Type*} (s : Finset ι) (g : ι → EReal) (h : ∀ i ∈ s, IsReal (g i)) (c : ℝ) :
    (∑ i ∈ s, g i) * (c : EReal) = ∑ i ∈ s, g i * (c : EReal) := by
  obtain ⟨f, hf⟩ := exists_real_fun s g h
  have e1 : ∑ i ∈ s, g i = ∑ i ∈ s, (f i : EReal) := Finset.sum_congr rfl hf
  have e2 : ∑ i ∈ s, g i * (c : EReal) = ∑ i ∈ s, ((f i * c : ℝ) : EReal) :=
    Finset.sum_congr rfl fun i hi => by rw [hf i hi, EReal.coe_mul]
  rw [e1, e2, ← coe_sum, ← coe_sum, ← EReal.coe_mul, Finset.sum_mul]

/-- Over real-valued terms, a finite sum of differences is the difference of the sums. -/
theorem sum_sub_real {ι : Type*} (s : Finset ι) (g k : ι → EReal) (hg : ∀ i ∈ s, IsReal (g i)) (hk : ∀ i ∈ s, IsReal (k i)) :
    ∑ i ∈ s, (g i - k i) = (∑ i ∈ s, g i) - ∑ i ∈ s, k i := by
  obtain ⟨f, hf⟩ := exists_real_fun s g hg
  obtain ⟨e, he⟩ := exists_real_fun s k hk
  have e1 : ∑ i ∈ s, g i = ∑ i ∈ s, (f i : EReal) := Finset.sum_congr rfl hf
  have e2 : ∑ i ∈ s, k i = ∑ i ∈ s, (e i : EReal) := Finset.sum_congr rfl he
  have e3 : ∑ i ∈ s, (g i - k i) = ∑ i ∈ s, ((f i - e i : ℝ) : EReal) :=
    Finset.sum_congr rfl fun i hi => by rw [hf i hi, he i hi, EReal.coe_sub]
  rw [e1, e2, e3, ← coe_sum, ← coe_sum, ← coe_sum, ← EReal.coe_sub, Finset.sum_sub_distrib]

open Idealize.ShloMosaic in
/-- A real number divided by a nonzero real (the programs' division at the extended reals) is a real number. -/
theorem IsReal.div {a : EReal} (ha : IsReal a) {c : ℝ} (hc : c ≠ 0) : IsReal (Ideal.div a (c : EReal)) := by
  rw [Ideal.div_coe hc]
  exact ha.mul (IsReal.coe _)

open Idealize.ShloMosaic in
/-- Over real-valued terms, dividing a finite sum by a nonzero real divides it term by term: a mean of sums is the
    sum of the means. -/
theorem sum_div_real {ι : Type*} (s : Finset ι) (g : ι → EReal) (h : ∀ i ∈ s, IsReal (g i)) {c : ℝ} (hc : c ≠ 0) :
    Ideal.div (∑ i ∈ s, g i) (c : EReal) = ∑ i ∈ s, Ideal.div (g i) (c : EReal) := by
  rw [Ideal.div_coe hc]
  simp only [Ideal.div_coe hc]
  exact sum_mul_real s g h (1 / c)

end Cert.LibERealSum

end
-- ==== Proof.LibRealOps.lean ====
/-
  Which host operations keep an array of extended reals inside the real numbers.

  An entry of an extended-real array is either a real number or one of the two infinities. The operations that only
  move entries — a gather, a broadcast, a transpose, a concatenation — read every result entry off some operand entry,
  so a real-valued operand gives a real-valued result. An accumulating scatter adds, onto an operand entry, a finite
  sum of update entries: real when both arrays are. The normalising factor of a graph convolution,
      dinv = where(deg > 0, rsqrt(deg), 0),
  is real wherever the degree is: a positive real has a real reciprocal square root, and elsewhere the factor is 0.
  The words 0x00000000 and 0x3F800000 are the numbers 0 and 1.
-/
import Idealize.ShloMosaic.PureOps.Ideal
import Idealize.ShloMosaic.PureOps.Ideal.Laws
import Idealize.ShloMosaic.PureOps.IdealRules
import Idealize.ShloMosaic.Lib.Pipeline.Value
import Idealize.ShloMosaic.Lib.ValueIdx
import proofs.«147734_j3118146257548_2_alg».proof.Proof.LibERealSum

noncomputable section

open scoped BigOperators

namespace Cert.RealOps

open Idealize.ShloMosaic Idealize.ShloMosaic.ValueIdx Cert.LibERealSum

/-! ## Operations that move entries -/

/-- A gather reads each result entry off an operand entry. -/
theorem gather_real {s si t : Shape} {w : Nat} (d : GatherDims s si t) (x : s.Idx → EReal) (idx : IVec si w)
    (h : ∀ i, IsReal (x i)) (j : t.Idx) : IsReal (Host.gather d x idx j) := h _

/-- A broadcast reads each result entry off an operand entry. -/
theorem broadcastInDim_real {s t : Shape} (dims : Fin s.rank → Fin t.rank) (hb : s.BroadcastsInDim t dims)
    (x : s.Idx → EReal) (h : ∀ i, IsReal (x i)) (j : t.Idx) : IsReal (broadcastInDim t dims hb x j) := h _

/-- A transpose reads each result entry off an operand entry. -/
theorem transpose_real {s t : Shape} (perm : List (Fin s.rank)) (x : s.Idx → EReal) (ht : s.Transposes perm t)
    (h : ∀ i, IsReal (x i)) (j : t.Idx) : IsReal (transpose t perm x ht j) := h _

/-! ## The two constants -/

/-- The word `0x3F800000` is the number one. -/
theorem one_f32 : Ideal.ofBits .f32 0x3F800000#32 = 1 := IdealRules.sign_bit.ideal_onePat .f32

/-- The splat of the word for one is real-valued. -/
theorem constant_one_real {s : Shape} (j : s.Idx) : IsReal (constant (F := Ideal) s .f32 0x3F800000#32 j) := by
  show IsReal (Ideal.ofBits .f32 0x3F800000#32)
  rw [one_f32]
  exact ⟨1, rfl⟩

/-- The splat of the zero word is the number zero. -/
theorem constant_zero_apply {s : Shape} (j : s.Idx) : constant (F := Ideal) s .f32 0x00000000#32 j = 0 :=
  Ideal.ofBits_zero_f32

/-! ## An accumulating scatter -/

/-- A scatter-add leaves, at each entry, the operand's entry plus a finite sum of update entries. -/
theorem scatterAdd_real {s si u : Shape} {w : Nat} {φ : FTy} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  show IsReal (x i + ∑ j ∈ Finset.univ.filter (fun j => d.resultIdx? j idx = some i), upd j)
  exact (hx i).add (IsReal.sum _ _ fun j _ => hu j)

/-! ## Two arrays joined end to end -/

/-- 800000 entries followed by 50000: every entry of the joined vector is an entry of one of the two. -/
theorem concat_vec_real (x₁ : (⟨1, ![800000]⟩ : Shape).Idx → EReal) (x₂ : (⟨1, ![50000]⟩ : Shape).Idx → EReal)
    (h : Shape.Concatenates [(⟨1, ![800000]⟩ : Shape), ⟨1, ![50000]⟩] ⟨1, ![850000]⟩ 0)
    (h1 : ∀ i, IsReal (x₁ i)) (h2 : ∀ i, IsReal (x₂ i)) (j : (⟨1, ![850000]⟩ : Shape).Idx) :
    IsReal (concatenate ⟨1, ![850000]⟩ 0 [⟨⟨1, ![800000]⟩, x₁⟩, ⟨⟨1, ![50000]⟩, x₂⟩] h j) := by
  have hj : (j 0).val < 850000 := (j 0).isLt
  by_cases hc : (j 0).val < 800000
  · rw [concatenate_pair_apply_left 0 x₁ x₂ h j rfl (ix1 ⟨(j 0).val, hc⟩) (fun b => by
      match b with
      | ⟨0, _⟩ => rfl)]
    exact h1 _
  · rw [concatenate_pair_apply_right 0 x₁ x₂ h j rfl rfl (ix1 ⟨(j 0).val - 800000, by omega⟩) (fun b hb => by
      match b with
      | ⟨0, _⟩ => exact absurd rfl hb) (by
      show (j 0).val - 800000 + 800000 = (j 0).val
      omega)]
    exact h2 _

/-- Two blocks of 64 columns side by side: every entry of the joined matrix is an entry of one of the two. -/
theorem concat_cols_real (x₁ x₂ : (⟨2, ![50000, 64]⟩ : Shape).Idx → EReal)
    (h : Shape.Concatenates [(⟨2, ![50000, 64]⟩ : Shape), ⟨2, ![50000, 64]⟩] ⟨2, ![50000, 128]⟩ 1)
    (h1 : ∀ i, IsReal (x₁ i)) (h2 : ∀ i, IsReal (x₂ i)) (j : (⟨2, ![50000, 128]⟩ : Shape).Idx) :
    IsReal (concatenate ⟨2, ![50000, 128]⟩ 1 [⟨⟨2, ![50000, 64]⟩, x₁⟩, ⟨⟨2, ![50000, 64]⟩, x₂⟩] h j) := by
  have hj : (j 1).val < 128 := (j 1).isLt
  by_cases hc : (j 1).val < 64
  · rw [concatenate_pair_apply_left 1 x₁ x₂ h j rfl (ix2 (j 0) ⟨(j 1).val, hc⟩) (fun b => by
      match b with
      | ⟨0, _⟩ => rfl
      | ⟨1, _⟩ => rfl)]
    exact h1 _
  · rw [concatenate_pair_apply_right 1 x₁ x₂ h j rfl rfl (ix2 (j 0) ⟨(j 1).val - 64, by omega⟩) (fun b hb => by
      match b with
      | ⟨0, _⟩ => rfl
      | ⟨1, _⟩ => exact absurd rfl hb) (by
      show (j 1).val - 64 + 64 = (j 1).val
      omega)]
    exact h2 _

/-! ## The normalising factor -/

/-- `where(d > z, rsqrt d, b)` at one entry, for a real degree `d`, the zero `z` and a real filler `b`: real. -/
theorem where_rsqrt_real (d z b : EReal) (hd : IsReal d) (hz : z = 0) (hb : IsReal b) :
    IsReal (Scalar.select (FloatOps.cmpf (F := Ideal) (φ := .f32) .ogt d z) (FloatOps.hostUnary (F := Ideal) (φ := .f32) .rsqrt d) b) := by
  obtain ⟨r, rfl⟩ := hd
  subst hz
  unfold Scalar.select
  split
  · rename_i hc
    have hpos : (0 : EReal) < (r : EReal) := by
      by_contra hn
      have h2 : FloatOps.cmpf (F := Ideal) (φ := .f32) .ogt (r : EReal) 0 = BitVec.ofBool (decide ((0 : EReal) < (r : EReal))) := rfl
      rw [h2, decide_eq_false hn] at hc
      exact absurd hc (by decide)
    have hr : 0 < r := by exact_mod_cast hpos
    show IsReal (Ideal.rsqrt (r : EReal))
    have : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.mpr hr.le), if_neg hr.ne']
    rw [this]
    exact ⟨_, rfl⟩
  · exact hb

end Cert.RealOps

end
-- ==== Proof.LibVecLayout.lean ====
/-
  A vector laid out as a column or as a row.

  A vector of `n` entries becomes an `n × 1` column, or a `1 × n` row, in two ways that programs use interchangeably: by
  a reshape (the entries keep their row-major order), or by a broadcast along a new axis of extent one (entry `p` of
  the result on the old axis is entry `p` of the vector). Read at `(p, 0)`, respectively `(0, q)`, the reshape gives
  entry `p`, respectively `q` (`column_apply`, `row_apply`): the row-major position of `(p, 0)` in `n × 1` is `p · 1 + 0`
  and that of `(0, q)` in `1 × n` is `0 · n + q`. So the two ways give the same array (`column_eq_broadcast`,
  `row_eq_broadcast`), for every `n` and every proof of the two side conditions.
-/
import Idealize.ShloMosaic.Lib.ValueIdx
import Idealize.ShloMosaic.Lib.Pipeline.Value

noncomputable section

namespace Cert.LibVecLayout

open Idealize.ShloMosaic Idealize.ShloMosaic.ValueIdx

/-- A vector laid out as a column, at row `p`. -/
theorem column_apply {n : Nat} (y : (⟨1, ![n]⟩ : Shape).Idx → EReal) (h : (⟨1, ![n]⟩ : Shape).ShapeCasts ⟨2, ![n, 1]⟩)
    (p : Fin n) : shapeCast (⟨2, ![n, 1]⟩ : Shape) y h (ix2 p (0 : Fin 1)) = y (ix1 p) :=
  shapeCast_apply y h (ix2 p (0 : Fin 1)) (ix1 p) (by
    rw [Shape.rowMajor_val_one, Shape.rowMajor_val_two]
    show p.val = p.val * 1 + 0
    omega)

/-- A vector laid out as a row, at column `q`. -/
theorem row_apply {n : Nat} (y : (⟨1, ![n]⟩ : Shape).Idx → EReal) (h : (⟨1, ![n]⟩ : Shape).ShapeCasts ⟨2, ![1, n]⟩)
    (q : Fin n) : shapeCast (⟨2, ![1, n]⟩ : Shape) y h (ix2 (0 : Fin 1) q) = y (ix1 q) :=
  shapeCast_apply y h (ix2 (0 : Fin 1) q) (ix1 q) (by
    rw [Shape.rowMajor_val_one, Shape.rowMajor_val_two]
    show q.val = 0 * n + q.val
    omega)

/-- Laying a vector out as a column by a reshape or by a broadcast along a new unit axis gives the same array. -/
theorem column_eq_broadcast {n : Nat} (y : (⟨1, ![n]⟩ : Shape).Idx → EReal) (h : (⟨1, ![n]⟩ : Shape).ShapeCasts ⟨2, ![n, 1]⟩)
    (h' : (⟨1, ![n]⟩ : Shape).BroadcastsInDim ⟨2, ![n, 1]⟩ ![0]) :
    shapeCast (⟨2, ![n, 1]⟩ : Shape) y h = broadcastInDim (⟨2, ![n, 1]⟩ : Shape) ![0] h' y := by
  funext i
  obtain ⟨p, z, rfl⟩ : ∃ (p : Fin n) (z : Fin 1), i = ix2 p z := ⟨i 0, i 1, eq_ix2 i⟩
  obtain rfl : z = 0 := Subsingleton.elim _ _
  rw [column_apply y h p]
  exact (broadcastInDim_apply _ h' y (ix2 p (0 : Fin 1)) (ix1 p) (fun a => by
    match a with
    | ⟨0, _⟩ =>
      show p.val = if n = 1 then 0 else p.val
      split
      · have := p.isLt; omega
      · rfl)).symm

/-- Laying a vector out as a row by a reshape or by a broadcast along a new unit axis gives the same array. -/
theorem row_eq_broadcast {n : Nat} (y : (⟨1, ![n]⟩ : Shape).Idx → EReal) (h : (⟨1, ![n]⟩ : Shape).ShapeCasts ⟨2, ![1, n]⟩)
    (h' : (⟨1, ![n]⟩ : Shape).BroadcastsInDim ⟨2, ![1, n]⟩ ![1]) :
    shapeCast (⟨2, ![1, n]⟩ : Shape) y h = broadcastInDim (⟨2, ![1, n]⟩ : Shape) ![1] h' y := by
  funext i
  obtain ⟨z, q, rfl⟩ : ∃ (z : Fin 1) (q : Fin n), i = ix2 z q := ⟨i 0, i 1, eq_ix2 i⟩
  obtain rfl : z = 0 := Subsingleton.elim _ _
  rw [row_apply y h q]
  exact (broadcastInDim_apply _ h' y (ix2 (0 : Fin 1) q) (ix1 q) (fun a => by
    match a with
    | ⟨0, _⟩ =>
      show q.val = if n = 1 then 0 else q.val
      split
      · have := q.isLt; omega
      · rfl)).symm

end Cert.LibVecLayout

end
-- ==== Proof.GraphFacts.lean ====
/-
  Facts about the graph terms, at the extended reals.

  * Every node's scale is a REAL number: the degree is a finite sum of ones, and where(deg > 0, 1/sqrt(deg), 0) is real
    wherever the degree is.
  * The scale column at row `i` is the scale vector's entry `i`; a column of start words at row `e` is the vector's word
    `e`; the per-edge products repeated over the columns read, at `(e, f)`, the product of the two gathered scales.
  * A target word that, read signed, names a node `v` is not negative: normalising it for a gather leaves it alone, and
    clamping it into the array gives `v` again.
-/
import Idealize.ShloMosaic.Lib.Pipeline.Value
import proofs.«147734_j3118146257548_2_alg».proof.Proof.GraphTerms
import proofs.«147734_j3118146257548_2_alg».proof.Proof.LibRealOps
import proofs.«147734_j3118146257548_2_alg».proof.Proof.LibVecLayout

noncomputable section

namespace Cert.Gcn

open Idealize.ShloMosaic Idealize.ShloMosaic.ValueIdx Cert.Lib.ScatterGather Cert.LibERealSum

/-- The zero word's splat is real-valued. -/
theorem zeroSplat_real {s : Shape} (j : s.Idx) : IsReal (constant (F := Ideal) s .f32 0x00000000#32 j) :=
  ⟨0, (Cert.RealOps.constant_zero_apply j).trans EReal.coe_zero.symm⟩

/-- Every degree is a real number. -/
theorem degree_real (dv : IVec SE 32) (i : SN.Idx) : IsReal (degree dv i) :=
  Cert.RealOps.scatterAdd_real _ _ _ _
    (Cert.RealOps.broadcastInDim_real _ _ _ fun k => zeroSplat_real (s := S0) k)
    (Cert.RealOps.broadcastInDim_real _ _ _ fun k => Cert.RealOps.constant_one_real (s := S0) k) i

/-- Where an array `g` of degrees holds a real number, where(g > 0, 1/sqrt g, 0) holds a real number. -/
theorem scaleEntry_real (g : FVec Ideal SN .f32) (i : SN.Idx) (hg : IsReal (g i)) :
    IsReal (select (cmpf (F := Ideal) .ogt g (broadcastInDim SN ![] splatN (constant (F := Ideal) S0 .f32 0x00000000#32)))
      (Host.rsqrt (F := Ideal) g) (broadcastInDim SN ![] splatN (id (constant (F := Ideal) S0 .f32 0x00000000#32))) i) :=
by
  have hz : broadcastInDim SN ![] splatN (constant (F := Ideal) S0 .f32 0x00000000#32) i = 0 :=
    Cert.RealOps.constant_zero_apply (s := S0) _
  have hb : IsReal (broadcastInDim SN ![] splatN (id (constant (F := Ideal) S0 .f32 0x00000000#32)) i) :=
    Cert.RealOps.broadcastInDim_real _ _ _ (fun k => zeroSplat_real (s := S0) k) i
  exact Cert.RealOps.where_rsqrt_real (g i) _ _ hg hz hb

/-- Every node's scale is a real number. -/
theorem scaleVec_real (dv : IVec SE 32) (i : SN.Idx) : IsReal (scaleVec dv i) :=
  scaleEntry_real (degree dv) i (degree_real dv i)

/-- The scale column at row `i` is the scale vector's entry `i`. -/
theorem scaleCol_apply (dv : IVec SE 32) (i : Fin 100000) : scaleCol dv (ix2 i (0 : Fin 1)) = scaleVec dv (ix1 i) :=
  Cert.LibVecLayout.column_apply _ _ i

/-- A vector `[A]` laid out as a column `[A, 1]` by a broadcast along a new unit axis, at row `p`: its entry `p`. -/
theorem vecCol_apply {α : Type} {A : Nat} (h : (⟨1, ![A]⟩ : Shape).BroadcastsInDim ⟨2, ![A, 1]⟩ (![0] : Fin 1 → Fin 2))
    (v : (⟨1, ![A]⟩ : Shape).Idx → α) (p : Fin A) :
    broadcastInDim ⟨2, ![A, 1]⟩ ![0] h v (ix2 p (0 : Fin 1)) = v (ix1 p) :=
  broadcastInDim_apply _ _ _ _ (ix1 p) fun a => by
    match a with
    | ⟨0, _⟩ =>
      show p.val = if A = 1 then 0 else p.val
      have := p.isLt
      split <;> omega

/-- A column `[A, 1]` repeated over `B` columns, at `(p, q)`: the column's entry of row `p`. -/
theorem colRows_apply {α : Type} {A B : Nat}
    (h : (⟨2, ![A, 1]⟩ : Shape).BroadcastsInDim ⟨2, ![A, B]⟩ (![0, 1] : Fin 2 → Fin 2))
    (n : (⟨2, ![A, 1]⟩ : Shape).Idx → α) (p : Fin A) (q : Fin B) :
    broadcastInDim ⟨2, ![A, B]⟩ ![0, 1] h n (ix2 p q) = n (ix2 p (0 : Fin 1)) :=
  broadcastInDim_apply _ _ _ _ (ix2 p (0 : Fin 1)) fun a => by
    match a with
    | ⟨0, _⟩ =>
      show p.val = if A = 1 then 0 else p.val
      have := p.isLt
      split <;> omega
    | ⟨1, _⟩ =>
      show (0 : ℕ) = if (1 : ℕ) = 1 then 0 else q.val
      exact (if_pos rfl).symm

/-- A column of start words at row `e` is the vector's word `e`. -/
theorem col_apply (v : IVec SE 32) (e : Fin 1700000) : col v (ix2 e (0 : Fin 1)) = v (ix1 e) :=
  vecCol_apply colE v e

/-- The per-edge products repeated over `C` columns, at `(e, f)`: the product of the two gathered scales of edge `e`. -/
theorem edgeNormRows_apply {C : Nat} (hb : SEc.BroadcastsInDim ⟨2, ![1700000, C]⟩ (![0, 1] : Fin 2 → Fin 2))
    (sv dv : IVec SE 32) (e : Fin 1700000) (f : Fin C) :
    edgeNormRows hb sv dv (ix2 e f)
      = Host.gather (flatGatherDims 100000 1700000 (by decide)) (scaleVec dv) (col (normIdx sv)) (ix1 e)
        * Host.gather (flatGatherDims 100000 1700000 (by decide)) (scaleVec dv) (col (normIdx dv)) (ix1 e) := by
  unfold edgeNormRows
  rw [colRows_apply hb _ e f, vecCol_apply colE _ e]
  unfold edgeNorm
  exact mulf_apply _ _ _

/-- A word that is not negative is left alone by the normalisation. -/
theorem normIdx_of_nonneg (v : IVec SE 32) (e : Fin 1700000) (h : 0 ≤ (v (ix1 e)).toInt) :
    normIdx v (ix1 e) = v (ix1 e) := by
  have hc : cmpi .slt v (broadcastInDim SE ![] splatE (constantI S0 32 0#32)) (ix1 e) = 0#1 := by
    show IntOp.cmpi .slt (v (ix1 e)) 0#32 = 0#1
    have h0 : ¬ (v (ix1 e)).toInt < 0 := by omega
    simp [IntOp.cmpi, BitVec.slt, h0]
  unfold normIdx
  rw [select_apply, hc, select_zero]

/-- THE TARGET OF A LANDING EDGE: if the target word of edge `e`, read signed, is the node `v`, then the normalised
    word, read signed and clamped into the array, is `v` too. -/
theorem landing_target (dv : IVec SE 32) (e : Fin 1700000) (v : Fin 100000)
    (h : (col dv (ix2 e (0 : Fin 1))).toInt = (v.val : ℤ)) :
    min (col (normIdx dv) (ix2 e (0 : Fin 1))).toInt.toNat (100000 - 1) = v.val := by
  rw [col_apply] at h
  rw [col_apply, normIdx_of_nonneg dv e (by omega), h]
  have := v.isLt
  omega

end Cert.Gcn

end
-- ==== Proof.LibGraphAggregate.lean ====
/-
  ONE NORMALISED AGGREGATION OF A GRAPH CONVOLUTION, TWO WAYS, for every size of the arrays.

  A graph has `N` nodes and `M` edges; edge `e` goes from the node named by the start word `src e` to the node named by
  `dst e`. Each node `i` carries a real scale `d i` and a row `Y (i, ·)` of `C` real features. The normalised sum over
  the edges arriving at node `v` can be computed

    * by scaling each row at its source BEFORE it is sent, summing the rows as they arrive, and scaling the sum at the
      target:                         d v · (0 + Σ_{e → v} d (src e) · Y (src e, f)),
    * or by sending the plain rows and scaling each by the product of its two end scales on arrival:
                                       0 + Σ_{e → v} Y (src e, f) · (d (src e) · d (dst e)).

  The two agree because multiplication distributes over a finite sum of REAL numbers (it need not at an infinity) and
  because every edge summed at `v` has `dst e = v`. Here the sending is the host's row gather (start words read signed and
  clamped into the array), the summing its accumulating scatter (start words read signed, a word outside the array
  dropped), so "e → v" means: the target word of `e`, read signed, is `v`; the hypothesis `hdst` says the word the second
  form reads the target scale through names the same node whenever that is the case.
-/
import Idealize.ShloMosaic.PureOps.Ideal
import Idealize.ShloMosaic.Lib.ValueIdx
import proofs.«147734_j3118146257548_2_alg».proof.Proof.LibScatterGather
import proofs.«147734_j3118146257548_2_alg».proof.Proof.LibERealSum

noncomputable section

open scoped BigOperators

namespace Cert.Lib.GraphAggregate

open Idealize.ShloMosaic Idealize.ShloMosaic.ValueIdx Cert.Lib.ScatterGather Cert.LibERealSum

/-- Over real numbers, scaling a sum of scaled terms is the sum of the terms scaled by the product of the two scales. -/
theorem scale_sum {ι : Type*} (E : Finset ι) (y s : ι → EReal) (dv : EReal) (hy : ∀ e ∈ E, IsReal (y e))
    (hs : ∀ e ∈ E, IsReal (s e)) (hd : IsReal dv) :
    dv * (0 + ∑ e ∈ E, s e * y e) = 0 + ∑ e ∈ E, y e * (s e * dv) := by
  obtain ⟨r, rfl⟩ := hd
  rw [zero_add, zero_add, mul_comm, sum_mul_real E (fun e => s e * y e) (fun e he => (hs e he).mul (hy e he)) r]
  refine Finset.sum_congr rfl fun e _ => ?_
  rw [mul_comm (s e) (y e), mul_assoc]

section
variable {N M C w : Nat}
variable (wfS : ScatterDims.WF ⟨2, ![N, C]⟩ ⟨2, ![M, 1]⟩ ⟨2, ![M, C]⟩ [1] [0] [0] 1)
variable (wfG : GatherDims.WF ⟨2, ![N, C]⟩ ⟨2, ![M, 1]⟩ ⟨2, ![M, C]⟩ [1] [0] [] [0] [] 1 ![1, C])
variable (wfF : GatherDims.WF ⟨1, ![N]⟩ ⟨2, ![M, 1]⟩ ⟨1, ![M]⟩ [] [0] [] [0] [] 1 ![1])

/-- THE TWO AGGREGATIONS AGREE at node `v` and feature `f`. `H` is the array of rows scaled at the source, `nb` the array
    of per-edge products of the two end scales, `z` and `z'` the zero arrays the sums start from. -/
theorem aggregate_eq (hN : 0 < N)
    (Y H z z' : FVec Ideal ⟨2, ![N, C]⟩ .f32) (dcol : FVec Ideal ⟨2, ![N, 1]⟩ .f32) (dvec : FVec Ideal ⟨1, ![N]⟩ .f32)
    (src dst dst' : IVec ⟨2, ![M, 1]⟩ w) (nb : FVec Ideal ⟨2, ![M, C]⟩ .f32)
    (hz : ∀ i, z i = 0) (hz' : ∀ i, z' i = 0)
    (hH : ∀ (i : Fin N) (f : Fin C), H (ix2 i f) = dcol (ix2 i (0 : Fin 1)) * Y (ix2 i f))
    (hd : ∀ i : Fin N, dcol (ix2 i (0 : Fin 1)) = dvec (ix1 i))
    (hnb : ∀ (e : Fin M) (f : Fin C), nb (ix2 e f)
      = Host.gather (flatGatherDims N M wfF) dvec src (ix1 e) * Host.gather (flatGatherDims N M wfF) dvec dst' (ix1 e))
    (hdst : ∀ (e : Fin M) (v : Fin N), (dst (ix2 e (0 : Fin 1))).toInt = (v.val : ℤ) →
      min (dst' (ix2 e (0 : Fin 1))).toInt.toNat (N - 1) = v.val)
    (hY : ∀ i, IsReal (Y i)) (hdv : ∀ i, IsReal (dvec i)) (v : Fin N) (f : Fin C) :
    dcol (ix2 v (0 : Fin 1))
        * Host.scatterAdd (rowScatterDims N M C wfS) z dst (Host.gather (rowGatherDims N M C wfG) H src) (ix2 v f)
      = Host.scatterAdd (rowScatterDims N M C wfS) z' dst
          (mulf (Host.gather (rowGatherDims N M C wfG) Y src) nb) (ix2 v f) := by
  rw [scatterAdd_rows_apply, scatterAdd_rows_apply, hz, hz']
  -- the source node of an edge: its start word read signed and clamped into the array
  let s : Fin M → Fin N := fun e => ⟨min (src (ix2 e (0 : Fin 1))).toInt.toNat (N - 1), by omega⟩
  have hL : ∀ e : Fin M, Host.gather (rowGatherDims N M C wfG) H src (ix2 e f)
      = dvec (ix1 (s e)) * Y (ix2 (s e) f) := fun e => by
    rw [gather_rows_apply hN, hH, hd]
  have hR : ∀ e ∈ Finset.univ.filter (fun e : Fin M => (dst (ix2 e (0 : Fin 1))).toInt = (v.val : ℤ)),
      mulf (Host.gather (rowGatherDims N M C wfG) Y src) nb (ix2 e f)
        = Y (ix2 (s e) f) * (dvec (ix1 (s e)) * dvec (ix1 v)) := fun e he => by
    have hv := hdst e v (Finset.mem_filter.mp he).2
    have e1 : (⟨min (dst' (ix2 e (0 : Fin 1))).toInt.toNat (N - 1), by omega⟩ : Fin N) = v := Fin.ext hv
    show Host.gather (rowGatherDims N M C wfG) Y src (ix2 e f) * nb (ix2 e f) = _
    rw [hnb, gather_rows_apply hN, gather_flat_apply hN, gather_flat_apply hN, e1]
  rw [Finset.sum_congr rfl fun e _ => hL e, Finset.sum_congr rfl hR, hd]
  exact scale_sum _ (fun e => Y (ix2 (s e) f)) (fun e => dvec (ix1 (s e))) _ (fun e _ => hY _) (fun e _ => hdv _) (hdv _)

end

end Cert.Lib.GraphAggregate

end
-- ==== Proof.Bridge.lean ====
/-
  THE TWO PROGRAMS COMPUTE THE SAME ARRAY, for real-valued features, weights and biases.

  Layer by layer. Write d for the node scales, Y = a·w for the projected rows, "e → v" for the edges whose target word
  lands at node v, s e for the source node of edge e. The kernel's activation at (v, q) is
      max (d v · (0 + Σ_{e → v} d (s e) · Y (s e, q)) + b q, z),
  the reference's
      max ((0 + Σ_{e → v} Y (s e, q) · (d (s e) · d (t e))) + b q, z),        t e the target read through its normalised word.
  The aggregation law (scaling distributes over the finite sum of reals; t e = v on the edges summed at v) makes the two
  sums equal; the bias and the clip level are the same numbers. So the activations agree entry by entry, the reference's
  is real-valued again, and the next layer takes equal real inputs. The head is a plain product plus a bias on both sides.
-/
import proofs.«147734_j3118146257548_2_alg».proof.Proof.ModelTerms
import proofs.«147734_j3118146257548_2_alg».proof.Proof.GraphFacts
import proofs.«147734_j3118146257548_2_alg».proof.Proof.LibGraphAggregate
import proofs.«147734_j3118146257548_2_alg».proof.Proof.LibDotSum
import proofs.«147734_j3118146257548_2_alg».proof.Proof.LibVecLayout
import Idealize.ShloMosaic.PureOps.Ideal.Laws

noncomputable section

open scoped BigOperators

namespace Cert.Gcn

open Idealize.ShloMosaic Idealize.ShloMosaic.ValueIdx Cert.Lib.ScatterGather Cert.Lib.GraphAggregate Cert.LibERealSum

/-- The larger of two real numbers is a real number. -/
theorem IsReal.max {a b : EReal} (ha : IsReal a) (hb : IsReal b) : IsReal (max a b) := by
  rcases max_choice a b with h | h <;> rw [h] <;> assumption

/-- The clip level is the number zero. -/
theorem clip_real : IsReal clip := ⟨0, Ideal.ofBits_zero_f32.trans EReal.coe_zero.symm⟩

section
variable {K C : Nat}
variable (D : DotDims ⟨2, ![100000, K]⟩ ⟨2, ![K, C]⟩ ⟨2, ![100000, C]⟩)
variable (hr : D.contr.rank = 1) (hs : D.contr.size ⟨0, by omega⟩ = K)
  (hl0 : ∀ j k, (D.lhsIdx j k 0).val = (j 0).val) (hl1 : ∀ j k, (D.lhsIdx j k 1).val = (k ⟨0, by omega⟩).val)
  (hr0 : ∀ j k, (D.rhsIdx j k 0).val = (k ⟨0, by omega⟩).val) (hr1 : ∀ j k, (D.rhsIdx j k 1).val = (j 1).val)
variable (hz : S0.BroadcastsInDim ⟨2, ![100000, C]⟩ (![] : Fin 0 → Fin 2))
variable (hb : SEc.BroadcastsInDim ⟨2, ![1700000, C]⟩ (![0, 1] : Fin 2 → Fin 2))
variable (wfS : ScatterDims.WF ⟨2, ![100000, C]⟩ ⟨2, ![1700000, 1]⟩ ⟨2, ![1700000, C]⟩ [1] [0] [0] 1)
variable (wfG : GatherDims.WF ⟨2, ![100000, C]⟩ ⟨2, ![1700000, 1]⟩ ⟨2, ![1700000, C]⟩ [1] [0] [] [0] [] 1 ![1, C])
variable (h1 : (⟨1, ![C]⟩ : Shape).BroadcastsInDim ⟨2, ![1, C]⟩ (![1] : Fin 1 → Fin 2))
variable (h2 : (⟨2, ![1, C]⟩ : Shape).BroadcastsInDim ⟨2, ![100000, C]⟩ (![0, 1] : Fin 2 → Fin 2))

include hr hs hl0 hl1 hr0 hr1 in
/-- The host's product at `(p, q)`: the sum over `k` of `a (p, k) · w (k, q)`. -/
theorem hostDot_apply (a : FVec Ideal ⟨2, ![100000, K]⟩ .f32) (w : FVec Ideal ⟨2, ![K, C]⟩ .f32) (p : Fin 100000) (q : Fin C) :
    Host.dotGeneral D none a w (ix2 p q) = dotAt a w p q := by
  simp only [Host.dotGeneral]
  exact (Ideal.dotGeneral_apply D none _ a w (ix2 p q)).trans (Cert.LibDotSum.sum_dot D hr hs hl0 hl1 hr0 hr1 a w p q)

include hr hs hl0 hl1 hr0 hr1 in
/-- A product of real-valued arrays is real-valued. -/
theorem hostDot_real (a : FVec Ideal ⟨2, ![100000, K]⟩ .f32) (w : FVec Ideal ⟨2, ![K, C]⟩ .f32)
    (ha : ∀ i, IsReal (a i)) (hw : ∀ i, IsReal (w i)) (i : (⟨2, ![100000, C]⟩ : Shape).Idx) :
    IsReal (Host.dotGeneral D none a w i) := by
  obtain ⟨p, q, rfl⟩ : ∃ (p : Fin 100000) (q : Fin C), i = ix2 p q := ⟨i 0, i 1, eq_ix2 i⟩
  rw [hostDot_apply D hr hs hl0 hl1 hr0 hr1]
  unfold dotAt
  exact IsReal.sum _ _ fun k _ => (ha _).mul (hw _)

/-- The zero array holds the number zero. -/
theorem zeros_zero (j : (⟨2, ![100000, C]⟩ : Shape).Idx) : zeros hz j = 0 := by
  unfold zeros broadcastInDim
  exact Cert.RealOps.constant_zero_apply (s := S0) _

/-- The zero array holds the clip level. -/
theorem zeros_clip (j : (⟨2, ![100000, C]⟩ : Shape).Idx) : zeros hz j = clip := rfl

/-- A bias repeated over the rows, at `(p, q)`: its entry `q`. -/
theorem biasRows_apply (b : FVec Ideal ⟨1, ![C]⟩ .f32) (p : Fin 100000) (q : Fin C) : biasRows h1 h2 b (ix2 p q) = b (ix1 q) :=
  Cert.LibDotSum.bias_apply b h1 h2 p q

/-- The per-edge products are real numbers. -/
theorem edgeNorm_real (sv dv : IVec SE 32) (j : SE.Idx) : IsReal (edgeNorm sv dv j) := by
  unfold edgeNorm
  rw [mulf_apply]
  exact IsReal.mul (Cert.RealOps.gather_real _ _ _ (scaleVec_real dv) j) (Cert.RealOps.gather_real _ _ _ (scaleVec_real dv) j)

/-- The weighted aggregate of real-valued rows is real-valued. -/
theorem aggWeighted_real (Y : FVec Ideal ⟨2, ![100000, C]⟩ .f32) (sv dv : IVec SE 32) (hY : ∀ i, IsReal (Y i))
    (j : (⟨2, ![100000, C]⟩ : Shape).Idx) : IsReal (aggWeighted hz hb wfS wfG Y sv dv j) := by
  unfold aggWeighted
  refine Cert.RealOps.scatterAdd_real _ _ _ _ (fun i => ⟨0, (zeros_zero hz i).trans EReal.coe_zero.symm⟩) (fun i => ?_) j
  rw [mulf_apply]
  unfold edgeNormRows
  exact IsReal.mul (Cert.RealOps.gather_real _ _ _ hY i)
    (Cert.RealOps.broadcastInDim_real _ _ _ (Cert.RealOps.broadcastInDim_real _ _ _ (edgeNorm_real sv dv)) i)

/-- A layer of the reference at `(p, q)`. -/
theorem refLayer_apply (a : FVec Ideal ⟨2, ![100000, K]⟩ .f32) (w : FVec Ideal ⟨2, ![K, C]⟩ .f32) (b : FVec Ideal ⟨1, ![C]⟩ .f32)
    (sv dv : IVec SE 32) (p : Fin 100000) (q : Fin C) :
    refLayer D hz hb wfS wfG h1 h2 a w b sv dv (ix2 p q)
      = max (aggWeighted hz hb wfS wfG (Host.dotGeneral D none a w) sv dv (ix2 p q) + b (ix1 q)) clip := by
  unfold refLayer
  rw [maximumf_apply, addf_apply, biasRows_apply, zeros_clip]

include hr hs hl0 hl1 hr0 hr1 in
/-- A layer of the reference over real-valued inputs is real-valued. -/
theorem refLayer_real (a : FVec Ideal ⟨2, ![100000, K]⟩ .f32) (w : FVec Ideal ⟨2, ![K, C]⟩ .f32) (b : FVec Ideal ⟨1, ![C]⟩ .f32)
    (sv dv : IVec SE 32) (ha : ∀ i, IsReal (a i)) (hw : ∀ i, IsReal (w i)) (hb' : ∀ i, IsReal (b i))
    (i : (⟨2, ![100000, C]⟩ : Shape).Idx) : IsReal (refLayer D hz hb wfS wfG h1 h2 a w b sv dv i) := by
  obtain ⟨p, q, rfl⟩ : ∃ (p : Fin 100000) (q : Fin C), i = ix2 p q := ⟨i 0, i 1, eq_ix2 i⟩
  rw [refLayer_apply]
  exact IsReal.max (IsReal.add (aggWeighted_real hz hb wfS wfG _ sv dv (hostDot_real D hr hs hl0 hl1 hr0 hr1 a w ha hw) _) (hb' _)) clip_real

include hr hs hl0 hl1 hr0 hr1 in
/-- THE AGGREGATES AGREE: the sum of the rows scaled at their sources, scaled at the target, is the weighted sum. -/
theorem layer_pre (a : FVec Ideal ⟨2, ![100000, K]⟩ .f32) (w : FVec Ideal ⟨2, ![K, C]⟩ .f32)
    (H : FVec Ideal ⟨2, ![100000, C]⟩ .f32) (sv dv : IVec SE 32)
    (hH : ∀ (p : Fin 100000) (q : Fin C), H (ix2 p q) = scaleCol dv (ix2 p (0 : Fin 1)) * dotAt a w p q)
    (ha : ∀ i, IsReal (a i)) (hw : ∀ i, IsReal (w i)) (p : Fin 100000) (q : Fin C) :
    scaleCol dv (ix2 p (0 : Fin 1)) * aggSent hz wfS wfG H sv dv (ix2 p q)
      = aggWeighted hz hb wfS wfG (Host.dotGeneral D none a w) sv dv (ix2 p q) := by
  unfold aggSent aggWeighted
  exact aggregate_eq wfS wfG (by decide) (by decide) (Host.dotGeneral D none a w) H (zeros hz) (zeros hz) (scaleCol dv)
    (scaleVec dv) (col (normIdx sv)) (col dv) (col (normIdx dv)) (edgeNormRows hb sv dv)
    (zeros_zero hz) (zeros_zero hz)
    (fun i f => by rw [hH, hostDot_apply D hr hs hl0 hl1 hr0 hr1])
    (fun i => scaleCol_apply dv i)
    (fun e f => edgeNormRows_apply hb sv dv e f)
    (fun e v h => landing_target dv e v h)
    (hostDot_real D hr hs hl0 hl1 hr0 hr1 a w ha hw) (scaleVec_real dv) p q

include hr hs hl0 hl1 hr0 hr1 in
/-- THE ACTIVATIONS AGREE, entry by entry. -/
theorem layer_act (a : FVec Ideal ⟨2, ![100000, K]⟩ .f32) (w : FVec Ideal ⟨2, ![K, C]⟩ .f32) (b : FVec Ideal ⟨1, ![C]⟩ .f32)
    (H : FVec Ideal ⟨2, ![100000, C]⟩ .f32) (brow : Mat 1 C) (sv dv : IVec SE 32)
    (hH : ∀ (p : Fin 100000) (q : Fin C), H (ix2 p q) = scaleCol dv (ix2 p (0 : Fin 1)) * dotAt a w p q)
    (hbrow : ∀ q : Fin C, brow (ix2 (0 : Fin 1) q) = b (ix1 q))
    (ha : ∀ i, IsReal (a i)) (hw : ∀ i, IsReal (w i)) (p : Fin 100000) (q : Fin C) :
    actAt (aggSent hz wfS wfG H sv dv) (scaleCol dv) brow p q = refLayer D hz hb wfS wfG h1 h2 a w b sv dv (ix2 p q) := by
  rw [refLayer_apply]
  unfold actAt
  rw [layer_pre D hr hs hl0 hl1 hr0 hr1 hz hb wfS wfG a w H sv dv hH ha hw, hbrow]

end

/-- The rows the first region sends, at an entry: the projected row scaled at its node. -/
theorem scaled_entry {n k c : Nat} (x : Mat n k) (w : Mat k c) (d : Mat n 1) (p : Fin n) (q : Fin c) :
    scaled x w d (ix2 p q) = d (ix2 p (0 : Fin 1)) * dotAt x w p q := rfl

/-- A record of dimension numbers is that of a plain product `[M, K] × [K, N]`: one contracted axis of extent `K`, the
    left operand read at `(row, k)`, the right at `(k, column)`. -/
structure PlainDot {M K N : Nat} (D : DotDims ⟨2, ![M, K]⟩ ⟨2, ![K, N]⟩ ⟨2, ![M, N]⟩) : Prop where
  hr : D.contr.rank = 1
  hs : D.contr.size ⟨0, by omega⟩ = K
  hl0 : ∀ j k, (D.lhsIdx j k 0).val = (j 0).val
  hl1 : ∀ j k, (D.lhsIdx j k 1).val = (k ⟨0, by omega⟩).val
  hr0 : ∀ j k, (D.rhsIdx j k 0).val = (k ⟨0, by omega⟩).val
  hr1 : ∀ j k, (D.rhsIdx j k 1).val = (j 1).val

/-- THE RESULTS AGREE: for real-valued features, weights and biases the kernel's result array is the reference's. -/
theorem out_eq (D1 : DotDims ⟨2, ![100000, 128]⟩ ⟨2, ![128, 128]⟩ ⟨2, ![100000, 128]⟩)
    (D2 : DotDims ⟨2, ![100000, 128]⟩ ⟨2, ![128, 64]⟩ ⟨2, ![100000, 64]⟩)
    (D3 : DotDims ⟨2, ![100000, 64]⟩ ⟨2, ![64, 40]⟩ ⟨2, ![100000, 40]⟩)
    (P1 : PlainDot D1) (P2 : PlainDot D2) (P3 : PlainDot D3)
    (x0 : FVec Ideal ⟨2, ![100000, 128]⟩ .f32) (e : IVec SEdges 32) (w1 : FVec Ideal ⟨2, ![128, 128]⟩ .f32)
    (b1 : FVec Ideal ⟨1, ![128]⟩ .f32) (w2 : FVec Ideal ⟨2, ![128, 64]⟩ .f32) (b2 : FVec Ideal ⟨1, ![64]⟩ .f32)
    (wfc : FVec Ideal ⟨2, ![64, 40]⟩ .f32) (bfc : FVec Ideal ⟨1, ![40]⟩ .f32)
    (hx : ∀ i, IsReal (x0 i)) (hw1 : ∀ i, IsReal (w1 i)) (hb1 : ∀ i, IsReal (b1 i)) (hw2 : ∀ i, IsReal (w2 i)) :
    kernelOut x0 e w1 b1 w2 b2 wfc bfc = refOut D1 D2 D3 x0 e w1 b1 w2 b2 wfc bfc := by
  funext j
  obtain ⟨p, q, rfl⟩ : ∃ (p : Fin 100000) (q : Fin 40), j = ix2 p q := ⟨j 0, j 1, eq_ix2 j⟩
  -- the first layer's activations, entry by entry
  have act1 : ∀ (p : Fin 100000) (i : Fin 128),
      actAt (aggSent (C := 128) (by decide) (by decide) (by decide) (scaled x0 w1 (scaleCol (dstOf e))) (srcOf e) (dstOf e))
          (scaleCol (dstOf e)) (shapeCast ⟨2, ![1, 128]⟩ b1 rowOf128) p i
        = refLayer D1 (by decide) (by decide) (by decide) (by decide) (by decide) (by decide) x0 w1 b1 (srcOf e) (dstOf e) (ix2 p i) :=
    fun p i => layer_act D1 P1.hr P1.hs P1.hl0 P1.hl1 P1.hr0 P1.hr1 (by decide) (by decide) (by decide) (by decide) (by decide)
      (by decide) x0 w1 b1 (scaled x0 w1 (scaleCol (dstOf e))) (shapeCast ⟨2, ![1, 128]⟩ b1 rowOf128) (srcOf e) (dstOf e)
      (fun p q => scaled_entry x0 w1 (scaleCol (dstOf e)) p q) (fun q => Cert.LibVecLayout.row_apply b1 rowOf128 q) hx hw1 p i
  -- the rows the second region sends: the first activations projected, scaled at the source
  have sent2 : ∀ (p : Fin 100000) (q : Fin 64),
      rescaled (aggSent (C := 128) (by decide) (by decide) (by decide) (scaled x0 w1 (scaleCol (dstOf e))) (srcOf e) (dstOf e))
          (scaleCol (dstOf e)) (shapeCast ⟨2, ![1, 128]⟩ b1 rowOf128) w2 (ix2 p q)
        = scaleCol (dstOf e) (ix2 p (0 : Fin 1))
          * dotAt (refLayer D1 (by decide) (by decide) (by decide) (by decide) (by decide) (by decide) x0 w1 b1 (srcOf e) (dstOf e)) w2 p q :=
    fun p q => by
      rw [rescaled_apply]
      unfold rescaledAt dotAt
      exact congrArg (scaleCol (dstOf e) (ix2 p (0 : Fin 1)) * ·)
        (Finset.sum_congr rfl fun i _ => congrArg (· * w2 (ix2 i q)) (act1 p i))
  unfold kernelOut refOut
  rw [headed_apply, addf_apply, biasRows_apply, hostDot_apply D3 P3.hr P3.hs P3.hl0 P3.hl1 P3.hr0 P3.hr1]
  unfold headedAt dotAt
  rw [Cert.LibVecLayout.row_apply]
  refine congrArg (· + bfc (ix1 q)) (Finset.sum_congr rfl fun i _ => congrArg (· * wfc (ix2 i q)) ?_)
  exact layer_act D2 P2.hr P2.hs P2.hl0 P2.hl1 P2.hr0 P2.hr1 (by decide) (by decide) (by decide) (by decide) (by decide) (by decide)
    (refLayer D1 (by decide) (by decide) (by decide) (by decide) (by decide) (by decide) x0 w1 b1 (srcOf e) (dstOf e)) w2 b2
    (rescaled (aggSent (C := 128) (by decide) (by decide) (by decide) (scaled x0 w1 (scaleCol (dstOf e))) (srcOf e) (dstOf e))
      (scaleCol (dstOf e)) (shapeCast ⟨2, ![1, 128]⟩ b1 rowOf128) w2)
    (shapeCast ⟨2, ![1, 64]⟩ b2 rowOf64)
    (srcOf e) (dstOf e) sent2 (fun q => Cert.LibVecLayout.row_apply b2 rowOf64 q)
    (refLayer_real D1 P1.hr P1.hs P1.hl0 P1.hl1 P1.hr0 P1.hr1 (by decide) (by decide) (by decide) (by decide) (by decide) (by decide)
      x0 w1 b1 (srcOf e) (dstOf e) hx hw1 hb1) hw2 p i

end Cert.Gcn

end
-- ==== Proof.lean ====
/-
  A two-layer graph convolution with a linear head, computed two ways, gives the same array on the extended reals
  whenever the float inputs are finite.

  THE KERNEL PROGRAM runs three pipelined regions over row blocks of 5000 nodes, with the gathers and accumulating
  scatters along the edges as host operations between them. Writing d for the node scales (the reciprocal square root
  of the degree, 0 at degree 0), it (1) projects the features and scales each row by its node's scale; aggregates these
  rows along the edges; (2) scales the aggregate at the target, adds the bias, clips below, projects and scales again;
  aggregates; (3) scales, adds the bias, clips and applies the head. THE REFERENCE projects, gathers the rows, weights
  each by the product of its two end scales, aggregates, adds the bias and clips, per layer, then applies the head.

  The modules: the three regions' outputs as whole-array functions of their inputs (from their blocks), the kernel
  program's run with its result named and that result followed through the program boundary by boundary, the
  reference's run and its result as one term, the precondition opened to "every entry is a real number", and the
  bridge: the two aggregations agree because multiplication distributes over a finite sum of real numbers and every
  edge summed at a node has that node as its target. The frames of the two kernel programs are the generated ones; the
  reference's frame is its run with the result dropped; the idealization rewrote nothing, so it preserves trivially.
-/
import proofs.«147734_j3118146257548_2_alg».proof.Defs
import proofs.«147734_j3118146257548_2_alg».proof.Proof.Gen.Kernel
import proofs.«147734_j3118146257548_2_alg».proof.Proof.Gen.Kernel.Skeleton
import proofs.«147734_j3118146257548_2_alg».proof.Proof.Gen.Kernel.Launch
import proofs.«147734_j3118146257548_2_alg».proof.Proof.Gen.Kernel.Points
import proofs.«147734_j3118146257548_2_alg».proof.Proof.Gen.Kernel.Frame
import proofs.«147734_j3118146257548_2_alg».proof.Proof.Gen.KernelIdeal
import proofs.«147734_j3118146257548_2_alg».proof.Proof.Gen.KernelIdeal.Skeleton
import proofs.«147734_j3118146257548_2_alg».proof.Proof.Gen.KernelIdeal.Launch
import proofs.«147734_j3118146257548_2_alg».proof.Proof.Gen.KernelIdeal.Points
import proofs.«147734_j3118146257548_2_alg».proof.Proof.Gen.KernelIdeal.Frame
import proofs.«147734_j3118146257548_2_alg».proof.Proof.Gen.ReferenceIdeal
import proofs.«147734_j3118146257548_2_alg».proof.Proof.Gen.Pre_finite_inputs
import proofs.«147734_j3118146257548_2_alg».proof.Proof.KernelRun
import proofs.«147734_j3118146257548_2_alg».proof.Proof.KernelValue
import proofs.«147734_j3118146257548_2_alg».proof.Proof.RefRun
import proofs.«147734_j3118146257548_2_alg».proof.Proof.RefValue
import proofs.«147734_j3118146257548_2_alg».proof.Proof.FiniteInputs
import proofs.«147734_j3118146257548_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The reference's three products are plain matrix products. -/
theorem plain1 : Cert.Gcn.PlainDot Cert.ReferenceIdeal.dot_S100000x128_S128x128_S100000x128_1_0_0_1_n_n :=
  ⟨rfl, rfl, fun _ _ => rfl, fun _ _ => rfl, fun _ _ => rfl, fun _ _ => rfl⟩
theorem plain2 : Cert.Gcn.PlainDot Cert.ReferenceIdeal.dot_S100000x128_S128x64_S100000x64_1_0_0_1_n_n :=
  ⟨rfl, rfl, fun _ _ => rfl, fun _ _ => rfl, fun _ _ => rfl, fun _ _ => rfl⟩
theorem plain3 : Cert.Gcn.PlainDot Cert.ReferenceIdeal.dot_S100000x64_S64x40_S100000x40_1_0_0_1_n_n :=
  ⟨rfl, rfl, fun _ _ => rfl, fun _ _ => rfl, fun _ _ => rfl, fun _ _ => rfl⟩

/-- Both programs end with the kernel's result term of the arguments: the kernel program by following its result
    through its boundaries, the reference because its own term equals that one on real-valued inputs. -/
theorem algebraic : Cert.algebraic_KernelIdeal_ReferenceIdeal := by
  intro m ρ m' ρ' hpre hagree
  refine ⟨fun c => Cert.Gcn.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.RunValue.result_eq m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.ValueP.run (F := Ideal) m' ρ')
    obtain ⟨hx, hw1, hb1, hw2, -, -, -⟩ := Cert.Gcn.Finite.inputs_real _ _ _ _ _ _ _ _ (hpre c)
    rw [Cert.ReferenceIdeal.RefValue.result_eq m' c, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.Gcn.out_eq _ _ _ plain1 plain2 plain3 _ _ _ _ _ _ _ _ hx hw1 hb1 hw2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
